-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S256x512 : Shape := ⟨2, ![256, 512]⟩
abbrev S524288 : Shape := ⟨1, ![524288]⟩
abbrev S131072 : Shape := ⟨1, ![131072]⟩
abbrev S1000000 : Shape := ⟨1, ![1000000]⟩
abbrev S8192 : Shape := ⟨1, ![8192]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S524288 : S_.BroadcastsInDim S524288 (![] : Fin 0 → Fin S524288.rank)
  reducesTo_S524288_S_d0 : S524288.ReducesTo [0] S_
  bcast_S_S131072 : S_.BroadcastsInDim S131072 (![] : Fin 0 → Fin S131072.rank)
  reducesTo_S131072_S_d0 : S131072.ReducesTo [0] S_
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S524288 .f32) (main_arg12 : FVec F S131072 .f32) (main_arg13 : FVec F S1000000 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S524288 .f32 := Host.absf main_arg11
  let main_cst_20 : FVec F S_ .f32 := constant S_ .f32 0x7F800000#32
  let main_v55 : FVec F S524288 .f32 := broadcastInDim S524288 ![] bcast_S_S524288 main_cst_20
  let main_v56 : IVec S524288 1 := cmpf .olt main_v54 main_v55
  let main_c_21 : IVec S_ 1 := constantI S_ 1 1#1
  let main_v57 : IVec S_ 1 := (fun x v => Host.reduce IntOp.andi x v reducesTo_S524288_S_d0 h_S_) main_v56 main_c_21
  let main_v58 : IVec S_ 1 := andi main_v53 main_v57
  let main_v59 : FVec F S131072 .f32 := Host.absf main_arg12
  let main_cst_22 : FVec F S_ .f32 := constant S_ .f32 0x7F800000#32
  let main_v60 : FVec F S131072 .f32 := broadcastInDim S131072 ![] bcast_S_S131072 main_cst_22
  let main_v61 : IVec S131072 1 := cmpf .olt main_v59 main_v60
  let main_c_23 : IVec S_ 1 := constantI S_ 1 1#1
  let main_v62 : IVec S_ 1 := (fun x v => Host.reduce IntOp.andi x v reducesTo_S131072_S_d0 h_S_) main_v61 main_c_23
  let main_v63 : IVec S_ 1 := andi main_v58 main_v62
  let main_v64 : FVec F S1000000 .f32 := Host.absf main_arg13
  let main_cst_24 : FVec F S_ .f32 := constant S_ .f32 0x7F800000#32
  let main_v65 : FVec F S1000000 .f32 := broadcastInDim S1000000 ![] bcast_S_S1000000 main_cst_24
  let main_v66 : IVec S1000000 1 := cmpf .olt main_v64 main_v65
  let main_c_25 : IVec S_ 1 := constantI S_ 1 1#1
  let main_v67 : IVec S_ 1 := (fun x v => Host.reduce IntOp.andi x v reducesTo_S1000000_S_d0 h_S_) main_v66 main_c_25
  fn_part4 (F := F) main_v63 main_v67

def fn_part2 {F : FTy → Type} [FloatOps F] (main_arg7 : FVec F S256x256 .f32) (main_arg8 : FVec F S256 .f32) (main_arg9 : FVec F S256x512 .f32) (main_arg10 : FVec F S256 .f32) (main_arg11 : FVec F S524288 .f32) (main_arg12 : FVec F S131072 .f32) (main_arg13 : FVec F S1000000 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256 .f32) (main_arg5 : FVec F S256x512 .f32) (main_arg6 : FVec F S256 .f32) (main_arg7 : FVec F S256x256 .f32) (main_arg8 : FVec F S256 .f32) (main_arg9 : FVec F S256x512 .f32) (main_arg10 : FVec F S256 .f32) (main_arg11 : FVec F S524288 .f32) (main_arg12 : FVec F S131072 .f32) (main_arg13 : FVec F S1000000 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S131072x256 .f32) (main_arg1 : FVec F S256x256 .f32) (main_arg2 : FVec F S256 .f32) (main_arg3 : FVec F S256x256 .f32) (main_arg4 : FVec F S256 .f32) (main_arg5 : FVec F S256x512 .f32) (main_arg6 : FVec F S256 .f32) (main_arg7 : FVec F S256x256 .f32) (main_arg8 : FVec F S256 .f32) (main_arg9 : FVec F S256x512 .f32) (main_arg10 : FVec F S256 .f32) (main_arg11 : FVec F S524288 .f32) (main_arg12 : FVec F S131072 .f32) (main_arg13 : FVec F S1000000 .f32) (main_arg14 : IVec S524288 32) (main_arg15 : IVec S524288 32) (main_arg16 : IVec S131072 32) (main_arg17 : IVec S131072 32) (main_arg18 : IVec S8192 32) (main_arg19 : IVec S8192 32) (main_arg20 : IVec S8192 32) (main_arg21 : IVec S8192 32) (main_arg22 : IVec S8192 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S131072x256 : Shape := ⟨2, ![131072, 256]⟩
abbrev S256x256 : Shape := ⟨2, ![256, 256]⟩
abbrev S256 : Shape := ⟨1, ![256]⟩
abbrev S256x512 : Shape := ⟨2, ![256, 512]⟩
abbrev S524288 : Shape := ⟨1, ![524288]⟩
abbrev S131072 : Shape := ⟨1, ![131072]⟩
abbrev S1000000 : Shape := ⟨1, ![1000000]⟩
abbrev S8192 : Shape := ⟨1, ![8192]⟩
abbrev S1x256 : Shape := ⟨2, ![1, 256]⟩
abbrev S4096x256 : Shape := ⟨2, ![4096, 256]⟩
abbrev S32768x256 : Shape := ⟨2, ![32768, 256]⟩
abbrev S_ : Shape := ⟨0, ![]⟩
abbrev S524288x1 : Shape := ⟨2, ![524288, 1]⟩
abbrev S524288x256 : Shape := ⟨2, ![524288, 256]⟩
abbrev S32768 : Shape := ⟨1, ![32768]⟩
abbrev S32768x1 : Shape := ⟨2, ![32768, 1]⟩
abbrev S32768x512 : Shape := ⟨2, ![32768, 512]⟩
abbrev S512x256 : Shape := ⟨2, ![512, 256]⟩
abbrev S4096x512 : Shape := ⟨2, ![4096, 512]⟩
abbrev S8192x256 : Shape := ⟨2, ![8192, 256]⟩
abbrev S131072x1 : Shape := ⟨2, ![131072, 1]⟩
abbrev S8192x1 : Shape := ⟨2, ![8192, 1]⟩
abbrev S8192x512 : Shape := ⟨2, ![8192, 512]⟩
abbrev S2048x512 : Shape := ⟨2, ![2048, 512]⟩
abbrev S2048x256 : Shape := ⟨2, ![2048, 256]⟩

abbrev nBuf : Space → Nat
  | .hbm => 211
  | .vmem => 30
  | .smem => 0
  | _ => 0

abbrev hbmTy0_0 (i : Nat) : BufTy := match i % 128 with
  | 0 => ⟨S131072x256, .f32⟩
  | 1 => ⟨S256x256, .f32⟩
  | 2 => ⟨S256, .f32⟩
  | 3 => ⟨S256x256, .f32⟩
  | 4 => ⟨S256, .f32⟩
  | 5 => ⟨S256x512, .f32⟩
  | 6 => ⟨S256, .f32⟩
  | 7 => ⟨S256x256, .f32⟩
  | 8 => ⟨S256, .f32⟩
  | 9 => ⟨S256x512, .f32⟩
  | 10 => ⟨S256, .f32⟩
  | 11 => ⟨S524288, .f32⟩
  | 12 => ⟨S131072, .f32⟩
  | 13 => ⟨S1000000, .f32⟩
  | 14 => ⟨S524288, .i32⟩
  | 15 => ⟨S524288, .i32⟩
  | 16 => ⟨S131072, .i32⟩
  | 17 => ⟨S131072, .i32⟩
  | 18 => ⟨S8192, .i32⟩
  | 19 => ⟨S8192, .i32⟩
  | 20 => ⟨S8192, .i32⟩
  | 21 => ⟨S8192, .i32⟩
  | 22 => ⟨S8192, .i32⟩
  | 23 => ⟨S256x256, .f32⟩
  | 24 => ⟨S1x256, .f32⟩
  | 25 => ⟨S131072x256, .f32⟩
  | 26 => ⟨S32768x256, .f32⟩
  | 27 => ⟨S256x256, .f32⟩
  | 28 => ⟨S1x256, .f32⟩
  | 29 => ⟨S131072x256, .f32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288x256, .f32⟩
  | 39 => ⟨S524288x1, .f32⟩
  | 40 => ⟨S524288x256, .f32⟩
  | 41 => ⟨S524288x256, .f32⟩
  | 42 => ⟨S_, .f32⟩
  | 43 => ⟨S32768x256, .f32⟩
  | 44 => ⟨S524288x1, .i32⟩
  | 45 => ⟨S32768x256, .f32⟩
  | 46 => ⟨S_, .f32⟩
  | 47 => ⟨S32768, .f32⟩
  | 48 => ⟨S524288x1, .i32⟩
  | 49 => ⟨S32768, .f32⟩
  | 50 => ⟨S_, .f32⟩
  | 51 => ⟨S_, .f32⟩
  | 52 => ⟨S32768, .f32⟩
  | 53 => ⟨S32768, .f32⟩
  | 54 => ⟨S32768x1, .f32⟩
  | 55 => ⟨S32768x256, .f32⟩
  | 56 => ⟨S32768x256, .f32⟩
  | 57 => ⟨S32768x512, .f32⟩
  | 58 => ⟨S512x256, .f32⟩
  | 59 => ⟨S1x256, .f32⟩
  | 60 => ⟨S32768x256, .f32⟩
  | 61 => ⟨S8192x256, .f32⟩
  | 62 => ⟨S256x256, .f32⟩
  | 63 => ⟨S1x256, .f32⟩
  | 64 => ⟨S32768x256, .f32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x256, .f32⟩
  | 74 => ⟨S131072x1, .f32⟩
  | 75 => ⟨S131072x256, .f32⟩
  | 76 => ⟨S131072x256, .f32⟩
  | 77 => ⟨S_, .f32⟩
  | 78 => ⟨S8192x256, .f32⟩
  | 79 => ⟨S131072x1, .i32⟩
  | 80 => ⟨S8192x256, .f32⟩
  | 81 => ⟨S_, .f32⟩
  | 82 => ⟨S8192, .f32⟩
  | 83 => ⟨S131072x1, .i32⟩
  | 84 => ⟨S8192, .f32⟩
  | 85 => ⟨S_, .f32⟩
  | 86 => ⟨S_, .f32⟩
  | 87 => ⟨S8192, .f32⟩
  | 88 => ⟨S8192, .f32⟩
  | 89 => ⟨S8192x1, .f32⟩
  | 90 => ⟨S8192x256, .f32⟩
  | 91 => ⟨S8192x256, .f32⟩
  | 92 => ⟨S8192x512, .f32⟩
  | 93 => ⟨S512x256, .f32⟩
  | 94 => ⟨S1x256, .f32⟩
  | 95 => ⟨S8192x256, .f32⟩
  | 96 => ⟨S8192x256, .f32⟩
  | 97 => ⟨S8192x256, .f32⟩
  | 98 => ⟨S8192x256, .f32⟩
  | 99 => ⟨S_, .f32⟩
  | 100 => ⟨S8192, .f32⟩
  | 101 => ⟨S8192x1, .f32⟩
  | 102 => ⟨S8192x1, .f32⟩
  | 103 => ⟨S_, .f32⟩
  | 104 => ⟨S8192x1, .f32⟩
  | 105 => ⟨S8192x1, .i1⟩
  | 106 => ⟨S_, .f32⟩
  | 107 => ⟨S_, .f32⟩
  | 108 => ⟨S8192x1, .f32⟩
  | 109 => ⟨S8192x1, .f32⟩
  | 110 => ⟨S8192x256, .f32⟩
  | 111 => ⟨S8192x256, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192, .f32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S131072x256, .f32⟩

abbrev hbmTy0_1 (i : Nat) : BufTy := match i % 128 with
  | 0 => ⟨S8192x1, .i32⟩
  | 1 => ⟨S8192x256, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x256, .f32⟩
  | 11 => ⟨S8192x256, .f32⟩
  | 12 => ⟨S_, .f32⟩
  | 13 => ⟨S8192, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192, .f32⟩
  | 23 => ⟨S8192, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192, .f32⟩
  | 33 => ⟨S8192, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x256, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x256, .f32⟩
  | 52 => ⟨S8192x256, .f32⟩
  | 53 => ⟨S_, .f32⟩
  | 54 => ⟨S8192, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192, .f32⟩
  | 64 => ⟨S8192, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192, .f32⟩
  | 74 => ⟨S8192, .f32⟩
  | 75 => ⟨S8192, .f32⟩
  | 76 => ⟨S_, .f32⟩
  | 77 => ⟨S8192, .f32⟩
  | 78 => ⟨S8192, .f32⟩
  | 79 => ⟨S_, .f32⟩
  | 80 => ⟨S_, .f32⟩
  | 81 => ⟨S8192, .f32⟩
  | 82 => ⟨S8192, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S256x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S4096x512, .f32⟩
  | .local _ .vmem, ⟨13, _⟩ => ⟨S4096x512, .f32⟩
  | .local _ .vmem, ⟨14, _⟩ => ⟨S512x256, .f32⟩
  | .local _ .vmem, ⟨15, _⟩ => ⟨S1x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S4096x256, .f32⟩
  | .local _ .vmem, ⟨20, _⟩ => ⟨S256x256, .f32⟩
  | .local _ .vmem, ⟨21, _⟩ => ⟨S1x256, .f32⟩
  | .local _ .vmem, ⟨22, _⟩ => ⟨S4096x256, .f32⟩
  | .local _ .vmem, ⟨23, _⟩ => ⟨S4096x256, .f32⟩
  | .local _ .vmem, ⟨24, _⟩ => ⟨S2048x512, .f32⟩
  | .local _ .vmem, ⟨25, _⟩ => ⟨S2048x512, .f32⟩
  | .local _ .vmem, ⟨26, _⟩ => ⟨S512x256, .f32⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_3 : Ref sig .tc := ⟨.hbm, 65, rfl⟩
abbrev main_v35 : Ref sig .tc := ⟨.hbm, 66, rfl⟩
abbrev main_v36 : Ref sig .tc := ⟨.hbm, 67, rfl⟩
abbrev main_c_4 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_6 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_call1_v0 : Ref sig .tc := ⟨.hbm, 86, rfl⟩
abbrev main_call1_v1 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call2_v0 : Ref sig .tc := ⟨.hbm, 98, rfl⟩
abbrev main_call2_cst : Ref sig .tc := ⟨.hbm, 99, rfl⟩
abbrev main_call2_v1 : Ref sig .tc := ⟨.hbm, 100, rfl⟩
abbrev main_call2_v2 : Ref sig .tc := ⟨.hbm, 101, rfl⟩
abbrev main_v61 : Ref sig .tc := ⟨.hbm, 102, rfl⟩
abbrev main_cst_8 : Ref sig .tc := ⟨.hbm, 103, rfl⟩
abbrev main_v62 : Ref sig .tc := ⟨.hbm, 104, rfl⟩
abbrev main_v63 : Ref sig .tc := ⟨.hbm, 105, rfl⟩
abbrev main_cst_9 : Ref sig .tc := ⟨.hbm, 106, rfl⟩
abbrev main_call3_v0 : Ref sig .tc := ⟨.hbm, 107, rfl⟩
abbrev main_call3_v1 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_10 : Ref sig .tc := ⟨.hbm, 112, rfl⟩
abbrev main_v67 : Ref sig .tc := ⟨.hbm, 113, rfl⟩
abbrev main_v68 : Ref sig .tc := ⟨.hbm, 114, rfl⟩
abbrev main_c_11 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_12 : Ref sig .tc := ⟨.hbm, 121, rfl⟩
abbrev main_v74 : Ref sig .tc := ⟨.hbm, 122, rfl⟩
abbrev main_v75 : Ref sig .tc := ⟨.hbm, 123, rfl⟩
abbrev main_c_13 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_14 : Ref sig .tc := ⟨.hbm, 130, rfl⟩
abbrev main_v81 : Ref sig .tc := ⟨.hbm, 131, rfl⟩
abbrev main_v82 : Ref sig .tc := ⟨.hbm, 132, rfl⟩
abbrev main_c_15 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_16 : Ref sig .tc := ⟨.hbm, 140, rfl⟩
abbrev main_v89 : Ref sig .tc := ⟨.hbm, 141, rfl⟩
abbrev main_c_17 : Ref sig .tc := ⟨.hbm, 142, rfl⟩
abbrev main_v90 : Ref sig .tc := ⟨.hbm, 143, rfl⟩
abbrev main_v91 : Ref sig .tc := ⟨.hbm, 144, rfl⟩
abbrev main_c_18 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_19 : Ref sig .tc := ⟨.hbm, 152, rfl⟩
abbrev main_v98 : Ref sig .tc := ⟨.hbm, 153, rfl⟩
abbrev main_v99 : Ref sig .tc := ⟨.hbm, 154, rfl⟩
abbrev main_c_20 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c_21 : Ref sig .tc := ⟨.hbm, 162, rfl⟩
abbrev main_v106 : Ref sig .tc := ⟨.hbm, 163, rfl⟩
abbrev main_v107 : Ref sig .tc := ⟨.hbm, 164, rfl⟩
abbrev main_c_22 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_23 : Ref sig .tc := ⟨.hbm, 171, rfl⟩
abbrev main_v113 : Ref sig .tc := ⟨.hbm, 172, rfl⟩
abbrev main_v114 : Ref sig .tc := ⟨.hbm, 173, rfl⟩
abbrev main_c_24 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_25 : Ref sig .tc := ⟨.hbm, 181, rfl⟩
abbrev main_v121 : Ref sig .tc := ⟨.hbm, 182, rfl⟩
abbrev main_c_26 : Ref sig .tc := ⟨.hbm, 183, rfl⟩
abbrev main_v122 : Ref sig .tc := ⟨.hbm, 184, rfl⟩
abbrev main_v123 : Ref sig .tc := ⟨.hbm, 185, rfl⟩
abbrev main_c_27 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_c_28 : Ref sig .tc := ⟨.hbm, 193, rfl⟩
abbrev main_v130 : Ref sig .tc := ⟨.hbm, 194, rfl⟩
abbrev main_v131 : Ref sig .tc := ⟨.hbm, 195, rfl⟩
abbrev main_c_29 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_30 : Ref sig .tc := ⟨.hbm, 204, rfl⟩
abbrev main_v139 : Ref sig .tc := ⟨.hbm, 205, rfl⟩
abbrev main_v140 : Ref sig .tc := ⟨.hbm, 206, rfl⟩
abbrev main_cst_31 : Ref sig .tc := ⟨.hbm, 207, rfl⟩
abbrev main_call4_v0 : Ref sig .tc := ⟨.hbm, 208, rfl⟩
abbrev main_call4_v1 : Ref sig .tc := ⟨.hbm, 209, rfl⟩
abbrev main_v141 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S256x256_S256x256_1_0 : S256x256.Transposes [1, 0] S256x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S131072x256_S32768x256_0_0 : S131072x256.Slices ![0, 0] S32768x256
  shapeCasts_S4096x256_S4096x256 : S4096x256.ShapeCasts S4096x256
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x256_0_1 : S524288x1.BroadcastsInDim S524288x256 (![0, 1] : Fin 2 → Fin S524288x256.rank)
  bcast_S_S32768x256 : S_.BroadcastsInDim S32768x256 (![] : Fin 0 → Fin S32768x256.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  concatenates_S32768x256_S32768x256_S32768x512_d1 : Shape.Concatenates [S32768x256, S32768x256] S32768x512 1
  transposes_S256x512_S512x256_1_0 : S256x512.Transposes [1, 0] S512x256
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S32768x256_S8192x256_0_0 : S32768x256.Slices ![0, 0] S8192x256
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  concatenates_S8192x256_S8192x256_S8192x512_d1 : Shape.Concatenates [S8192x256, S8192x256] S8192x512 1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S131072x256_S8192x256_0_0 : S131072x256.Slices ![0, 0] S8192x256
  reducesTo_S8192x256_S8192_d1 : S8192x256.ReducesTo [1] S8192
  h_S_ : 0 < S_.numel
  bcast_S_S8192x1 : S_.BroadcastsInDim S8192x1 (![] : Fin 0 → Fin S8192x1.rank)
  dot_S4096x256_S256x256_S4096x256_1_0_0_1_n_n_wf : DotDims.WF S4096x256 S256x256 S4096x256 [1] [0] [0] [1] [] []
  gather_S131072x256_S524288x1_S524288x256_1_0_n_n_0_1_1256_wf : GatherDims.WF S131072x256 S524288x1 S524288x256 [1] [0] [] [0] [] 1 ![1, 256]
  scatter_S32768x256_S524288x1_S524288x256_1_0_0_1_wf : ScatterDims.WF S32768x256 S524288x1 S524288x256 [1] [0] [0] 1
  scatter_S32768_S524288x1_S524288_n_0_0_1_wf : ScatterDims.WF S32768 S524288x1 S524288 [] [0] [0] 1
  dot_S4096x512_S512x256_S4096x256_1_0_0_1_n_n_wf : DotDims.WF S4096x512 S512x256 S4096x256 [1] [0] [0] [1] [] []
  gather_S32768x256_S131072x1_S131072x256_1_0_n_n_0_1_1256_wf : GatherDims.WF S32768x256 S131072x1 S131072x256 [1] [0] [] [0] [] 1 ![1, 256]
  scatter_S8192x256_S131072x1_S131072x256_1_0_0_1_wf : ScatterDims.WF S8192x256 S131072x1 S131072x256 [1] [0] [0] 1
  scatter_S8192_S131072x1_S131072_n_0_0_1_wf : ScatterDims.WF S8192 S131072x1 S131072 [] [0] [0] 1
  dot_S2048x512_S512x256_S2048x256_1_0_0_1_n_n_wf : DotDims.WF S2048x512 S512x256 S2048x256 [1] [0] [0] [1] [] []
  gather_S1000000_S8192x1_S8192_n_0_n_n_0_1_1_wf : GatherDims.WF S1000000 S8192x1 S8192 [] [0] [] [0] [] 1 ![1]
  gather_S8192x256_S8192x1_S8192x256_1_0_n_n_0_1_1256_wf : GatherDims.WF S8192x256 S8192x1 S8192x256 [1] [0] [] [0] [] 1 ![1, 256]
  gather_S8192_S8192x1_S8192_n_0_n_n_0_1_1_wf : GatherDims.WF S8192 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S131072x256.size a
  hwx0_3 : ∀ i : grid0.Coords, EltTy.bits .f32 = 32 ∨ (Rect.block (s := S131072x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S131072x256.size a
  hwx1_3 : ∀ i : grid1.Coords, EltTy.bits .f32 = 32 ∨ (Rect.block (s := S131072x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S32768x512.size a
  hwx2_0 : ∀ i : grid2.Coords, EltTy.bits .f32 = 32 ∨ (Rect.block (s := S32768x512) S4096x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S32768x256.size a
  hwx2_3 : ∀ i : grid2.Coords, EltTy.bits .f32 = 32 ∨ (Rect.block (s := S32768x256) S4096x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S32768x256.size a
  hwx3_0 : ∀ i : grid3.Coords, EltTy.bits .f32 = 32 ∨ (Rect.block (s := S32768x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x256.size a ≤ S32768x256.size a
  hwx3_3 : ∀ i : grid3.Coords, EltTy.bits .f32 = 32 ∨ (Rect.block (s := S32768x256) S4096x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S8192x512.size a
  hwx4_0 : ∀ i : grid4.Coords, EltTy.bits .f32 = 32 ∨ (Rect.block (s := S8192x512) S2048x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x256.size a ≤ S8192x256.size a
  hwx4_3 : ∀ i : grid4.Coords, EltTy.bits .f32 = 32 ∨ (Rect.block (s := S8192x256) S2048x256.size (cc4_transform_3 i) (hinb4_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S131072x256_S524288x1_S524288x256_1_0_n_n_0_1_1256 : GatherDims S131072x256 S524288x1 S524288x256 where
  offsetDims := [1]
  collapsedSliceDims := [0]
  operandBatchingDims := []
  startIndicesBatchingDims := []
  startIndexMap := [0]
  indexVectorDim := 1
  sliceSizes := ![1, 256]
  wf := gather_S131072x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def gather_S32768x256_S131072x1_S131072x256_1_0_n_n_0_1_1256 : GatherDims S32768x256 S131072x1 S131072x256 where
  offsetDims := [1]
  collapsedSliceDims := [0]
  operandBatchingDims := []
  startIndicesBatchingDims := []
  startIndexMap := [0]
  indexVectorDim := 1
  sliceSizes := ![1, 256]
  wf := gather_S32768x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S1000000_S8192x1_S8192_n_0_n_n_0_1_1 : GatherDims S1000000 S8192x1 S8192 where
  offsetDims := []
  collapsedSliceDims := [0]
  operandBatchingDims := []
  startIndicesBatchingDims := []
  startIndexMap := [0]
  indexVectorDim := 1
  sliceSizes := ![1]
  wf := gather_S1000000_S8192x1_S8192_n_0_n_n_0_1_1_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S4096x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S2048x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S256x512 : Shape := ⟨2, ![256, 512]⟩
abbrev S524288 : Shape := ⟨1, ![524288]⟩
abbrev S131072 : Shape := ⟨1, ![131072]⟩
abbrev S1000000 : Shape := ⟨1, ![1000000]⟩
abbrev S8192 : Shape := ⟨1, ![8192]⟩
abbrev S1x256 : Shape := ⟨2, ![1, 256]⟩
abbrev S32768x256 : Shape := ⟨2, ![32768, 256]⟩
abbrev S_ : Shape := ⟨0, ![]⟩
abbrev S524288x1 : Shape := ⟨2, ![524288, 1]⟩
abbrev S524288x256 : Shape := ⟨2, ![524288, 256]⟩
abbrev S32768 : Shape := ⟨1, ![32768]⟩
abbrev S32768x1 : Shape := ⟨2, ![32768, 1]⟩
abbrev S32768x512 : Shape := ⟨2, ![32768, 512]⟩
abbrev S512x256 : Shape := ⟨2, ![512, 256]⟩
abbrev S8192x256 : Shape := ⟨2, ![8192, 256]⟩
abbrev S131072x1 : Shape := ⟨2, ![131072, 1]⟩
abbrev S8192x1 : Shape := ⟨2, ![8192, 1]⟩
abbrev S8192x512 : Shape := ⟨2, ![8192, 512]⟩

abbrev nBuf : Space → Nat
  | .hbm => 233
  | .vmem => 0
  | .smem => 0
  | _ => 0

abbrev hbmTy0_0 (i : Nat) : BufTy := match i % 128 with
  | 0 => ⟨S131072x256, .f32⟩
  | 1 => ⟨S256x256, .f32⟩
  | 2 => ⟨S256, .f32⟩
  | 3 => ⟨S256x256, .f32⟩
  | 4 => ⟨S256, .f32⟩
  | 5 => ⟨S256x512, .f32⟩
  | 6 => ⟨S256, .f32⟩
  | 7 => ⟨S256x256, .f32⟩
  | 8 => ⟨S256, .f32⟩
  | 9 => ⟨S256x512, .f32⟩
  | 10 => ⟨S256, .f32⟩
  | 11 => ⟨S524288, .f32⟩
  | 12 => ⟨S131072, .f32⟩
  | 13 => ⟨S1000000, .f32⟩
  | 14 => ⟨S524288, .i32⟩
  | 15 => ⟨S524288, .i32⟩
  | 16 => ⟨S131072, .i32⟩
  | 17 => ⟨S131072, .i32⟩
  | 18 => ⟨S8192, .i32⟩
  | 19 => ⟨S8192, .i32⟩
  | 20 => ⟨S8192, .i32⟩
  | 21 => ⟨S8192, .i32⟩
  | 22 => ⟨S8192, .i32⟩
  | 23 => ⟨S256x256, .f32⟩
  | 24 => ⟨S131072x256, .f32⟩
  | 25 => ⟨S1x256, .f32⟩
  | 26 => ⟨S131072x256, .f32⟩
  | 27 => ⟨S131072x256, .f32⟩
  | 28 => ⟨S32768x256, .f32⟩
  | 29 => ⟨S256x256, .f32⟩
  | 30 => ⟨S131072x256, .f32⟩
  | 31 => ⟨S1x256, .f32⟩
  | 32 => ⟨S131072x256, .f32⟩
  | 33 => ⟨S131072x256, .f32⟩
  | 34 => ⟨S_, .f32⟩
  | 35 => ⟨S131072x256, .f32⟩
  | 36 => ⟨S131072x256, .f32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S524288x256, .f32⟩
  | 46 => ⟨S524288x1, .f32⟩
  | 47 => ⟨S524288x256, .f32⟩
  | 48 => ⟨S524288x256, .f32⟩
  | 49 => ⟨S_, .f32⟩
  | 50 => ⟨S32768x256, .f32⟩
  | 51 => ⟨S524288x1, .i32⟩
  | 52 => ⟨S32768x256, .f32⟩
  | 53 => ⟨S_, .f32⟩
  | 54 => ⟨S32768, .f32⟩
  | 55 => ⟨S524288x1, .i32⟩
  | 56 => ⟨S32768, .f32⟩
  | 57 => ⟨S_, .f32⟩
  | 58 => ⟨S_, .f32⟩
  | 59 => ⟨S32768, .f32⟩
  | 60 => ⟨S32768, .f32⟩
  | 61 => ⟨S32768x1, .f32⟩
  | 62 => ⟨S32768x256, .f32⟩
  | 63 => ⟨S32768x256, .f32⟩
  | 64 => ⟨S32768x512, .f32⟩
  | 65 => ⟨S512x256, .f32⟩
  | 66 => ⟨S32768x256, .f32⟩
  | 67 => ⟨S1x256, .f32⟩
  | 68 => ⟨S32768x256, .f32⟩
  | 69 => ⟨S32768x256, .f32⟩
  | 70 => ⟨S_, .f32⟩
  | 71 => ⟨S32768x256, .f32⟩
  | 72 => ⟨S32768x256, .f32⟩
  | 73 => ⟨S8192x256, .f32⟩
  | 74 => ⟨S256x256, .f32⟩
  | 75 => ⟨S32768x256, .f32⟩
  | 76 => ⟨S1x256, .f32⟩
  | 77 => ⟨S32768x256, .f32⟩
  | 78 => ⟨S32768x256, .f32⟩
  | 79 => ⟨S_, .f32⟩
  | 80 => ⟨S32768x256, .f32⟩
  | 81 => ⟨S32768x256, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072x256, .f32⟩
  | 91 => ⟨S131072x1, .f32⟩
  | 92 => ⟨S131072x256, .f32⟩
  | 93 => ⟨S131072x256, .f32⟩
  | 94 => ⟨S_, .f32⟩
  | 95 => ⟨S8192x256, .f32⟩
  | 96 => ⟨S131072x1, .i32⟩
  | 97 => ⟨S8192x256, .f32⟩
  | 98 => ⟨S_, .f32⟩
  | 99 => ⟨S8192, .f32⟩
  | 100 => ⟨S131072x1, .i32⟩
  | 101 => ⟨S8192, .f32⟩
  | 102 => ⟨S_, .f32⟩
  | 103 => ⟨S_, .f32⟩
  | 104 => ⟨S8192, .f32⟩
  | 105 => ⟨S8192, .f32⟩
  | 106 => ⟨S8192x1, .f32⟩
  | 107 => ⟨S8192x256, .f32⟩
  | 108 => ⟨S8192x256, .f32⟩
  | 109 => ⟨S8192x512, .f32⟩
  | 110 => ⟨S512x256, .f32⟩
  | 111 => ⟨S8192x256, .f32⟩
  | 112 => ⟨S1x256, .f32⟩
  | 113 => ⟨S8192x256, .f32⟩
  | 114 => ⟨S8192x256, .f32⟩
  | 115 => ⟨S_, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S_, .f32⟩
  | 122 => ⟨S8192, .f32⟩
  | 123 => ⟨S8192x1, .f32⟩
  | 124 => ⟨S8192x1, .f32⟩
  | 125 => ⟨S_, .f32⟩
  | 126 => ⟨S8192x1, .f32⟩
  | 127 => ⟨S8192x1, .i1⟩
  | _ => ⟨S131072x256, .f32⟩

abbrev hbmTy0_1 (i : Nat) : BufTy := match i % 128 with
  | 0 => ⟨S_, .f32⟩
  | 1 => ⟨S_, .f32⟩
  | 2 => ⟨S8192x1, .f32⟩
  | 3 => ⟨S8192x1, .f32⟩
  | 4 => ⟨S8192x256, .f32⟩
  | 5 => ⟨S8192x256, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x256, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x256, .f32⟩
  | 33 => ⟨S8192x256, .f32⟩
  | 34 => ⟨S_, .f32⟩
  | 35 => ⟨S8192, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .f32⟩
  | 45 => ⟨S8192, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192, .f32⟩
  | 55 => ⟨S8192, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x256, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x256, .f32⟩
  | 74 => ⟨S8192x256, .f32⟩
  | 75 => ⟨S_, .f32⟩
  | 76 => ⟨S8192, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192, .f32⟩
  | 86 => ⟨S8192, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192, .f32⟩
  | 96 => ⟨S8192, .f32⟩
  | 97 => ⟨S8192, .f32⟩
  | 98 => ⟨S_, .f32⟩
  | 99 => ⟨S8192, .f32⟩
  | 100 => ⟨S8192, .f32⟩
  | 101 => ⟨S_, .f32⟩
  | 102 => ⟨S_, .f32⟩
  | 103 => ⟨S8192, .f32⟩
  | 104 => ⟨S8192, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call0_cst : Ref sig .tc := ⟨.hbm, 34, rfl⟩
abbrev main_call0_v0 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_call2_cst : Ref sig .tc := ⟨.hbm, 70, rfl⟩
abbrev main_call2_v0 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call3_cst : Ref sig .tc := ⟨.hbm, 79, rfl⟩
abbrev main_call3_v0 : Ref sig .tc := ⟨.hbm, 80, rfl⟩
abbrev main_v45 : Ref sig .tc := ⟨.hbm, 81, rfl⟩
abbrev main_c_3 : Ref sig .tc := ⟨.hbm, 82, rfl⟩
abbrev main_v46 : Ref sig .tc := ⟨.hbm, 83, rfl⟩
abbrev main_v47 : Ref sig .tc := ⟨.hbm, 84, rfl⟩
abbrev main_c_4 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_5 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_7 : Ref sig .tc := ⟨.hbm, 102, rfl⟩
abbrev main_call4_v0 : Ref sig .tc := ⟨.hbm, 103, rfl⟩
abbrev main_call4_v1 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call5_cst : Ref sig .tc := ⟨.hbm, 115, rfl⟩
abbrev main_call5_v0 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call6_v0 : Ref sig .tc := ⟨.hbm, 120, rfl⟩
abbrev main_call6_cst : Ref sig .tc := ⟨.hbm, 121, rfl⟩
abbrev main_call6_v1 : Ref sig .tc := ⟨.hbm, 122, rfl⟩
abbrev main_call6_v2 : Ref sig .tc := ⟨.hbm, 123, rfl⟩
abbrev main_v75 : Ref sig .tc := ⟨.hbm, 124, rfl⟩
abbrev main_cst_8 : Ref sig .tc := ⟨.hbm, 125, rfl⟩
abbrev main_v76 : Ref sig .tc := ⟨.hbm, 126, rfl⟩
abbrev main_v77 : Ref sig .tc := ⟨.hbm, 127, rfl⟩
abbrev main_cst_9 : Ref sig .tc := ⟨.hbm, 128, rfl⟩
abbrev main_call7_v0 : Ref sig .tc := ⟨.hbm, 129, rfl⟩
abbrev main_call7_v1 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_10 : Ref sig .tc := ⟨.hbm, 134, rfl⟩
abbrev main_v81 : Ref sig .tc := ⟨.hbm, 135, rfl⟩
abbrev main_v82 : Ref sig .tc := ⟨.hbm, 136, rfl⟩
abbrev main_c_11 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_12 : Ref sig .tc := ⟨.hbm, 143, rfl⟩
abbrev main_v88 : Ref sig .tc := ⟨.hbm, 144, rfl⟩
abbrev main_v89 : Ref sig .tc := ⟨.hbm, 145, rfl⟩
abbrev main_c_13 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_c_14 : Ref sig .tc := ⟨.hbm, 152, rfl⟩
abbrev main_v95 : Ref sig .tc := ⟨.hbm, 153, rfl⟩
abbrev main_v96 : Ref sig .tc := ⟨.hbm, 154, rfl⟩
abbrev main_c_15 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_16 : Ref sig .tc := ⟨.hbm, 162, rfl⟩
abbrev main_v103 : Ref sig .tc := ⟨.hbm, 163, rfl⟩
abbrev main_c_17 : Ref sig .tc := ⟨.hbm, 164, rfl⟩
abbrev main_v104 : Ref sig .tc := ⟨.hbm, 165, rfl⟩
abbrev main_v105 : Ref sig .tc := ⟨.hbm, 166, rfl⟩
abbrev main_c_18 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_19 : Ref sig .tc := ⟨.hbm, 174, rfl⟩
abbrev main_v112 : Ref sig .tc := ⟨.hbm, 175, rfl⟩
abbrev main_v113 : Ref sig .tc := ⟨.hbm, 176, rfl⟩
abbrev main_c_20 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_21 : Ref sig .tc := ⟨.hbm, 184, rfl⟩
abbrev main_v120 : Ref sig .tc := ⟨.hbm, 185, rfl⟩
abbrev main_v121 : Ref sig .tc := ⟨.hbm, 186, rfl⟩
abbrev main_c_22 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_c_23 : Ref sig .tc := ⟨.hbm, 193, rfl⟩
abbrev main_v127 : Ref sig .tc := ⟨.hbm, 194, rfl⟩
abbrev main_v128 : Ref sig .tc := ⟨.hbm, 195, rfl⟩
abbrev main_c_24 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_25 : Ref sig .tc := ⟨.hbm, 203, rfl⟩
abbrev main_v135 : Ref sig .tc := ⟨.hbm, 204, rfl⟩
abbrev main_c_26 : Ref sig .tc := ⟨.hbm, 205, rfl⟩
abbrev main_v136 : Ref sig .tc := ⟨.hbm, 206, rfl⟩
abbrev main_v137 : Ref sig .tc := ⟨.hbm, 207, rfl⟩
abbrev main_c_27 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_c_28 : Ref sig .tc := ⟨.hbm, 215, rfl⟩
abbrev main_v144 : Ref sig .tc := ⟨.hbm, 216, rfl⟩
abbrev main_v145 : Ref sig .tc := ⟨.hbm, 217, rfl⟩
abbrev main_c_29 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_30 : Ref sig .tc := ⟨.hbm, 226, rfl⟩
abbrev main_v153 : Ref sig .tc := ⟨.hbm, 227, rfl⟩
abbrev main_v154 : Ref sig .tc := ⟨.hbm, 228, rfl⟩
abbrev main_cst_31 : Ref sig .tc := ⟨.hbm, 229, rfl⟩
abbrev main_call8_v0 : Ref sig .tc := ⟨.hbm, 230, rfl⟩
abbrev main_call8_v1 : Ref sig .tc := ⟨.hbm, 231, rfl⟩
abbrev main_v155 : Ref sig .tc := ⟨.hbm, 232, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S32768x256_0_0 : S131072x256.Slices ![0, 0] S32768x256
  bcast_S_S131072x256 : S_.BroadcastsInDim S131072x256 (![] : Fin 0 → Fin S131072x256.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x256_0_1 : S524288x1.BroadcastsInDim S524288x256 (![0, 1] : Fin 2 → Fin S524288x256.rank)
  bcast_S_S32768x256 : S_.BroadcastsInDim S32768x256 (![] : Fin 0 → Fin S32768x256.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  concatenates_S32768x256_S32768x256_S32768x512_d1 : Shape.Concatenates [S32768x256, S32768x256] S32768x512 1
  transposes_S256x512_S512x256_1_0 : S256x512.Transposes [1, 0] S512x256
  bcast_S1x256_S32768x256_0_1 : S1x256.BroadcastsInDim S32768x256 (![0, 1] : Fin 2 → Fin S32768x256.rank)
  slices_S32768x256_S8192x256_0_0 : S32768x256.Slices ![0, 0] S8192x256
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  concatenates_S8192x256_S8192x256_S8192x512_d1 : Shape.Concatenates [S8192x256, S8192x256] S8192x512 1
  bcast_S1x256_S8192x256_0_1 : S1x256.BroadcastsInDim S8192x256 (![0, 1] : Fin 2 → Fin S8192x256.rank)
  slices_S131072x256_S8192x256_0_0 : S131072x256.Slices ![0, 0] S8192x256
  reducesTo_S8192x256_S8192_d1 : S8192x256.ReducesTo [1] S8192
  h_S_ : 0 < S_.numel
  bcast_S_S8192x1 : S_.BroadcastsInDim S8192x1 (![] : Fin 0 → Fin S8192x1.rank)
  dot_S131072x256_S256x256_S131072x256_1_0_0_1_n_n_wf : DotDims.WF S131072x256 S256x256 S131072x256 [1] [0] [0] [1] [] []
  gather_S131072x256_S524288x1_S524288x256_1_0_n_n_0_1_1256_wf : GatherDims.WF S131072x256 S524288x1 S524288x256 [1] [0] [] [0] [] 1 ![1, 256]
  scatter_S32768x256_S524288x1_S524288x256_1_0_0_1_wf : ScatterDims.WF S32768x256 S524288x1 S524288x256 [1] [0] [0] 1
  scatter_S32768_S524288x1_S524288_n_0_0_1_wf : ScatterDims.WF S32768 S524288x1 S524288 [] [0] [0] 1
  dot_S32768x512_S512x256_S32768x256_1_0_0_1_n_n_wf : DotDims.WF S32768x512 S512x256 S32768x256 [1] [0] [0] [1] [] []
  dot_S32768x256_S256x256_S32768x256_1_0_0_1_n_n_wf : DotDims.WF S32768x256 S256x256 S32768x256 [1] [0] [0] [1] [] []
  gather_S32768x256_S131072x1_S131072x256_1_0_n_n_0_1_1256_wf : GatherDims.WF S32768x256 S131072x1 S131072x256 [1] [0] [] [0] [] 1 ![1, 256]
  scatter_S8192x256_S131072x1_S131072x256_1_0_0_1_wf : ScatterDims.WF S8192x256 S131072x1 S131072x256 [1] [0] [0] 1
  scatter_S8192_S131072x1_S131072_n_0_0_1_wf : ScatterDims.WF S8192 S131072x1 S131072 [] [0] [0] 1
  dot_S8192x512_S512x256_S8192x256_1_0_0_1_n_n_wf : DotDims.WF S8192x512 S512x256 S8192x256 [1] [0] [0] [1] [] []
  gather_S1000000_S8192x1_S8192_n_0_n_n_0_1_1_wf : GatherDims.WF S1000000 S8192x1 S8192 [] [0] [] [0] [] 1 ![1]
  gather_S8192x256_S8192x1_S8192x256_1_0_n_n_0_1_1256_wf : GatherDims.WF S8192x256 S8192x1 S8192x256 [1] [0] [] [0] [] 1 ![1, 256]
  gather_S8192_S8192x1_S8192_n_0_n_n_0_1_1_wf : GatherDims.WF S8192 S8192x1 S8192 [] [0] [] [0] [] 1 ![1]

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def gather_S131072x256_S524288x1_S524288x256_1_0_n_n_0_1_1256 : GatherDims S131072x256 S524288x1 S524288x256 where
  offsetDims := [1]
  collapsedSliceDims := [0]
  operandBatchingDims := []
  startIndicesBatchingDims := []
  startIndexMap := [0]
  indexVectorDim := 1
  sliceSizes := ![1, 256]
  wf := gather_S131072x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def gather_S32768x256_S131072x1_S131072x256_1_0_n_n_0_1_1256 : GatherDims S32768x256 S131072x1 S131072x256 where
  offsetDims := [1]
  collapsedSliceDims := [0]
  operandBatchingDims := []
  startIndicesBatchingDims := []
  startIndexMap := [0]
  indexVectorDim := 1
  sliceSizes := ![1, 256]
  wf := gather_S32768x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S1000000_S8192x1_S8192_n_0_n_n_0_1_1 : GatherDims S1000000 S8192x1 S8192 where
  offsetDims := []
  collapsedSliceDims := [0]
  operandBatchingDims := []
  startIndicesBatchingDims := []
  startIndexMap := [0]
  indexVectorDim := 1
  sliceSizes := ![1]
  wf := gather_S1000000_S8192x1_S8192_n_0_n_n_0_1_1_wf
def gather_S8192x256_S8192x1_S8192x256_1_0_n_n_0_1_1256 : GatherDims S8192x256 S8192x1 S8192x256 where
  offsetDims := [1]
  collapsedSliceDims := [0]
  operandBatchingDims := []
  startIndicesBatchingDims := []
  startIndexMap := [0]
  indexVectorDim := 1
  sliceSizes := ![1, 256]
  wf := gather_S8192x256_S8192x1_S8192x256_1_0_n_n_0_1_1256_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

class Facts : Prop extends Facts₀ where

variable [Facts]
-- ==== Proof.KernelRun.lean ====
/-
  The idealized kernel program's run, keeping the result: every weakly fair execution of @main ends, nothing
  faulting, with the result array at the contents the last boundary of the run assigns it (the fold of the
  host stretches and the five dense layers' write-backs from the launch memory) and the argument arrays as
  launched. The launch over the program's segments is the one the generated frame module states for the
  argument arrays alone; here the final thread state is also read at the result buffer.
-/
import proofs.«167631_j23278722744485_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run of @main with the result buffer read at the end: the result array holds what the last boundary's
    contents give it, and every argument array is as launched. -/
theorem run_result : θ_run defs (onTc (τ := τ) (main (F := F))) ⟨m, fun _ => 0, ρ⟩ (fun r => ∀ c : Dev nD,
      r.2.mem ((c.tc : Thread nD τ).loc main_v141) = W20 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v141 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c)⟩)

end Cert.KernelIdeal.Gen

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibAffine.lean ====
/-
  A dense layer over the extended reals, for any extents: X · Wt + b with X an [M, K] array, Wt the [K, N]
  (already transposed) weights and b a bias vector of length N — entry (p, n) is ∑ k, X (p, k) · Wt (k, n) + b n —,
  optionally floored at a scalar z (the rectifier when z is zero). Two spellings of it on the host are read at an
  entry: the product followed by the bias vector broadcast first to a [1, N] row and then down the rows, and the same
  floored at a broadcast scalar constant. Also the bias vector recast as a [1, N] row, read at an entry.
  No entry needs to be finite: only the definitions of the operations are used, no law of arithmetic.
-/
import proofs.«167631_j23278722744485_1_alg».proof.Proof.LibDenseEntry
import Idealize.ShloMosaic.PureOps.Ideal.Laws
import Idealize.ShloMosaic.Lib.ValueIdx
import Idealize.ShloMosaic.Lib.ValueLayout
import Idealize.ShloMosaic.Lib.Pipeline.Value

noncomputable section

namespace Cert.LibAffine

open Idealize.ShloMosaic Idealize.ShloMosaic.ValueIdx

variable {M K N : ℕ}

/-- X · Wt + b at entry (p, n): ∑ k, X (p, k) · Wt (k, n) + b n. -/
def affine (X : (⟨2, ![M, K]⟩ : Shape).Idx → EReal) (Wt : (⟨2, ![K, N]⟩ : Shape).Idx → EReal)
    (b : (⟨1, ![N]⟩ : Shape).Idx → EReal) : (⟨2, ![M, N]⟩ : Shape).Idx → EReal :=
  fun i => (∑ k : Fin K, X (ix2 (n0 := M) (i 0) k) * Wt (ix2 (n1 := N) k (i 1))) + b (ix1 (n := N) (i 1))

/-- The same floored at `z`: max (X · Wt + b, z) entry by entry. -/
def affineFloor (z : EReal) (X : (⟨2, ![M, K]⟩ : Shape).Idx → EReal) (Wt : (⟨2, ![K, N]⟩ : Shape).Idx → EReal)
    (b : (⟨1, ![N]⟩ : Shape).Idx → EReal) : (⟨2, ![M, N]⟩ : Shape).Idx → EReal :=
  fun i => max (affine X Wt b i) z

theorem affine_ix2 (X : (⟨2, ![M, K]⟩ : Shape).Idx → EReal) (Wt : (⟨2, ![K, N]⟩ : Shape).Idx → EReal)
    (b : (⟨1, ![N]⟩ : Shape).Idx → EReal) (p : Fin M) (n : Fin N) :
    affine X Wt b (ix2 p n) = (∑ k : Fin K, X (ix2 p k) * Wt (ix2 k n)) + b (ix1 n) := rfl

theorem affineFloor_ix2 (z : EReal) (X : (⟨2, ![M, K]⟩ : Shape).Idx → EReal) (Wt : (⟨2, ![K, N]⟩ : Shape).Idx → EReal)
    (b : (⟨1, ![N]⟩ : Shape).Idx → EReal) (p : Fin M) (n : Fin N) :
    affineFloor z X Wt b (ix2 p n) = max ((∑ k : Fin K, X (ix2 p k) * Wt (ix2 k n)) + b (ix1 n)) z := rfl

/-- The layer with its bias given as a [1, N] row: entry (p, n) is ∑ k, X (p, k) · Wt (k, n) + r (0, n). -/
def rowAffine (X : (⟨2, ![M, K]⟩ : Shape).Idx → EReal) (Wt : (⟨2, ![K, N]⟩ : Shape).Idx → EReal)
    (r : (⟨2, ![1, N]⟩ : Shape).Idx → EReal) : (⟨2, ![M, N]⟩ : Shape).Idx → EReal :=
  fun i => (∑ k : Fin K, X (ix2 (n0 := M) (i 0) k) * Wt (ix2 (n1 := N) k (i 1))) + r (ix2 (0 : Fin 1) (n1 := N) (i 1))

/-- The same floored at `z`. -/
def rowAffineFloor (z : EReal) (X : (⟨2, ![M, K]⟩ : Shape).Idx → EReal) (Wt : (⟨2, ![K, N]⟩ : Shape).Idx → EReal)
    (r : (⟨2, ![1, N]⟩ : Shape).Idx → EReal) : (⟨2, ![M, N]⟩ : Shape).Idx → EReal :=
  fun i => max (rowAffine X Wt r i) z

theorem rowAffine_ix2 (X : (⟨2, ![M, K]⟩ : Shape).Idx → EReal) (Wt : (⟨2, ![K, N]⟩ : Shape).Idx → EReal)
    (r : (⟨2, ![1, N]⟩ : Shape).Idx → EReal) (p : Fin M) (n : Fin N) :
    rowAffine X Wt r (ix2 p n) = (∑ k : Fin K, X (ix2 p k) * Wt (ix2 k n)) + r (ix2 (0 : Fin 1) n) := rfl

theorem rowAffineFloor_ix2 (z : EReal) (X : (⟨2, ![M, K]⟩ : Shape).Idx → EReal) (Wt : (⟨2, ![K, N]⟩ : Shape).Idx → EReal)
    (r : (⟨2, ![1, N]⟩ : Shape).Idx → EReal) (p : Fin M) (n : Fin N) :
    rowAffineFloor z X Wt r (ix2 p n) = max ((∑ k : Fin K, X (ix2 p k) * Wt (ix2 k n)) + r (ix2 (0 : Fin 1) n)) z := rfl

/-- A vector of length N broadcast to a [1, N] row (its one axis sent to axis 1) reads, at (0, n), the vector at n. -/
theorem row_of_vec_apply {α : Type} (b : (⟨1, ![N]⟩ : Shape).Idx → α)
    (h : (⟨1, ![N]⟩ : Shape).BroadcastsInDim ⟨2, ![1, N]⟩ ![1]) (u : Fin 1) (n : Fin N) :
    broadcastInDim ⟨2, ![1, N]⟩ ![1] h b (ix2 u n) = b (ix1 n) :=
  broadcastInDim_apply _ h b (ix2 u n) (ix1 n) (fun a => match a with
    | ⟨0, _⟩ => by
        show n.val = if N = 1 then 0 else n.val
        split
        · have := n.isLt; omega
        · rfl)

/-- A [1, N] row broadcast down M rows reads, at (p, n), the row at (0, n). -/
theorem rows_of_row_apply {α : Type} (r : (⟨2, ![1, N]⟩ : Shape).Idx → α)
    (h : (⟨2, ![1, N]⟩ : Shape).BroadcastsInDim ⟨2, ![M, N]⟩ ![0, 1]) (p : Fin M) (n : Fin N) :
    broadcastInDim ⟨2, ![M, N]⟩ ![0, 1] h r (ix2 p n) = r (ix2 (0 : Fin 1) n) :=
  broadcastInDim_apply _ h r (ix2 p n) (ix2 (0 : Fin 1) n) (fun a => match a with
    | ⟨0, _⟩ => by
        show 0 = if (1 : ℕ) = 1 then 0 else p.val
        rw [if_pos rfl]
    | ⟨1, _⟩ => by
        show n.val = if N = 1 then 0 else n.val
        split
        · have := n.isLt; omega
        · rfl)

/-- A vector of length N recast as a [1, N] row reads, at (0, n), the vector at n. -/
theorem row_cast_apply {α : Type} (b : (⟨1, ![N]⟩ : Shape).Idx → α)
    (h : (⟨1, ![N]⟩ : Shape).ShapeCasts ⟨2, ![1, N]⟩) (u : Fin 1) (n : Fin N) :
    shapeCast ⟨2, ![1, N]⟩ b h (ix2 u n) = b (ix1 n) :=
  shapeCast_apply b h _ _ (by
    rw [Shape.rowMajor_val_two, Shape.rowMajor_val_one]
    show n.val = u.val * N + n.val
    have := u.isLt
    have hu : u.val = 0 := by omega
    rw [hu]; omega)

/-- With the bias row a recast vector, the row form is `affine` of the vector. -/
theorem rowAffine_cast (X : (⟨2, ![M, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    rowAffine X Wt (shapeCast ⟨2, ![1, N]⟩ b h) = affine X Wt b := by
  funext i
  obtain ⟨p, n, rfl⟩ : ∃ (p : Fin M) (n : Fin N), i = ix2 p n := ⟨i 0, i 1, eq_ix2 i⟩
  rw [rowAffine_ix2, affine_ix2, row_cast_apply]

/-- The same for the floored layer. -/
theorem rowAffineFloor_cast (z : EReal) (X : (⟨2, ![M, K]⟩ : Shape).Idx → EReal) (Wt : (⟨2, ![K, N]⟩ : Shape).Idx → EReal)
    (b : (⟨1, ![N]⟩ : Shape).Idx → EReal) (h : (⟨1, ![N]⟩ : Shape).ShapeCasts ⟨2, ![1, N]⟩) :
    rowAffineFloor z X Wt (shapeCast ⟨2, ![1, N]⟩ b h) = affineFloor z X Wt b := by
  funext i
  show max (rowAffine X Wt (shapeCast ⟨2, ![1, N]⟩ b h) i) z = max (affine X Wt b i) z
  rw [rowAffine_cast]

/-- The host's dense layer — the product, plus the bias vector made a row and broadcast down the rows — is `affine`. -/
theorem host_affine (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (X : FVec Ideal ⟨2, ![M, K]⟩ .f32) (Wt : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1]) :
    addf (Host.dotGeneral (F := Ideal) d prec X Wt) (broadcastInDim ⟨2, ![M, N]⟩ ![0, 1] hb (broadcastInDim ⟨2, ![1, N]⟩ ![1] hr b))
      = affine X Wt b := by
  funext i
  obtain ⟨p, n, rfl⟩ : ∃ (p : Fin M) (n : Fin N), i = ix2 p n := ⟨i 0, i 1, eq_ix2 i⟩
  rw [affine_ix2]
  show Host.dotGeneral (F := Ideal) d prec X Wt (ix2 p n) + broadcastInDim ⟨2, ![M, N]⟩ ![0, 1] hb (broadcastInDim ⟨2, ![1, N]⟩ ![1] hr b) (ix2 p n) = _
  rw [rows_of_row_apply, row_of_vec_apply]
  simp only [Host.dotGeneral]
  rw [Cert.LibDenseEntry.dotGeneral_plain_apply d h1 h2 h3 h4 h5 h6]

/-- The same floored at a broadcast scalar constant is `affineFloor` at that constant's value. -/
theorem host_affineFloor (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (X : FVec Ideal ⟨2, ![M, K]⟩ .f32) (Wt : FVec Ideal ⟨2, ![K, N]⟩ .f32) (b : FVec Ideal ⟨1, ![N]⟩ .f32)
    (hr : (⟨1, ![N]⟩ : Shape).BroadcastsInDim ⟨2, ![1, N]⟩ ![1])
    (hb : (⟨2, ![1, N]⟩ : Shape).BroadcastsInDim ⟨2, ![M, N]⟩ ![0, 1])
    (hz : (⟨0, ![]⟩ : Shape).BroadcastsInDim ⟨2, ![M, N]⟩ ![]) (zb : BitVec 32) :
    maximumf (addf (Host.dotGeneral (F := Ideal) d prec X Wt) (broadcastInDim ⟨2, ![M, N]⟩ ![0, 1] hb (broadcastInDim ⟨2, ![1, N]⟩ ![1] hr b)))
        (broadcastInDim ⟨2, ![M, N]⟩ ![] hz (constant (F := Ideal) ⟨0, ![]⟩ .f32 zb))
      = affineFloor (Ideal.ofBits .f32 zb) X Wt b := by
  rw [host_affine d h1 h2 h3 h4 h5 h6]
  funext i
  show max (affine X Wt b i) (broadcastInDim ⟨2, ![M, N]⟩ ![] hz (constant (F := Ideal) ⟨0, ![]⟩ .f32 zb) i) = max (affine X Wt b i) (Ideal.ofBits .f32 zb)
  rw [broadcastInDim_apply _ hz (constant (F := Ideal) ⟨0, ![]⟩ .f32 zb) i ix0 (fun a => a.elim0)]
  rfl

end Cert.LibAffine

end
-- ==== Proof.LibConcatPair.lean ====
/-
  A concatenation of two pieces along an axis depends only on the two pieces: equal pieces give equal results,
  whatever proofs of the shapes' fit the two sides carry.
-/
import Idealize.ShloMosaic.PureOps.Ideal

noncomputable section

namespace Cert.LibConcatPair

open Idealize.ShloMosaic

/-- Two pieces replaced by equal pieces, inside a two-piece concatenation. -/
theorem concat_pair_congr {α : Type} (t : Shape) (a : Fin t.rank) (s₁ s₂ : Shape) {x x' : s₁.Idx → α} {y y' : s₂.Idx → α}
    (hx : x = x') (hy : y = y')
    (h : Shape.Concatenates (([⟨s₁, x⟩, ⟨s₂, y⟩] : List ((s : Shape) × (s.Idx → α))).map (·.1)) t a)
    (h' : Shape.Concatenates (([⟨s₁, x'⟩, ⟨s₂, y'⟩] : List ((s : Shape) × (s.Idx → α))).map (·.1)) t a) :
    concatenate t a [⟨s₁, x⟩, ⟨s₂, y⟩] h = concatenate t a [⟨s₁, x'⟩, ⟨s₂, y'⟩] h' := by
  subst hx hy
  rfl

end Cert.LibConcatPair

end
-- ==== Proof.KernelCasts.lean ====
/-
  The idealized kernel program's inlined-call buffers.
  A buffer of a function inlined at its call site is typed through its reference; reading or writing it at the
  value's own type is the identity, buffer by buffer.
-/
import proofs.«167631_j23278722744485_1_alg».proof.Proof.Gen.KernelIdeal
import Idealize.ShloMosaic.Lib.StableHlo

noncomputable section

namespace Cert.KernelIdeal.Casts

open Cert.KernelIdeal Idealize.ShloMosaic Idealize.ShloMosaic.StableHlo

variable {Val : EltTy → Type}

theorem toBuf_main_cst_2 (X : (⟨S_, .f32⟩ : BufTy).Contents Val) :
    (TRef.of main_cst_2 : TRef sig ⟨S_, .f32⟩).toBuf X = X := rfl
theorem ofBuf_main_cst_2 (X : (⟨S_, .f32⟩ : BufTy).Contents Val) :
    (TRef.of main_cst_2 : TRef sig ⟨S_, .f32⟩).ofBuf X = X := rfl
theorem toBuf_main_call0_v0 (X : (⟨S_, .f32⟩ : BufTy).Contents Val) :
    (TRef.of main_call0_v0 : TRef sig ⟨S_, .f32⟩).toBuf X = X := rfl
theorem ofBuf_main_call0_v0 (X : (⟨S_, .f32⟩ : BufTy).Contents Val) :
    (TRef.of main_call0_v0 : TRef sig ⟨S_, .f32⟩).ofBuf X = X := rfl
theorem toBuf_main_call0_v1 (X : (⟨S32768, .f32⟩ : BufTy).Contents Val) :
    (TRef.of main_call0_v1 : TRef sig ⟨S32768, .f32⟩).toBuf X = X := rfl
theorem ofBuf_main_call0_v1 (X : (⟨S32768, .f32⟩ : BufTy).Contents Val) :
    (TRef.of main_call0_v1 : TRef sig ⟨S32768, .f32⟩).ofBuf X = X := rfl
theorem toBuf_main_v22 (X : (⟨S32768, .f32⟩ : BufTy).Contents Val) :
    (TRef.of main_v22 : TRef sig ⟨S32768, .f32⟩).toBuf X = X := rfl
theorem ofBuf_main_v22 (X : (⟨S32768, .f32⟩ : BufTy).Contents Val) :
    (TRef.of main_v22 : TRef sig ⟨S32768, .f32⟩).ofBuf X = X := rfl
theorem toBuf_main_v23 (X : (⟨S32768, .f32⟩ : BufTy).Contents Val) :
    (TRef.of main_v23 : TRef sig ⟨S32768, .f32⟩).toBuf X = X := rfl
theorem ofBuf_main_v23 (X : (⟨S32768, .f32⟩ : BufTy).Contents Val) :
    (TRef.of main_v23 : TRef sig ⟨S32768, .f32⟩).ofBuf X = X := rfl
theorem toBuf_main_cst_7 (X : (⟨S_, .f32⟩ : BufTy).Contents Val) :
    (TRef.of main_cst_7 : TRef sig ⟨S_, .f32⟩).toBuf X = X := rfl
theorem ofBuf_main_cst_7 (X : (⟨S_, .f32⟩ : BufTy).Contents Val) :
    (TRef.of main_cst_7 : TRef sig ⟨S_, .f32⟩).ofBuf X = X := rfl
theorem toBuf_main_call1_v0 (X : (⟨S_, .f32⟩ : BufTy).Contents Val) :
    (TRef.of main_call1_v0 : TRef sig ⟨S_, .f32⟩).toBuf X = X := rfl
theorem ofBuf_main_call1_v0 (X : (⟨S_, .f32⟩ : BufTy).Contents Val) :
    (TRef.of main_call1_v0 : TRef sig ⟨S_, .f32⟩).ofBuf X = X := rfl
theorem toBuf_main_call1_v1 (X : (⟨S8192, .f32⟩ : BufTy).Contents Val) :
    (TRef.of main_call1_v1 : TRef sig ⟨S8192, .f32⟩).toBuf X = X := rfl
theorem ofBuf_main_call1_v1 (X : (⟨S8192, .f32⟩ : BufTy).Contents Val) :
    (TRef.of main_call1_v1 : TRef sig ⟨S8192, .f32⟩).ofBuf X = X := rfl
theorem toBuf_main_v50 (X : (⟨S8192, .f32⟩ : BufTy).Contents Val) :
    (TRef.of main_v50 : TRef sig ⟨S8192, .f32⟩).toBuf X = X := rfl
theorem ofBuf_main_v50 (X : (⟨S8192, .f32⟩ : BufTy).Contents Val) :
    (TRef.of main_v50 : TRef sig ⟨S8192, .f32⟩).ofBuf X = X := rfl
theorem toBuf_main_v51 (X : (⟨S8192, .f32⟩ : BufTy).Contents Val) :
    (TRef.of main_v51 : TRef sig ⟨S8192, .f32⟩).toBuf X = X := rfl
theorem ofBuf_main_v51 (X : (⟨S8192, .f32⟩ : BufTy).Contents Val) :
    (TRef.of main_v51 : TRef sig ⟨S8192, .f32⟩).ofBuf X = X := rfl
theorem toBuf_main_v60 (X : (⟨S8192x256, .f32⟩ : BufTy).Contents Val) :
    (TRef.of main_v60 : TRef sig ⟨S8192x256, .f32⟩).toBuf X = X := rfl
theorem ofBuf_main_v60 (X : (⟨S8192x256, .f32⟩ : BufTy).Contents Val) :
    (TRef.of main_v60 : TRef sig ⟨S8192x256, .f32⟩).ofBuf X = X := rfl
theorem toBuf_main_call2_v0 (X : (⟨S8192x256, .f32⟩ : BufTy).Contents Val) :
    (TRef.of main_call2_v0 : TRef sig ⟨S8192x256, .f32⟩).toBuf X = X := rfl
theorem ofBuf_main_call2_v0 (X : (⟨S8192x256, .f32⟩ : BufTy).Contents Val) :
    (TRef.of main_call2_v0 : TRef sig ⟨S8192x256, .f32⟩).ofBuf X = X := rfl
theorem toBuf_main_call2_cst (X : (⟨S_, .f32⟩ : BufTy).Contents Val) :
    (TRef.of main_call2_cst : TRef sig ⟨S_, .f32⟩).toBuf X = X := rfl
theorem ofBuf_main_call2_cst (X : (⟨S_, .f32⟩ : BufTy).Contents Val) :
    (TRef.of main_call2_cst : TRef sig ⟨S_, .f32⟩).ofBuf X = X := rfl
theorem toBuf_main_call2_v1 (X : (⟨S8192, .f32⟩ : BufTy).Contents Val) :
    (TRef.of main_call2_v1 : TRef sig ⟨S8192, .f32⟩).toBuf X = X := rfl
theorem ofBuf_main_call2_v1 (X : (⟨S8192, .f32⟩ : BufTy).Contents Val) :
    (TRef.of main_call2_v1 : TRef sig ⟨S8192, .f32⟩).ofBuf X = X := rfl
theorem toBuf_main_call2_v2 (X : (⟨S8192x1, .f32⟩ : BufTy).Contents Val) :
    (TRef.of main_call2_v2 : TRef sig ⟨S8192x1, .f32⟩).toBuf X = X := rfl
theorem ofBuf_main_call2_v2 (X : (⟨S8192x1, .f32⟩ : BufTy).Contents Val) :
    (TRef.of main_call2_v2 : TRef sig ⟨S8192x1, .f32⟩).ofBuf X = X := rfl
theorem toBuf_main_v61 (X : (⟨S8192x1, .f32⟩ : BufTy).Contents Val) :
    (TRef.of main_v61 : TRef sig ⟨S8192x1, .f32⟩).toBuf X = X := rfl
theorem ofBuf_main_v61 (X : (⟨S8192x1, .f32⟩ : BufTy).Contents Val) :
    (TRef.of main_v61 : TRef sig ⟨S8192x1, .f32⟩).ofBuf X = X := rfl
theorem toBuf_main_cst_9 (X : (⟨S_, .f32⟩ : BufTy).Contents Val) :
    (TRef.of main_cst_9 : TRef sig ⟨S_, .f32⟩).toBuf X = X := rfl
theorem ofBuf_main_cst_9 (X : (⟨S_, .f32⟩ : BufTy).Contents Val) :
    (TRef.of main_cst_9 : TRef sig ⟨S_, .f32⟩).ofBuf X = X := rfl
theorem toBuf_main_call3_v0 (X : (⟨S_, .f32⟩ : BufTy).Contents Val) :
    (TRef.of main_call3_v0 : TRef sig ⟨S_, .f32⟩).toBuf X = X := rfl
theorem ofBuf_main_call3_v0 (X : (⟨S_, .f32⟩ : BufTy).Contents Val) :
    (TRef.of main_call3_v0 : TRef sig ⟨S_, .f32⟩).ofBuf X = X := rfl
theorem toBuf_main_call3_v1 (X : (⟨S8192x1, .f32⟩ : BufTy).Contents Val) :
    (TRef.of main_call3_v1 : TRef sig ⟨S8192x1, .f32⟩).toBuf X = X := rfl
theorem ofBuf_main_call3_v1 (X : (⟨S8192x1, .f32⟩ : BufTy).Contents Val) :
    (TRef.of main_call3_v1 : TRef sig ⟨S8192x1, .f32⟩).ofBuf X = X := rfl
theorem toBuf_main_v63 (X : (⟨S8192x1, .i1⟩ : BufTy).Contents Val) :
    (TRef.of main_v63 : TRef sig ⟨S8192x1, .i1⟩).toBuf X = X := rfl
theorem ofBuf_main_v63 (X : (⟨S8192x1, .i1⟩ : BufTy).Contents Val) :
    (TRef.of main_v63 : TRef sig ⟨S8192x1, .i1⟩).ofBuf X = X := rfl
theorem toBuf_main_v64 (X : (⟨S8192x1, .f32⟩ : BufTy).Contents Val) :
    (TRef.of main_v64 : TRef sig ⟨S8192x1, .f32⟩).toBuf X = X := rfl
theorem ofBuf_main_v64 (X : (⟨S8192x1, .f32⟩ : BufTy).Contents Val) :
    (TRef.of main_v64 : TRef sig ⟨S8192x1, .f32⟩).ofBuf X = X := rfl
theorem toBuf_main_cst_31 (X : (⟨S_, .f32⟩ : BufTy).Contents Val) :
    (TRef.of main_cst_31 : TRef sig ⟨S_, .f32⟩).toBuf X = X := rfl
theorem ofBuf_main_cst_31 (X : (⟨S_, .f32⟩ : BufTy).Contents Val) :
    (TRef.of main_cst_31 : TRef sig ⟨S_, .f32⟩).ofBuf X = X := rfl
theorem toBuf_main_call4_v0 (X : (⟨S_, .f32⟩ : BufTy).Contents Val) :
    (TRef.of main_call4_v0 : TRef sig ⟨S_, .f32⟩).toBuf X = X := rfl
theorem ofBuf_main_call4_v0 (X : (⟨S_, .f32⟩ : BufTy).Contents Val) :
    (TRef.of main_call4_v0 : TRef sig ⟨S_, .f32⟩).ofBuf X = X := rfl
theorem toBuf_main_call4_v1 (X : (⟨S8192, .f32⟩ : BufTy).Contents Val) :
    (TRef.of main_call4_v1 : TRef sig ⟨S8192, .f32⟩).toBuf X = X := rfl
theorem ofBuf_main_call4_v1 (X : (⟨S8192, .f32⟩ : BufTy).Contents Val) :
    (TRef.of main_call4_v1 : TRef sig ⟨S8192, .f32⟩).ofBuf X = X := rfl
theorem toBuf_main_v140 (X : (⟨S8192, .f32⟩ : BufTy).Contents Val) :
    (TRef.of main_v140 : TRef sig ⟨S8192, .f32⟩).toBuf X = X := rfl
theorem ofBuf_main_v140 (X : (⟨S8192, .f32⟩ : BufTy).Contents Val) :
    (TRef.of main_v140 : TRef sig ⟨S8192, .f32⟩).ofBuf X = X := rfl
theorem toBuf_main_v141 (X : (⟨S8192, .f32⟩ : BufTy).Contents Val) :
    (TRef.of main_v141 : TRef sig ⟨S8192, .f32⟩).toBuf X = X := rfl
theorem ofBuf_main_v141 (X : (⟨S8192, .f32⟩ : BufTy).Contents Val) :
    (TRef.of main_v141 : TRef sig ⟨S8192, .f32⟩).ofBuf X = X := rfl

/-- Drops every such identity transport from the goal. -/
macro "drop_kernel_transports" : tactic =>
  `(tactic| simp only [Cert.KernelIdeal.Casts.toBuf_main_cst_2, Cert.KernelIdeal.Casts.ofBuf_main_cst_2, Cert.KernelIdeal.Casts.toBuf_main_call0_v0, Cert.KernelIdeal.Casts.ofBuf_main_call0_v0, Cert.KernelIdeal.Casts.toBuf_main_call0_v1, Cert.KernelIdeal.Casts.ofBuf_main_call0_v1, Cert.KernelIdeal.Casts.toBuf_main_v22, Cert.KernelIdeal.Casts.ofBuf_main_v22, Cert.KernelIdeal.Casts.toBuf_main_v23, Cert.KernelIdeal.Casts.ofBuf_main_v23, Cert.KernelIdeal.Casts.toBuf_main_cst_7, Cert.KernelIdeal.Casts.ofBuf_main_cst_7, Cert.KernelIdeal.Casts.toBuf_main_call1_v0, Cert.KernelIdeal.Casts.ofBuf_main_call1_v0, Cert.KernelIdeal.Casts.toBuf_main_call1_v1, Cert.KernelIdeal.Casts.ofBuf_main_call1_v1, Cert.KernelIdeal.Casts.toBuf_main_v50, Cert.KernelIdeal.Casts.ofBuf_main_v50, Cert.KernelIdeal.Casts.toBuf_main_v51, Cert.KernelIdeal.Casts.ofBuf_main_v51, Cert.KernelIdeal.Casts.toBuf_main_v60, Cert.KernelIdeal.Casts.ofBuf_main_v60, Cert.KernelIdeal.Casts.toBuf_main_call2_v0, Cert.KernelIdeal.Casts.ofBuf_main_call2_v0, Cert.KernelIdeal.Casts.toBuf_main_call2_cst, Cert.KernelIdeal.Casts.ofBuf_main_call2_cst, Cert.KernelIdeal.Casts.toBuf_main_call2_v1, Cert.KernelIdeal.Casts.ofBuf_main_call2_v1, Cert.KernelIdeal.Casts.toBuf_main_call2_v2, Cert.KernelIdeal.Casts.ofBuf_main_call2_v2, Cert.KernelIdeal.Casts.toBuf_main_v61, Cert.KernelIdeal.Casts.ofBuf_main_v61, Cert.KernelIdeal.Casts.toBuf_main_cst_9, Cert.KernelIdeal.Casts.ofBuf_main_cst_9, Cert.KernelIdeal.Casts.toBuf_main_call3_v0, Cert.KernelIdeal.Casts.ofBuf_main_call3_v0, Cert.KernelIdeal.Casts.toBuf_main_call3_v1, Cert.KernelIdeal.Casts.ofBuf_main_call3_v1, Cert.KernelIdeal.Casts.toBuf_main_v63, Cert.KernelIdeal.Casts.ofBuf_main_v63, Cert.KernelIdeal.Casts.toBuf_main_v64, Cert.KernelIdeal.Casts.ofBuf_main_v64, Cert.KernelIdeal.Casts.toBuf_main_cst_31, Cert.KernelIdeal.Casts.ofBuf_main_cst_31, Cert.KernelIdeal.Casts.toBuf_main_call4_v0, Cert.KernelIdeal.Casts.ofBuf_main_call4_v0, Cert.KernelIdeal.Casts.toBuf_main_call4_v1, Cert.KernelIdeal.Casts.ofBuf_main_call4_v1, Cert.KernelIdeal.Casts.toBuf_main_v140, Cert.KernelIdeal.Casts.ofBuf_main_v140, Cert.KernelIdeal.Casts.toBuf_main_v141, Cert.KernelIdeal.Casts.ofBuf_main_v141])

end Cert.KernelIdeal.Casts

end
-- ==== Proof.Stages.lean ====
/-
  The reference computation cut into its stages, each a function of the stage before and of the argument arrays it
  reads, spelt with the reference program's own host operations: the projection, then two weighted graph
  convolutions (node transform, edge aggregation, combine transform), the skip connection and row normalization,
  and the pairwise margin loss. `composed` puts the stages together as a function of the 23 arguments.
-/
import proofs.«167631_j23278722744485_1_alg».proof.Proof.Gen.ReferenceIdeal

noncomputable section

namespace Cert.Stages

open Cert.ReferenceIdeal Cert.ReferenceIdeal.Gen Idealize.ShloMosaic

variable {F : FTy → Type} [FloatOps F]

/-- The projected features: X · Wpᵀ + bp, the bias broadcast down the rows. -/
def projected (x0 : (⟨S131072x256, .f32⟩ : BufTy).Contents (Elt F)) (x1 : (⟨S256x256, .f32⟩ : BufTy).Contents (Elt F)) (x2 : (⟨S256, .f32⟩ : BufTy).Contents (Elt F)) :
    (⟨S131072x256, .f32⟩ : BufTy).Contents (Elt F) :=
  addf (Host.dotGeneral dot_S131072x256_S256x256_S131072x256_1_0_0_1_n_n none (x0) (transpose S256x256 [1, 0] (x1) transposes_S256x256_S256x256_1_0 : (⟨S256x256, .f32⟩ : BufTy).Contents (Elt F)) : (⟨S131072x256, .f32⟩ : BufTy).Contents (Elt F)) (broadcastInDim S131072x256 ![0, 1] bcast_S1x256_S131072x256_0_1 (broadcastInDim S1x256 ![1] bcast_S256_S1x256_1 (x2) : (⟨S1x256, .f32⟩ : BufTy).Contents (Elt F)) : (⟨S131072x256, .f32⟩ : BufTy).Contents (Elt F))

/-- The first convolution's node transform: max (hp · Q1ᵀ + bq1, 0). -/
def nodes1 (hp : (⟨S131072x256, .f32⟩ : BufTy).Contents (Elt F)) (x3 : (⟨S256x256, .f32⟩ : BufTy).Contents (Elt F)) (x4 : (⟨S256, .f32⟩ : BufTy).Contents (Elt F)) :
    (⟨S131072x256, .f32⟩ : BufTy).Contents (Elt F) :=
  maximumf (addf (Host.dotGeneral dot_S131072x256_S256x256_S131072x256_1_0_0_1_n_n none hp (transpose S256x256 [1, 0] (x3) transposes_S256x256_S256x256_1_0 : (⟨S256x256, .f32⟩ : BufTy).Contents (Elt F)) : (⟨S131072x256, .f32⟩ : BufTy).Contents (Elt F)) (broadcastInDim S131072x256 ![0, 1] bcast_S1x256_S131072x256_0_1 (broadcastInDim S1x256 ![1] bcast_S256_S1x256_1 (x4) : (⟨S1x256, .f32⟩ : BufTy).Contents (Elt F)) : (⟨S131072x256, .f32⟩ : BufTy).Contents (Elt F)) : (⟨S131072x256, .f32⟩ : BufTy).Contents (Elt F)) (broadcastInDim S131072x256 ![] bcast_S_S131072x256 (constant S_ .f32 0x00000000#32 : (⟨S_, .f32⟩ : BufTy).Contents (Elt F)) : (⟨S131072x256, .f32⟩ : BufTy).Contents (Elt F))

/-- The first convolution's aggregation: the node rows gathered along the edges, scaled by the edge weights, summed into their destination rows, divided by the destinations' total weight floored at one, and joined column-wise with the first 32768 projected rows. -/
def gathered1 (hp : (⟨S131072x256, .f32⟩ : BufTy).Contents (Elt F)) (n : (⟨S131072x256, .f32⟩ : BufTy).Contents (Elt F)) (x11 : (⟨S524288, .f32⟩ : BufTy).Contents (Elt F)) (x14 : (⟨S524288, .i32⟩ : BufTy).Contents (Elt F)) (x15 : (⟨S524288, .i32⟩ : BufTy).Contents (Elt F)) :
    (⟨S32768x512, .f32⟩ : BufTy).Contents (Elt F) :=
  concatenate S32768x512 1 [⟨S32768x256, (Host.divf (Host.scatterAdd scatter_S32768x256_S524288x1_S524288x256_1_0_0_1 (broadcastInDim S32768x256 ![] bcast_S_S32768x256 (constant S_ .f32 0x00000000#32 : (⟨S_, .f32⟩ : BufTy).Contents (Elt F)) : (⟨S32768x256, .f32⟩ : BufTy).Contents (Elt F)) (broadcastInDim S524288x1 ![0] bcast_S524288_S524288x1_0 (x15) : (⟨S524288x1, .i32⟩ : BufTy).Contents (Elt F)) (mulf (Host.gather gather_S131072x256_S524288x1_S524288x256_1_0_n_n_0_1_1256 n (broadcastInDim S524288x1 ![0] bcast_S524288_S524288x1_0 (select (cmpi .slt (x14) (broadcastInDim S524288 ![] bcast_S_S524288 (constantI S_ 32 0#32 : (⟨S_, .i32⟩ : BufTy).Contents (Elt F)) : (⟨S524288, .i32⟩ : BufTy).Contents (Elt F)) : (⟨S524288, .i1⟩ : BufTy).Contents (Elt F)) (addi (x14) (broadcastInDim S524288 ![] bcast_S_S524288 (constantI S_ 32 131072#32 : (⟨S_, .i32⟩ : BufTy).Contents (Elt F)) : (⟨S524288, .i32⟩ : BufTy).Contents (Elt F)) : (⟨S524288, .i32⟩ : BufTy).Contents (Elt F)) (x14) : (⟨S524288, .i32⟩ : BufTy).Contents (Elt F)) : (⟨S524288x1, .i32⟩ : BufTy).Contents (Elt F)) : (⟨S524288x256, .f32⟩ : BufTy).Contents (Elt F)) (broadcastInDim S524288x256 ![0, 1] bcast_S524288x1_S524288x256_0_1 (broadcastInDim S524288x1 ![0] bcast_S524288_S524288x1_0 (x11) : (⟨S524288x1, .f32⟩ : BufTy).Contents (Elt F)) : (⟨S524288x256, .f32⟩ : BufTy).Contents (Elt F)) : (⟨S524288x256, .f32⟩ : BufTy).Contents (Elt F)) : (⟨S32768x256, .f32⟩ : BufTy).Contents (Elt F)) (broadcastInDim S32768x256 ![0, 1] bcast_S32768x1_S32768x256_0_1 (broadcastInDim S32768x1 ![0] bcast_S32768_S32768x1_0 (maximumf (broadcastInDim S32768 ![] bcast_S_S32768 (id (constant S_ .f32 0x3F800000#32 : (⟨S_, .f32⟩ : BufTy).Contents (Elt F)) : (⟨S_, .f32⟩ : BufTy).Contents (Elt F)) : (⟨S32768, .f32⟩ : BufTy).Contents (Elt F)) (Host.scatterAdd scatter_S32768_S524288x1_S524288_n_0_0_1 (broadcastInDim S32768 ![] bcast_S_S32768 (constant S_ .f32 0x00000000#32 : (⟨S_, .f32⟩ : BufTy).Contents (Elt F)) : (⟨S32768, .f32⟩ : BufTy).Contents (Elt F)) (broadcastInDim S524288x1 ![0] bcast_S524288_S524288x1_0 (x15) : (⟨S524288x1, .i32⟩ : BufTy).Contents (Elt F)) (x11) : (⟨S32768, .f32⟩ : BufTy).Contents (Elt F)) : (⟨S32768, .f32⟩ : BufTy).Contents (Elt F)) : (⟨S32768x1, .f32⟩ : BufTy).Contents (Elt F)) : (⟨S32768x256, .f32⟩ : BufTy).Contents (Elt F)) : (⟨S32768x256, .f32⟩ : BufTy).Contents (Elt F))⟩, ⟨S32768x256, (extractStridedSlice S32768x256 ![0, 0] hp slices_S131072x256_S32768x256_0_0 : (⟨S32768x256, .f32⟩ : BufTy).Contents (Elt F))⟩] concatenates_S32768x256_S32768x256_S32768x512_d1

/-- The first convolution's combine transform: max (z · W1ᵀ + bw1, 0). -/
def hidden1 (z : (⟨S32768x512, .f32⟩ : BufTy).Contents (Elt F)) (x5 : (⟨S256x512, .f32⟩ : BufTy).Contents (Elt F)) (x6 : (⟨S256, .f32⟩ : BufTy).Contents (Elt F)) :
    (⟨S32768x256, .f32⟩ : BufTy).Contents (Elt F) :=
  maximumf (addf (Host.dotGeneral dot_S32768x512_S512x256_S32768x256_1_0_0_1_n_n none z (transpose S512x256 [1, 0] (x5) transposes_S256x512_S512x256_1_0 : (⟨S512x256, .f32⟩ : BufTy).Contents (Elt F)) : (⟨S32768x256, .f32⟩ : BufTy).Contents (Elt F)) (broadcastInDim S32768x256 ![0, 1] bcast_S1x256_S32768x256_0_1 (broadcastInDim S1x256 ![1] bcast_S256_S1x256_1 (x6) : (⟨S1x256, .f32⟩ : BufTy).Contents (Elt F)) : (⟨S32768x256, .f32⟩ : BufTy).Contents (Elt F)) : (⟨S32768x256, .f32⟩ : BufTy).Contents (Elt F)) (broadcastInDim S32768x256 ![] bcast_S_S32768x256 (constant S_ .f32 0x00000000#32 : (⟨S_, .f32⟩ : BufTy).Contents (Elt F)) : (⟨S32768x256, .f32⟩ : BufTy).Contents (Elt F))

/-- The second convolution's node transform: max (h · Q2ᵀ + bq2, 0). -/
def nodes2 (h : (⟨S32768x256, .f32⟩ : BufTy).Contents (Elt F)) (x7 : (⟨S256x256, .f32⟩ : BufTy).Contents (Elt F)) (x8 : (⟨S256, .f32⟩ : BufTy).Contents (Elt F)) :
    (⟨S32768x256, .f32⟩ : BufTy).Contents (Elt F) :=
  maximumf (addf (Host.dotGeneral dot_S32768x256_S256x256_S32768x256_1_0_0_1_n_n none h (transpose S256x256 [1, 0] (x7) transposes_S256x256_S256x256_1_0 : (⟨S256x256, .f32⟩ : BufTy).Contents (Elt F)) : (⟨S32768x256, .f32⟩ : BufTy).Contents (Elt F)) (broadcastInDim S32768x256 ![0, 1] bcast_S1x256_S32768x256_0_1 (broadcastInDim S1x256 ![1] bcast_S256_S1x256_1 (x8) : (⟨S1x256, .f32⟩ : BufTy).Contents (Elt F)) : (⟨S32768x256, .f32⟩ : BufTy).Contents (Elt F)) : (⟨S32768x256, .f32⟩ : BufTy).Contents (Elt F)) (broadcastInDim S32768x256 ![] bcast_S_S32768x256 (constant S_ .f32 0x00000000#32 : (⟨S_, .f32⟩ : BufTy).Contents (Elt F)) : (⟨S32768x256, .f32⟩ : BufTy).Contents (Elt F))

/-- The second convolution's aggregation, joined column-wise with the first 8192 rows of the first convolution's output. -/
def gathered2 (h : (⟨S32768x256, .f32⟩ : BufTy).Contents (Elt F)) (n : (⟨S32768x256, .f32⟩ : BufTy).Contents (Elt F)) (x12 : (⟨S131072, .f32⟩ : BufTy).Contents (Elt F)) (x16 : (⟨S131072, .i32⟩ : BufTy).Contents (Elt F)) (x17 : (⟨S131072, .i32⟩ : BufTy).Contents (Elt F)) :
    (⟨S8192x512, .f32⟩ : BufTy).Contents (Elt F) :=
  concatenate S8192x512 1 [⟨S8192x256, (Host.divf (Host.scatterAdd scatter_S8192x256_S131072x1_S131072x256_1_0_0_1 (broadcastInDim S8192x256 ![] bcast_S_S8192x256 (constant S_ .f32 0x00000000#32 : (⟨S_, .f32⟩ : BufTy).Contents (Elt F)) : (⟨S8192x256, .f32⟩ : BufTy).Contents (Elt F)) (broadcastInDim S131072x1 ![0] bcast_S131072_S131072x1_0 (x17) : (⟨S131072x1, .i32⟩ : BufTy).Contents (Elt F)) (mulf (Host.gather gather_S32768x256_S131072x1_S131072x256_1_0_n_n_0_1_1256 n (broadcastInDim S131072x1 ![0] bcast_S131072_S131072x1_0 (select (cmpi .slt (x16) (broadcastInDim S131072 ![] bcast_S_S131072 (constantI S_ 32 0#32 : (⟨S_, .i32⟩ : BufTy).Contents (Elt F)) : (⟨S131072, .i32⟩ : BufTy).Contents (Elt F)) : (⟨S131072, .i1⟩ : BufTy).Contents (Elt F)) (addi (x16) (broadcastInDim S131072 ![] bcast_S_S131072 (constantI S_ 32 32768#32 : (⟨S_, .i32⟩ : BufTy).Contents (Elt F)) : (⟨S131072, .i32⟩ : BufTy).Contents (Elt F)) : (⟨S131072, .i32⟩ : BufTy).Contents (Elt F)) (x16) : (⟨S131072, .i32⟩ : BufTy).Contents (Elt F)) : (⟨S131072x1, .i32⟩ : BufTy).Contents (Elt F)) : (⟨S131072x256, .f32⟩ : BufTy).Contents (Elt F)) (broadcastInDim S131072x256 ![0, 1] bcast_S131072x1_S131072x256_0_1 (broadcastInDim S131072x1 ![0] bcast_S131072_S131072x1_0 (x12) : (⟨S131072x1, .f32⟩ : BufTy).Contents (Elt F)) : (⟨S131072x256, .f32⟩ : BufTy).Contents (Elt F)) : (⟨S131072x256, .f32⟩ : BufTy).Contents (Elt F)) : (⟨S8192x256, .f32⟩ : BufTy).Contents (Elt F)) (broadcastInDim S8192x256 ![0, 1] bcast_S8192x1_S8192x256_0_1 (broadcastInDim S8192x1 ![0] bcast_S8192_S8192x1_0 (maximumf (broadcastInDim S8192 ![] bcast_S_S8192 (id (constant S_ .f32 0x3F800000#32 : (⟨S_, .f32⟩ : BufTy).Contents (Elt F)) : (⟨S_, .f32⟩ : BufTy).Contents (Elt F)) : (⟨S8192, .f32⟩ : BufTy).Contents (Elt F)) (Host.scatterAdd scatter_S8192_S131072x1_S131072_n_0_0_1 (broadcastInDim S8192 ![] bcast_S_S8192 (constant S_ .f32 0x00000000#32 : (⟨S_, .f32⟩ : BufTy).Contents (Elt F)) : (⟨S8192, .f32⟩ : BufTy).Contents (Elt F)) (broadcastInDim S131072x1 ![0] bcast_S131072_S131072x1_0 (x17) : (⟨S131072x1, .i32⟩ : BufTy).Contents (Elt F)) (x12) : (⟨S8192, .f32⟩ : BufTy).Contents (Elt F)) : (⟨S8192, .f32⟩ : BufTy).Contents (Elt F)) : (⟨S8192x1, .f32⟩ : BufTy).Contents (Elt F)) : (⟨S8192x256, .f32⟩ : BufTy).Contents (Elt F)) : (⟨S8192x256, .f32⟩ : BufTy).Contents (Elt F))⟩, ⟨S8192x256, (extractStridedSlice S8192x256 ![0, 0] h slices_S32768x256_S8192x256_0_0 : (⟨S8192x256, .f32⟩ : BufTy).Contents (Elt F))⟩] concatenates_S8192x256_S8192x256_S8192x512_d1

/-- The second convolution's combine transform: max (z · W2ᵀ + bw2, 0). -/
def hidden2 (z : (⟨S8192x512, .f32⟩ : BufTy).Contents (Elt F)) (x9 : (⟨S256x512, .f32⟩ : BufTy).Contents (Elt F)) (x10 : (⟨S256, .f32⟩ : BufTy).Contents (Elt F)) :
    (⟨S8192x256, .f32⟩ : BufTy).Contents (Elt F) :=
  maximumf (addf (Host.dotGeneral dot_S8192x512_S512x256_S8192x256_1_0_0_1_n_n none z (transpose S512x256 [1, 0] (x9) transposes_S256x512_S512x256_1_0 : (⟨S512x256, .f32⟩ : BufTy).Contents (Elt F)) : (⟨S8192x256, .f32⟩ : BufTy).Contents (Elt F)) (broadcastInDim S8192x256 ![0, 1] bcast_S1x256_S8192x256_0_1 (broadcastInDim S1x256 ![1] bcast_S256_S1x256_1 (x10) : (⟨S1x256, .f32⟩ : BufTy).Contents (Elt F)) : (⟨S8192x256, .f32⟩ : BufTy).Contents (Elt F)) : (⟨S8192x256, .f32⟩ : BufTy).Contents (Elt F)) (broadcastInDim S8192x256 ![] bcast_S_S8192x256 (constant S_ .f32 0x00000000#32 : (⟨S_, .f32⟩ : BufTy).Contents (Elt F)) : (⟨S8192x256, .f32⟩ : BufTy).Contents (Elt F))

/-- The skip connection: the first 8192 projected rows plus the second convolution's output. -/
def skipped (hp : (⟨S131072x256, .f32⟩ : BufTy).Contents (Elt F)) (h : (⟨S8192x256, .f32⟩ : BufTy).Contents (Elt F)) :
    (⟨S8192x256, .f32⟩ : BufTy).Contents (Elt F) :=
  addf (extractStridedSlice S8192x256 ![0, 0] hp slices_S131072x256_S8192x256_0_0 : (⟨S8192x256, .f32⟩ : BufTy).Contents (Elt F)) h

/-- Each row divided by its Euclidean norm, a zero norm replaced by one. -/
def normalized (s : (⟨S8192x256, .f32⟩ : BufTy).Contents (Elt F)) :
    (⟨S8192x256, .f32⟩ : BufTy).Contents (Elt F) :=
  Host.divf s (broadcastInDim S8192x256 ![0, 1] bcast_S8192x1_S8192x256_0_1 (select (cmpf .oeq (Host.sqrt (broadcastInDim S8192x1 ![0] bcast_S8192_S8192x1_0 (Host.reduceAdd (mulf s s : (⟨S8192x256, .f32⟩ : BufTy).Contents (Elt F)) (constant S_ .f32 0x00000000#32 : (⟨S_, .f32⟩ : BufTy).Contents (Elt F)) reducesTo_S8192x256_S8192_d1 h_S_ : (⟨S8192, .f32⟩ : BufTy).Contents (Elt F)) : (⟨S8192x1, .f32⟩ : BufTy).Contents (Elt F)) : (⟨S8192x1, .f32⟩ : BufTy).Contents (Elt F)) (broadcastInDim S8192x1 ![] bcast_S_S8192x1 (constant S_ .f32 0x00000000#32 : (⟨S_, .f32⟩ : BufTy).Contents (Elt F)) : (⟨S8192x1, .f32⟩ : BufTy).Contents (Elt F)) : (⟨S8192x1, .i1⟩ : BufTy).Contents (Elt F)) (broadcastInDim S8192x1 ![] bcast_S_S8192x1 (id (constant S_ .f32 0x3F800000#32 : (⟨S_, .f32⟩ : BufTy).Contents (Elt F)) : (⟨S_, .f32⟩ : BufTy).Contents (Elt F)) : (⟨S8192x1, .f32⟩ : BufTy).Contents (Elt F)) (Host.sqrt (broadcastInDim S8192x1 ![0] bcast_S8192_S8192x1_0 (Host.reduceAdd (mulf s s : (⟨S8192x256, .f32⟩ : BufTy).Contents (Elt F)) (constant S_ .f32 0x00000000#32 : (⟨S_, .f32⟩ : BufTy).Contents (Elt F)) reducesTo_S8192x256_S8192_d1 h_S_ : (⟨S8192, .f32⟩ : BufTy).Contents (Elt F)) : (⟨S8192x1, .f32⟩ : BufTy).Contents (Elt F)) : (⟨S8192x1, .f32⟩ : BufTy).Contents (Elt F)) : (⟨S8192x1, .f32⟩ : BufTy).Contents (Elt F)) : (⟨S8192x256, .f32⟩ : BufTy).Contents (Elt F))

/-- The per-node biases gathered at the node ids. -/
def nodeBias (x13 : (⟨S1000000, .f32⟩ : BufTy).Contents (Elt F)) (x22 : (⟨S8192, .i32⟩ : BufTy).Contents (Elt F)) :
    (⟨S8192, .f32⟩ : BufTy).Contents (Elt F) :=
  Host.gather gather_S1000000_S8192x1_S8192_n_0_n_n_0_1_1 (x13) (broadcastInDim S8192x1 ![0] bcast_S8192_S8192x1_0 (select (cmpi .slt (x22) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x22) (broadcastInDim S8192 ![] bcast_S_S8192 (constantI S_ 32 1000000#32 : (⟨S_, .i32⟩ : BufTy).Contents (Elt F)) : (⟨S8192, .i32⟩ : BufTy).Contents (Elt F)) : (⟨S8192, .i32⟩ : BufTy).Contents (Elt F)) (x22) : (⟨S8192, .i32⟩ : BufTy).Contents (Elt F)) : (⟨S8192x1, .i32⟩ : BufTy).Contents (Elt F))

/-- The margin loss per pair: max (score (neg) − score (pos) + 1, 0), a pair's score the inner product of its two normalized rows plus their two biases. -/
def margin (z : (⟨S8192x256, .f32⟩ : BufTy).Contents (Elt F)) (g : (⟨S8192, .f32⟩ : BufTy).Contents (Elt F)) (x18 : (⟨S8192, .i32⟩ : BufTy).Contents (Elt F)) (x19 : (⟨S8192, .i32⟩ : BufTy).Contents (Elt F)) (x20 : (⟨S8192, .i32⟩ : BufTy).Contents (Elt F)) (x21 : (⟨S8192, .i32⟩ : BufTy).Contents (Elt F)) :
    (⟨S8192, .f32⟩ : BufTy).Contents (Elt F) :=
  maximumf (broadcastInDim S8192 ![] bcast_S_S8192 (id (constant S_ .f32 0x00000000#32 : (⟨S_, .f32⟩ : BufTy).Contents (Elt F)) : (⟨S_, .f32⟩ : BufTy).Contents (Elt F)) : (⟨S8192, .f32⟩ : BufTy).Contents (Elt F)) (addf (subf (addf (addf (Host.reduceAdd (mulf (Host.gather gather_S8192x256_S8192x1_S8192x256_1_0_n_n_0_1_1256 z (broadcastInDim S8192x1 ![0] bcast_S8192_S8192x1_0 (select (cmpi .slt (x20) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x20) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x20) : (⟨S8192, .i32⟩ : BufTy).Contents (Elt F)) : (⟨S8192x1, .i32⟩ : BufTy).Contents (Elt F)) : (⟨S8192x256, .f32⟩ : BufTy).Contents (Elt F)) (Host.gather gather_S8192x256_S8192x1_S8192x256_1_0_n_n_0_1_1256 z (broadcastInDim S8192x1 ![0] bcast_S8192_S8192x1_0 (select (cmpi .slt (x21) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x21) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x21) : (⟨S8192, .i32⟩ : BufTy).Contents (Elt F)) : (⟨S8192x1, .i32⟩ : BufTy).Contents (Elt F)) : (⟨S8192x256, .f32⟩ : BufTy).Contents (Elt F)) : (⟨S8192x256, .f32⟩ : BufTy).Contents (Elt F)) (constant S_ .f32 0x00000000#32 : (⟨S_, .f32⟩ : BufTy).Contents (Elt F)) reducesTo_S8192x256_S8192_d1 h_S_ : (⟨S8192, .f32⟩ : BufTy).Contents (Elt F)) (Host.gather gather_S8192_S8192x1_S8192_n_0_n_n_0_1_1 g (broadcastInDim S8192x1 ![0] bcast_S8192_S8192x1_0 (select (cmpi .slt (x20) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x20) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x20) : (⟨S8192, .i32⟩ : BufTy).Contents (Elt F)) : (⟨S8192x1, .i32⟩ : BufTy).Contents (Elt F)) : (⟨S8192, .f32⟩ : BufTy).Contents (Elt F)) : (⟨S8192, .f32⟩ : BufTy).Contents (Elt F)) (Host.gather gather_S8192_S8192x1_S8192_n_0_n_n_0_1_1 g (broadcastInDim S8192x1 ![0] bcast_S8192_S8192x1_0 (select (cmpi .slt (x21) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x21) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x21) : (⟨S8192, .i32⟩ : BufTy).Contents (Elt F)) : (⟨S8192x1, .i32⟩ : BufTy).Contents (Elt F)) : (⟨S8192, .f32⟩ : BufTy).Contents (Elt F)) : (⟨S8192, .f32⟩ : BufTy).Contents (Elt F)) (addf (addf (Host.reduceAdd (mulf (Host.gather gather_S8192x256_S8192x1_S8192x256_1_0_n_n_0_1_1256 z (broadcastInDim S8192x1 ![0] bcast_S8192_S8192x1_0 (select (cmpi .slt (x18) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x18) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x18) : (⟨S8192, .i32⟩ : BufTy).Contents (Elt F)) : (⟨S8192x1, .i32⟩ : BufTy).Contents (Elt F)) : (⟨S8192x256, .f32⟩ : BufTy).Contents (Elt F)) (Host.gather gather_S8192x256_S8192x1_S8192x256_1_0_n_n_0_1_1256 z (broadcastInDim S8192x1 ![0] bcast_S8192_S8192x1_0 (select (cmpi .slt (x19) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x19) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x19) : (⟨S8192, .i32⟩ : BufTy).Contents (Elt F)) : (⟨S8192x1, .i32⟩ : BufTy).Contents (Elt F)) : (⟨S8192x256, .f32⟩ : BufTy).Contents (Elt F)) : (⟨S8192x256, .f32⟩ : BufTy).Contents (Elt F)) (constant S_ .f32 0x00000000#32 : (⟨S_, .f32⟩ : BufTy).Contents (Elt F)) reducesTo_S8192x256_S8192_d1 h_S_ : (⟨S8192, .f32⟩ : BufTy).Contents (Elt F)) (Host.gather gather_S8192_S8192x1_S8192_n_0_n_n_0_1_1 g (broadcastInDim S8192x1 ![0] bcast_S8192_S8192x1_0 (select (cmpi .slt (x18) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x18) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x18) : (⟨S8192, .i32⟩ : BufTy).Contents (Elt F)) : (⟨S8192x1, .i32⟩ : BufTy).Contents (Elt F)) : (⟨S8192, .f32⟩ : BufTy).Contents (Elt F)) : (⟨S8192, .f32⟩ : BufTy).Contents (Elt F)) (Host.gather gather_S8192_S8192x1_S8192_n_0_n_n_0_1_1 g (broadcastInDim S8192x1 ![0] bcast_S8192_S8192x1_0 (select (cmpi .slt (x19) (broadcastInDim S8192 ![] bcast_S_S8192 (constantI S_ 32 0#32 : (⟨S_, .i32⟩ : BufTy).Contents (Elt F)) : (⟨S8192, .i32⟩ : BufTy).Contents (Elt F)) : (⟨S8192, .i1⟩ : BufTy).Contents (Elt F)) (addi (x19) (broadcastInDim S8192 ![] bcast_S_S8192 (constantI S_ 32 8192#32 : (⟨S_, .i32⟩ : BufTy).Contents (Elt F)) : (⟨S8192, .i32⟩ : BufTy).Contents (Elt F)) : (⟨S8192, .i32⟩ : BufTy).Contents (Elt F)) (x19) : (⟨S8192, .i32⟩ : BufTy).Contents (Elt F)) : (⟨S8192x1, .i32⟩ : BufTy).Contents (Elt F)) : (⟨S8192, .f32⟩ : BufTy).Contents (Elt F)) : (⟨S8192, .f32⟩ : BufTy).Contents (Elt F)) : (⟨S8192, .f32⟩ : BufTy).Contents (Elt F)) (broadcastInDim S8192 ![] bcast_S_S8192 (constant S_ .f32 0x3F800000#32 : (⟨S_, .f32⟩ : BufTy).Contents (Elt F)) : (⟨S8192, .f32⟩ : BufTy).Contents (Elt F)) : (⟨S8192, .f32⟩ : BufTy).Contents (Elt F))

/-- The first convolution's output as a function of the arguments. -/
def firstConv (x0 : (⟨S131072x256, .f32⟩ : BufTy).Contents (Elt F)) (x1 : (⟨S256x256, .f32⟩ : BufTy).Contents (Elt F)) (x2 : (⟨S256, .f32⟩ : BufTy).Contents (Elt F)) (x3 : (⟨S256x256, .f32⟩ : BufTy).Contents (Elt F)) (x4 : (⟨S256, .f32⟩ : BufTy).Contents (Elt F)) (x5 : (⟨S256x512, .f32⟩ : BufTy).Contents (Elt F)) (x6 : (⟨S256, .f32⟩ : BufTy).Contents (Elt F)) (x11 : (⟨S524288, .f32⟩ : BufTy).Contents (Elt F)) (x14 : (⟨S524288, .i32⟩ : BufTy).Contents (Elt F)) (x15 : (⟨S524288, .i32⟩ : BufTy).Contents (Elt F)) :
    (⟨S32768x256, .f32⟩ : BufTy).Contents (Elt F) :=
  hidden1 (gathered1 (projected x0 x1 x2) (nodes1 (projected x0 x1 x2) x3 x4) x11 x14 x15) x5 x6

/-- The second convolution's output as a function of the arguments. -/
def secondConv (x0 : (⟨S131072x256, .f32⟩ : BufTy).Contents (Elt F)) (x1 : (⟨S256x256, .f32⟩ : BufTy).Contents (Elt F)) (x2 : (⟨S256, .f32⟩ : BufTy).Contents (Elt F)) (x3 : (⟨S256x256, .f32⟩ : BufTy).Contents (Elt F)) (x4 : (⟨S256, .f32⟩ : BufTy).Contents (Elt F)) (x5 : (⟨S256x512, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S524288, .f32⟩ : BufTy).Contents (Elt F)) (x12 : (⟨S131072, .f32⟩ : BufTy).Contents (Elt F)) (x14 : (⟨S524288, .i32⟩ : BufTy).Contents (Elt F)) (x15 : (⟨S524288, .i32⟩ : BufTy).Contents (Elt F)) (x16 : (⟨S131072, .i32⟩ : BufTy).Contents (Elt F)) (x17 : (⟨S131072, .i32⟩ : BufTy).Contents (Elt F)) :
    (⟨S8192x256, .f32⟩ : BufTy).Contents (Elt F) :=
  hidden2 (gathered2 (firstConv x0 x1 x2 x3 x4 x5 x6 x11 x14 x15) (nodes2 (firstConv x0 x1 x2 x3 x4 x5 x6 x11 x14 x15) x7 x8) x12 x16 x17) x9 x10

/-- The whole computation as a function of the 23 arguments. -/
def composed (x0 : (⟨S131072x256, .f32⟩ : BufTy).Contents (Elt F)) (x1 : (⟨S256x256, .f32⟩ : BufTy).Contents (Elt F)) (x2 : (⟨S256, .f32⟩ : BufTy).Contents (Elt F)) (x3 : (⟨S256x256, .f32⟩ : BufTy).Contents (Elt F)) (x4 : (⟨S256, .f32⟩ : BufTy).Contents (Elt F)) (x5 : (⟨S256x512, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S524288, .f32⟩ : BufTy).Contents (Elt F)) (x12 : (⟨S131072, .f32⟩ : BufTy).Contents (Elt F)) (x13 : (⟨S1000000, .f32⟩ : BufTy).Contents (Elt F)) (x14 : (⟨S524288, .i32⟩ : BufTy).Contents (Elt F)) (x15 : (⟨S524288, .i32⟩ : BufTy).Contents (Elt F)) (x16 : (⟨S131072, .i32⟩ : BufTy).Contents (Elt F)) (x17 : (⟨S131072, .i32⟩ : BufTy).Contents (Elt F)) (x18 : (⟨S8192, .i32⟩ : BufTy).Contents (Elt F)) (x19 : (⟨S8192, .i32⟩ : BufTy).Contents (Elt F)) (x20 : (⟨S8192, .i32⟩ : BufTy).Contents (Elt F)) (x21 : (⟨S8192, .i32⟩ : BufTy).Contents (Elt F)) (x22 : (⟨S8192, .i32⟩ : BufTy).Contents (Elt F)) :
    (⟨S8192, .f32⟩ : BufTy).Contents (Elt F) :=
  margin (normalized (skipped (projected x0 x1 x2) (secondConv x0 x1 x2 x3 x4 x5 x6 x7 x8 x9 x10 x11 x12 x14 x15 x16 x17)))
    (nodeBias x13 x22) x18 x19 x20 x21

end Cert.Stages

end
-- ==== Proof.StageDense.lean ====
/-
  The five dense stages of the reference computation as dense layers over the extended reals: each is
  X · Wᵀ + b entry by entry (the last four floored at zero), W transposed by the host; and the same layers with the
  bias handed over as a recast [1, 256] row, the form in which a tiled kernel meets it.
-/
import proofs.«167631_j23278722744485_1_alg».proof.Proof.Stages
import proofs.«167631_j23278722744485_1_alg».proof.Proof.LibAffine

noncomputable section

namespace Cert.Stages

open Cert.ReferenceIdeal Cert.ReferenceIdeal.Gen Idealize.ShloMosaic Cert.LibAffine

/-- `projected` is the dense layer. -/
theorem projected_eq (x0 : (⟨S131072x256, .f32⟩ : BufTy).Contents (Elt Ideal)) (x1 : (⟨S256x256, .f32⟩ : BufTy).Contents (Elt Ideal)) (x2 : (⟨S256, .f32⟩ : BufTy).Contents (Elt Ideal)) :
    projected (F := Ideal) x0 x1 x2 = affine (M := 131072) (K := 256) (N := 256) x0 (transpose S256x256 [1, 0] x1 transposes_S256x256_S256x256_1_0) x2 := by
  unfold projected
  exact host_affine dot_S131072x256_S256x256_S131072x256_1_0_0_1_n_n rfl rfl rfl rfl rfl rfl none x0 _ x2 bcast_S256_S1x256_1 bcast_S1x256_S131072x256_0_1

/-- The same layer with its bias given as the recast row is `projected`. -/
theorem projected_of_row (x0 : (⟨S131072x256, .f32⟩ : BufTy).Contents (Elt Ideal)) (x1 : (⟨S256x256, .f32⟩ : BufTy).Contents (Elt Ideal)) (x2 : (⟨S256, .f32⟩ : BufTy).Contents (Elt Ideal)) (hc : S256.ShapeCasts S1x256) :
    rowAffine (M := 131072) (K := 256) (N := 256) x0 (transpose S256x256 [1, 0] x1 transposes_S256x256_S256x256_1_0) (shapeCast S1x256 x2 hc) = projected (F := Ideal) x0 x1 x2 := by
  rw [rowAffine_cast, projected_eq]

/-- `nodes1` is the dense layer floored at zero. -/
theorem nodes1_eq (hp : (⟨S131072x256, .f32⟩ : BufTy).Contents (Elt Ideal)) (x3 : (⟨S256x256, .f32⟩ : BufTy).Contents (Elt Ideal)) (x4 : (⟨S256, .f32⟩ : BufTy).Contents (Elt Ideal)) :
    nodes1 (F := Ideal) hp x3 x4 = affineFloor (Ideal.ofBits .f32 0x00000000#32) (M := 131072) (K := 256) (N := 256) hp (transpose S256x256 [1, 0] x3 transposes_S256x256_S256x256_1_0) x4 := by
  unfold nodes1
  exact host_affineFloor dot_S131072x256_S256x256_S131072x256_1_0_0_1_n_n rfl rfl rfl rfl rfl rfl none hp _ x4 bcast_S256_S1x256_1 bcast_S1x256_S131072x256_0_1 bcast_S_S131072x256 0x00000000#32

/-- The same layer with its bias given as the recast row is `nodes1`. -/
theorem nodes1_of_row (hp : (⟨S131072x256, .f32⟩ : BufTy).Contents (Elt Ideal)) (x3 : (⟨S256x256, .f32⟩ : BufTy).Contents (Elt Ideal)) (x4 : (⟨S256, .f32⟩ : BufTy).Contents (Elt Ideal)) (hc : S256.ShapeCasts S1x256) :
    rowAffineFloor (Ideal.ofBits .f32 0x00000000#32) (M := 131072) (K := 256) (N := 256) hp (transpose S256x256 [1, 0] x3 transposes_S256x256_S256x256_1_0) (shapeCast S1x256 x4 hc) = nodes1 (F := Ideal) hp x3 x4 := by
  rw [rowAffineFloor_cast, nodes1_eq]

/-- `hidden1` is the dense layer floored at zero. -/
theorem hidden1_eq (z : (⟨S32768x512, .f32⟩ : BufTy).Contents (Elt Ideal)) (x5 : (⟨S256x512, .f32⟩ : BufTy).Contents (Elt Ideal)) (x6 : (⟨S256, .f32⟩ : BufTy).Contents (Elt Ideal)) :
    hidden1 (F := Ideal) z x5 x6 = affineFloor (Ideal.ofBits .f32 0x00000000#32) (M := 32768) (K := 512) (N := 256) z (transpose S512x256 [1, 0] x5 transposes_S256x512_S512x256_1_0) x6 := by
  unfold hidden1
  exact host_affineFloor dot_S32768x512_S512x256_S32768x256_1_0_0_1_n_n rfl rfl rfl rfl rfl rfl none z _ x6 bcast_S256_S1x256_1 bcast_S1x256_S32768x256_0_1 bcast_S_S32768x256 0x00000000#32

/-- The same layer with its bias given as the recast row is `hidden1`. -/
theorem hidden1_of_row (z : (⟨S32768x512, .f32⟩ : BufTy).Contents (Elt Ideal)) (x5 : (⟨S256x512, .f32⟩ : BufTy).Contents (Elt Ideal)) (x6 : (⟨S256, .f32⟩ : BufTy).Contents (Elt Ideal)) (hc : S256.ShapeCasts S1x256) :
    rowAffineFloor (Ideal.ofBits .f32 0x00000000#32) (M := 32768) (K := 512) (N := 256) z (transpose S512x256 [1, 0] x5 transposes_S256x512_S512x256_1_0) (shapeCast S1x256 x6 hc) = hidden1 (F := Ideal) z x5 x6 := by
  rw [rowAffineFloor_cast, hidden1_eq]

/-- `nodes2` is the dense layer floored at zero. -/
theorem nodes2_eq (h : (⟨S32768x256, .f32⟩ : BufTy).Contents (Elt Ideal)) (x7 : (⟨S256x256, .f32⟩ : BufTy).Contents (Elt Ideal)) (x8 : (⟨S256, .f32⟩ : BufTy).Contents (Elt Ideal)) :
    nodes2 (F := Ideal) h x7 x8 = affineFloor (Ideal.ofBits .f32 0x00000000#32) (M := 32768) (K := 256) (N := 256) h (transpose S256x256 [1, 0] x7 transposes_S256x256_S256x256_1_0) x8 := by
  unfold nodes2
  exact host_affineFloor dot_S32768x256_S256x256_S32768x256_1_0_0_1_n_n rfl rfl rfl rfl rfl rfl none h _ x8 bcast_S256_S1x256_1 bcast_S1x256_S32768x256_0_1 bcast_S_S32768x256 0x00000000#32

/-- The same layer with its bias given as the recast row is `nodes2`. -/
theorem nodes2_of_row (h : (⟨S32768x256, .f32⟩ : BufTy).Contents (Elt Ideal)) (x7 : (⟨S256x256, .f32⟩ : BufTy).Contents (Elt Ideal)) (x8 : (⟨S256, .f32⟩ : BufTy).Contents (Elt Ideal)) (hc : S256.ShapeCasts S1x256) :
    rowAffineFloor (Ideal.ofBits .f32 0x00000000#32) (M := 32768) (K := 256) (N := 256) h (transpose S256x256 [1, 0] x7 transposes_S256x256_S256x256_1_0) (shapeCast S1x256 x8 hc) = nodes2 (F := Ideal) h x7 x8 := by
  rw [rowAffineFloor_cast, nodes2_eq]

/-- `hidden2` is the dense layer floored at zero. -/
theorem hidden2_eq (z : (⟨S8192x512, .f32⟩ : BufTy).Contents (Elt Ideal)) (x9 : (⟨S256x512, .f32⟩ : BufTy).Contents (Elt Ideal)) (x10 : (⟨S256, .f32⟩ : BufTy).Contents (Elt Ideal)) :
    hidden2 (F := Ideal) z x9 x10 = affineFloor (Ideal.ofBits .f32 0x00000000#32) (M := 8192) (K := 512) (N := 256) z (transpose S512x256 [1, 0] x9 transposes_S256x512_S512x256_1_0) x10 := by
  unfold hidden2
  exact host_affineFloor dot_S8192x512_S512x256_S8192x256_1_0_0_1_n_n rfl rfl rfl rfl rfl rfl none z _ x10 bcast_S256_S1x256_1 bcast_S1x256_S8192x256_0_1 bcast_S_S8192x256 0x00000000#32

/-- The same layer with its bias given as the recast row is `hidden2`. -/
theorem hidden2_of_row (z : (⟨S8192x512, .f32⟩ : BufTy).Contents (Elt Ideal)) (x9 : (⟨S256x512, .f32⟩ : BufTy).Contents (Elt Ideal)) (x10 : (⟨S256, .f32⟩ : BufTy).Contents (Elt Ideal)) (hc : S256.ShapeCasts S1x256) :
    rowAffineFloor (Ideal.ofBits .f32 0x00000000#32) (M := 8192) (K := 512) (N := 256) z (transpose S512x256 [1, 0] x9 transposes_S256x512_S512x256_1_0) (shapeCast S1x256 x10 hc) = hidden2 (F := Ideal) z x9 x10 := by
  rw [rowAffineFloor_cast, hidden2_eq]

end Cert.Stages

end
-- ==== Proof.Layer4.lean ====
/-
  Dense layer 4 of the idealized kernel program, read as one function of the arrays its region finds.
  The region walks 4 row blocks of 2048 rows; at block t the body multiplies rows 2048·t … 2048·t + 2047 of the
  [8192, 512] input by the whole [512, 256] weight array, adds the [1, 256] bias row, floors the sum at zero and stores the block;
  the blocks tile the [8192, 256] result, so the result array ends at
  (p, n) ↦ max (∑ k, X (p, k) · Wt (k, n) + r (0, n), 0).
-/
import proofs.«167631_j23278722744485_1_alg».proof.Proof.Gen.KernelIdeal.Frame
import proofs.«167631_j23278722744485_1_alg».proof.Proof.LibAffine
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Layer4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, n) of its block: the block's row p against column n of the weights, plus the
    bias row's entry n, floored at zero. (A change of float format is the identity on the extended reals.) -/
theorem pay_apply (x0 : Vec Ideal S2048x512 .f32) (x1 : Vec Ideal S512x256 .f32) (x2 : Vec Ideal S1x256 .f32)
    (p : Fin 2048) (n : Fin 256) :
    k4_pay1 x0 x1 x2 (ix2 p n)
      = max ((∑ k : Fin 512, x0 (ix2 p k) * x1 (ix2 k n)) + x2 (ix2 (0 : Fin 1) n)) (Ideal.ofBits .f32 0x00000000#32) := by
  unfold k4_pay1
  simp only [shapeCast_self]
  show max (FloatOps.matmul (F := Ideal) dot_S2048x512_S512x256_S2048x256_1_0_0_1_n_n none (truncf .bf16 x0 bitsLt_bf16_f32)
      (truncf .bf16 x1 bitsLt_bf16_f32) (constant S2048x256 .f32 0x00000000#32) (ix2 p n)
    + broadcastTo S2048x256 x2 broadcasts_S1x256_S2048x256 (ix2 p n)) (Ideal.ofBits .f32 0x00000000#32) = _
  rw [Cert.LibDenseEntry.matmul_plain_zero_apply _ rfl rfl rfl rfl rfl rfl, broadcastTo_1b_ab_apply]
  rfl

/-- The printed index maps over the grid: the input's and the result's row block is the point's number, every other
    block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of block t is row 2048·t + p of the array. -/
def rowOf (t : Fin cfg4.N) (p : Fin 2048) : Fin 8192 :=
  ⟨t.val * 2048 + p.val, by have := t.isLt; have hN : cfg4.N = 4 := N_4; have := p.isLt; omega⟩

/-- The input block at point t is rows 2048·t … of the input array. -/
theorem blk0_apply (c : Dev nD) (t : Fin cfg4.N) (p : Fin 2048) (k : Fin 512) :
    (iblk4 V c 0 t : Vec Ideal S2048x512 .f32) (ix2 p k)
      = (V c main_v55 : S8192x512.Idx → Elt Ideal .f32) (ix2 (rowOf t p) k) := by
  obtain ⟨e0, e1, -⟩ := idx_facts t
  unfold iblk4
  rw [View.read_apply]
  show V c main_v55 _ = V c main_v55 _
  refine congrArg (V c main_v55) ?_
  funext a
  apply Fin.ext
  match a with
  | ⟨0, _⟩ => show win4_0.index t 0 * 2048 + 1 * p.val = t.val * 2048 + p.val; rw [e0]; omega
  | ⟨1, _⟩ => show win4_0.index t 1 * 512 + 1 * k.val = k.val; rw [e1]; omega

/-- The weight block at every point is the whole weight array. -/
theorem blk1_apply (c : Dev nD) (t : Fin cfg4.N) (k : Fin 512) (n : Fin 256) :
    (iblk4 V c 1 t : Vec Ideal S512x256 .f32) (ix2 k n)
      = (V c main_v56 : S512x256.Idx → Elt Ideal .f32) (ix2 k n) := by
  obtain ⟨-, -, e0, e1, -⟩ := idx_facts t
  unfold iblk4
  rw [View.read_apply]
  show V c main_v56 _ = V c main_v56 _
  refine congrArg (V c main_v56) ?_
  funext a
  apply Fin.ext
  match a with
  | ⟨0, _⟩ => show win4_1.index t 0 * 512 + 1 * k.val = k.val; rw [e0]; omega
  | ⟨1, _⟩ => show win4_1.index t 1 * 256 + 1 * n.val = n.val; rw [e1]; omega

/-- The bias block at every point is the whole bias row. -/
theorem blk2_apply (c : Dev nD) (t : Fin cfg4.N) (u : Fin 1) (n : Fin 256) :
    (iblk4 V c 2 t : Vec Ideal S1x256 .f32) (ix2 u n)
      = (V c main_v57 : S1x256.Idx → Elt Ideal .f32) (ix2 u n) := by
  obtain ⟨-, -, -, -, e0, e1, -⟩ := idx_facts t
  unfold iblk4
  rw [View.read_apply]
  show V c main_v57 _ = V c main_v57 _
  refine congrArg (V c main_v57) ?_
  funext a
  apply Fin.ext
  match a with
  | ⟨0, _⟩ => show win4_2.index t 0 * 1 + 1 * u.val = u.val; rw [e0]; omega
  | ⟨1, _⟩ => show win4_2.index t 1 * 256 + 1 * n.val = n.val; rw [e1]; omega

/-- Entry (p, n) of the result's block t sits at (2048·t + p, n) of the result array. -/
theorem emb3 (t : Fin cfg4.N) (p : Fin 2048) (n : Fin 256) :
    (((cfg4.win 3).blk t).view.emb (ix2 p n) : S8192x256.Idx) = ix2 (rowOf t p) n := by
  obtain ⟨-, -, -, -, -, -, e0, e1⟩ := idx_facts t
  funext a
  apply Fin.ext
  match a with
  | ⟨0, _⟩ => show win4_3.index t 0 * 2048 + 1 * p.val = t.val * 2048 + p.val; rw [e0]; omega
  | ⟨1, _⟩ => show win4_3.index t 1 * 256 + 1 * n.val = n.val; rw [e1]; omega

/-- What the result array ends holding: the layer of the arrays the region finds. -/
abbrev G (c : Dev nD) : S8192x256.Idx → Elt Ideal .f32 :=
  Cert.LibAffine.rowAffineFloor (Ideal.ofBits .f32 0x00000000#32) (M := 8192) (K := 512) (N := 256) (V c main_v55) (V c main_v56) (V c main_v57)

/-- The value point t stores at an entry of its block is `G` at that entry's place in the array. -/
theorem point_value (c : Dev nD) (t : Fin cfg4.N) (j : S2048x256.Idx) :
    k4_pay1 (iblk4 V c 0 t) (iblk4 V c 1 t) (iblk4 V c 2 t) j = G V c (((cfg4.win 3).blk t).view.emb j) := by
  obtain ⟨p, n, rfl⟩ : ∃ (p : Fin 2048) (n : Fin 256), j = ix2 p n := ⟨j 0, j 1, eq_ix2 j⟩
  refine (pay_apply _ _ _ p n).trans ?_
  rw [emb3 t p n]
  simp only [blk0_apply V c t, blk1_apply V c t, blk2_apply V c t]
  rfl

/-- WHAT POINT t WRITES BACK is block t of `G`. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S2048x512) hz, View.ld_unit_zero (S := S512x256) hz, View.ld_unit_zero (S := S1x256) hz]
  funext j
  show k4_pay1 (iblk4 V c 0 t) (iblk4 V c 1 t) (iblk4 V c 2 t) j = G V c (((cfg4.win 3).blk t).view.emb j)
  exact point_value V c t j

/-- An index of the result array is in point t's block iff each coordinate is in the block's range on its axis. -/
theorem mem_blk (t : Fin cfg4.N) (i : S8192x256.Idx) :
    i ∈ ((cfg4.win 3).blk t).view.set ↔ ∀ a : Fin 2, win4_3.index t a * S2048x256.size a ≤ (i a).val ∧ (i a).val < win4_3.index t a * S2048x256.size a + S2048x256.size a := by
  show i ∈ ((View.whole main_v58).slice (win4_3.rect t)).set ↔ _
  rw [View.set_slice_whole, Rect.mem_set_unit]
  exact Iff.rfl

/-- Every row of the result array lies in the block of the point numbered by its row block. -/
theorem cover (i : S8192x256.Idx) :
    ∃ t : Fin cfg4.N, (cfg4.win 3).flush t = true ∧ i ∈ ((cfg4.win 3).blk t).view.set := by
  have hi0 : (i 0).val < 8192 := (i 0).isLt
  have hi1 : (i 1).val < 256 := (i 1).isLt
  have hN : cfg4.N = 4 := N_4
  refine ⟨⟨(i 0).val / 2048, by rw [hN]; omega⟩, flush4_3 _, ?_⟩
  rw [mem_blk]
  obtain ⟨-, -, -, -, -, -, e0, e1⟩ := idx_facts ⟨(i 0).val / 2048, by rw [hN]; omega⟩
  intro a
  match a with
  | ⟨0, _⟩ =>
    show win4_3.index _ (0 : Fin 2) * 2048 ≤ (i 0).val ∧ (i 0).val < win4_3.index _ (0 : Fin 2) * 2048 + 2048
    rw [e0]
    show (i 0).val / 2048 * 2048 ≤ (i 0).val ∧ (i 0).val < (i 0).val / 2048 * 2048 + 2048
    omega
  | ⟨1, _⟩ =>
    show win4_3.index _ (1 : Fin 2) * 256 ≤ (i 1).val ∧ (i 1).val < win4_3.index _ (1 : Fin 2) * 256 + 256
    rw [e1]
    omega

/-- THE RESULT ARRAY after the region, for any contents `V` the region is entered with. -/
theorem result (c : Dev nD) : (dat4 V c).arrAt 3 cfg4.N = G V c :=
  (dat4 V c).arrAt_eq_of_cover 3 (G V c) (fun t _ => flushed_eq V c t) cover

end Cert.KernelIdeal.Layer4

end
-- ==== Proof.Layer0.lean ====
/-
  Dense layer 0 of the idealized kernel program, read as one function of the arrays its region finds.
  The region walks 32 row blocks of 4096 rows; at block t the body multiplies rows 4096·t … 4096·t + 4095 of the
  [131072, 256] input by the whole [256, 256] weight array, adds the [1, 256] bias row and stores the block;
  the blocks tile the [131072, 256] result, so the result array ends at
  (p, n) ↦ ∑ k, X (p, k) · Wt (k, n) + r (0, n).
-/
import proofs.«167631_j23278722744485_1_alg».proof.Proof.Gen.KernelIdeal.Frame
import proofs.«167631_j23278722744485_1_alg».proof.Proof.LibAffine
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, n) of its block: the block's row p against column n of the weights, plus the
    bias row's entry n. (A change of float format is the identity on the extended reals.) -/
theorem pay_apply (x0 : Vec Ideal S4096x256 .f32) (x1 : Vec Ideal S256x256 .f32) (x2 : Vec Ideal S1x256 .f32)
    (p : Fin 4096) (n : Fin 256) :
    k0_pay1 x0 x1 x2 (ix2 p n)
      = (∑ k : Fin 256, x0 (ix2 p k) * x1 (ix2 k n)) + x2 (ix2 (0 : Fin 1) n) := by
  unfold k0_pay1
  simp only [shapeCast_self]
  show FloatOps.matmul (F := Ideal) dot_S4096x256_S256x256_S4096x256_1_0_0_1_n_n none (truncf .bf16 x0 bitsLt_bf16_f32)
      (truncf .bf16 x1 bitsLt_bf16_f32) (constant S4096x256 .f32 0x00000000#32) (ix2 p n)
    + broadcastTo S4096x256 x2 broadcasts_S1x256_S4096x256 (ix2 p n) = _
  rw [Cert.LibDenseEntry.matmul_plain_zero_apply _ rfl rfl rfl rfl rfl rfl, broadcastTo_1b_ab_apply]
  rfl

/-- The printed index maps over the grid: the input's and the result's row block is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 4096·t + p of the array. -/
def rowOf (t : Fin cfg0.N) (p : Fin 4096) : Fin 131072 :=
  ⟨t.val * 4096 + p.val, by have := t.isLt; have hN : cfg0.N = 32 := N_0; have := p.isLt; omega⟩

/-- The input block at point t is rows 4096·t … of the input array. -/
theorem blk0_apply (c : Dev nD) (t : Fin cfg0.N) (p : Fin 4096) (k : Fin 256) :
    (iblk0 V c 0 t : Vec Ideal S4096x256 .f32) (ix2 p k)
      = (V c main_arg0 : S131072x256.Idx → Elt Ideal .f32) (ix2 (rowOf t p) k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 4096 + 1 * p.val = t.val * 4096 + p.val; rw [e0]; omega
  | ⟨1, _⟩ => show win0_0.index t 1 * 256 + 1 * k.val = k.val; rw [e1]; omega

/-- The weight block at every point is the whole weight array. -/
theorem blk1_apply (c : Dev nD) (t : Fin cfg0.N) (k : Fin 256) (n : Fin 256) :
    (iblk0 V c 1 t : Vec Ideal S256x256 .f32) (ix2 k n)
      = (V c main_v0 : S256x256.Idx → Elt Ideal .f32) (ix2 k n) := by
  obtain ⟨-, -, e0, e1, -⟩ := idx_facts t
  unfold iblk0
  rw [View.read_apply]
  show V c main_v0 _ = V c main_v0 _
  refine congrArg (V c main_v0) ?_
  funext a
  apply Fin.ext
  match a with
  | ⟨0, _⟩ => show win0_1.index t 0 * 256 + 1 * k.val = k.val; rw [e0]; omega
  | ⟨1, _⟩ => show win0_1.index t 1 * 256 + 1 * n.val = n.val; rw [e1]; omega

/-- The bias block at every point is the whole bias row. -/
theorem blk2_apply (c : Dev nD) (t : Fin cfg0.N) (u : Fin 1) (n : Fin 256) :
    (iblk0 V c 2 t : Vec Ideal S1x256 .f32) (ix2 u n)
      = (V c main_v1 : S1x256.Idx → Elt Ideal .f32) (ix2 u n) := by
  obtain ⟨-, -, -, -, e0, e1, -⟩ := idx_facts t
  unfold iblk0
  rw [View.read_apply]
  show V c main_v1 _ = V c main_v1 _
  refine congrArg (V c main_v1) ?_
  funext a
  apply Fin.ext
  match a with
  | ⟨0, _⟩ => show win0_2.index t 0 * 1 + 1 * u.val = u.val; rw [e0]; omega
  | ⟨1, _⟩ => show win0_2.index t 1 * 256 + 1 * n.val = n.val; rw [e1]; omega

/-- Entry (p, n) of the result's block t sits at (4096·t + p, n) of the result array. -/
theorem emb3 (t : Fin cfg0.N) (p : Fin 4096) (n : Fin 256) :
    (((cfg0.win 3).blk t).view.emb (ix2 p n) : S131072x256.Idx) = ix2 (rowOf t p) n := by
  obtain ⟨-, -, -, -, -, -, e0, e1⟩ := idx_facts t
  funext a
  apply Fin.ext
  match a with
  | ⟨0, _⟩ => show win0_3.index t 0 * 4096 + 1 * p.val = t.val * 4096 + p.val; rw [e0]; omega
  | ⟨1, _⟩ => show win0_3.index t 1 * 256 + 1 * n.val = n.val; rw [e1]; omega

/-- What the result array ends holding: the layer of the arrays the region finds. -/
abbrev G (c : Dev nD) : S131072x256.Idx → Elt Ideal .f32 :=
  Cert.LibAffine.rowAffine (M := 131072) (K := 256) (N := 256) (V c main_arg0) (V c main_v0) (V c main_v1)

/-- The value point t stores at an entry of its block is `G` at that entry's place in the array. -/
theorem point_value (c : Dev nD) (t : Fin cfg0.N) (j : S4096x256.Idx) :
    k0_pay1 (iblk0 V c 0 t) (iblk0 V c 1 t) (iblk0 V c 2 t) j = G V c (((cfg0.win 3).blk t).view.emb j) := by
  obtain ⟨p, n, rfl⟩ : ∃ (p : Fin 4096) (n : Fin 256), j = ix2 p n := ⟨j 0, j 1, eq_ix2 j⟩
  refine (pay_apply _ _ _ p n).trans ?_
  rw [emb3 t p n]
  simp only [blk0_apply V c t, blk1_apply V c t, blk2_apply V c t]
  rfl

/-- WHAT POINT t WRITES BACK is block t of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4096x256) hz, View.ld_unit_zero (S := S256x256) hz, View.ld_unit_zero (S := S1x256) hz]
  funext j
  show k0_pay1 (iblk0 V c 0 t) (iblk0 V c 1 t) (iblk0 V c 2 t) j = G V c (((cfg0.win 3).blk t).view.emb j)
  exact point_value V c t j

/-- An index of the result array is in point t's block iff each coordinate is in the block's range on its axis. -/
theorem mem_blk (t : Fin cfg0.N) (i : S131072x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v2).slice (win0_3.rect t)).set ↔ _
  rw [View.set_slice_whole, Rect.mem_set_unit]
  exact Iff.rfl

/-- Every row of the result array lies in the block of the point numbered by its row block. -/
theorem cover (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 32 := N_0
  refine ⟨⟨(i 0).val / 4096, by rw [hN]; omega⟩, flush0_3 _, ?_⟩
  rw [mem_blk]
  obtain ⟨-, -, -, -, -, -, e0, e1⟩ := idx_facts ⟨(i 0).val / 4096, by rw [hN]; omega⟩
  intro a
  match a with
  | ⟨0, _⟩ =>
    show win0_3.index _ (0 : Fin 2) * 4096 ≤ (i 0).val ∧ (i 0).val < win0_3.index _ (0 : Fin 2) * 4096 + 4096
    rw [e0]
    show (i 0).val / 4096 * 4096 ≤ (i 0).val ∧ (i 0).val < (i 0).val / 4096 * 4096 + 4096
    omega
  | ⟨1, _⟩ =>
    show win0_3.index _ (1 : Fin 2) * 256 ≤ (i 1).val ∧ (i 1).val < win0_3.index _ (1 : Fin 2) * 256 + 256
    rw [e1]
    omega

/-- THE RESULT ARRAY after the region, for any contents `V` the region is entered with. -/
theorem result (c : Dev nD) : (dat0 V c).arrAt 3 cfg0.N = G V c :=
  (dat0 V c).arrAt_eq_of_cover 3 (G V c) (fun t _ => flushed_eq V c t) cover

end Cert.KernelIdeal.Layer0

end
-- ==== Proof.Layer1.lean ====
/-
  Dense layer 1 of the idealized kernel program, read as one function of the arrays its region finds.
  The region walks 32 row blocks of 4096 rows; at block t the body multiplies rows 4096·t … 4096·t + 4095 of the
  [131072, 256] input by the whole [256, 256] weight array, adds the [1, 256] bias row, floors the sum at zero and stores the block;
  the blocks tile the [131072, 256] result, so the result array ends at
  (p, n) ↦ max (∑ k, X (p, k) · Wt (k, n) + r (0, n), 0).
-/
import proofs.«167631_j23278722744485_1_alg».proof.Proof.Gen.KernelIdeal.Frame
import proofs.«167631_j23278722744485_1_alg».proof.Proof.LibAffine
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, n) of its block: the block's row p against column n of the weights, plus the
    bias row's entry n, floored at zero. (A change of float format is the identity on the extended reals.) -/
theorem pay_apply (x0 : Vec Ideal S4096x256 .f32) (x1 : Vec Ideal S256x256 .f32) (x2 : Vec Ideal S1x256 .f32)
    (p : Fin 4096) (n : Fin 256) :
    k1_pay1 x0 x1 x2 (ix2 p n)
      = max ((∑ k : Fin 256, x0 (ix2 p k) * x1 (ix2 k n)) + x2 (ix2 (0 : Fin 1) n)) (Ideal.ofBits .f32 0x00000000#32) := by
  unfold k1_pay1
  simp only [shapeCast_self]
  show max (FloatOps.matmul (F := Ideal) dot_S4096x256_S256x256_S4096x256_1_0_0_1_n_n none (truncf .bf16 x0 bitsLt_bf16_f32)
      (truncf .bf16 x1 bitsLt_bf16_f32) (constant S4096x256 .f32 0x00000000#32) (ix2 p n)
    + broadcastTo S4096x256 x2 broadcasts_S1x256_S4096x256 (ix2 p n)) (Ideal.ofBits .f32 0x00000000#32) = _
  rw [Cert.LibDenseEntry.matmul_plain_zero_apply _ rfl rfl rfl rfl rfl rfl, broadcastTo_1b_ab_apply]
  rfl

/-- The printed index maps over the grid: the input's and the result's row block is the point's number, every other
    block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 4096·t + p of the array. -/
def rowOf (t : Fin cfg1.N) (p : Fin 4096) : Fin 131072 :=
  ⟨t.val * 4096 + p.val, by have := t.isLt; have hN : cfg1.N = 32 := N_1; have := p.isLt; omega⟩

/-- The input block at point t is rows 4096·t … of the input array. -/
theorem blk0_apply (c : Dev nD) (t : Fin cfg1.N) (p : Fin 4096) (k : Fin 256) :
    (iblk1 V c 0 t : Vec Ideal S4096x256 .f32) (ix2 p k)
      = (V c main_v2 : S131072x256.Idx → Elt Ideal .f32) (ix2 (rowOf t p) k) := by
  obtain ⟨e0, e1, -⟩ := idx_facts t
  unfold iblk1
  rw [View.read_apply]
  show V c main_v2 _ = V c main_v2 _
  refine congrArg (V c main_v2) ?_
  funext a
  apply Fin.ext
  match a with
  | ⟨0, _⟩ => show win1_0.index t 0 * 4096 + 1 * p.val = t.val * 4096 + p.val; rw [e0]; omega
  | ⟨1, _⟩ => show win1_0.index t 1 * 256 + 1 * k.val = k.val; rw [e1]; omega

/-- The weight block at every point is the whole weight array. -/
theorem blk1_apply (c : Dev nD) (t : Fin cfg1.N) (k : Fin 256) (n : Fin 256) :
    (iblk1 V c 1 t : Vec Ideal S256x256 .f32) (ix2 k n)
      = (V c main_v4 : S256x256.Idx → Elt Ideal .f32) (ix2 k n) := by
  obtain ⟨-, -, e0, e1, -⟩ := idx_facts t
  unfold iblk1
  rw [View.read_apply]
  show V c main_v4 _ = V c main_v4 _
  refine congrArg (V c main_v4) ?_
  funext a
  apply Fin.ext
  match a with
  | ⟨0, _⟩ => show win1_1.index t 0 * 256 + 1 * k.val = k.val; rw [e0]; omega
  | ⟨1, _⟩ => show win1_1.index t 1 * 256 + 1 * n.val = n.val; rw [e1]; omega

/-- The bias block at every point is the whole bias row. -/
theorem blk2_apply (c : Dev nD) (t : Fin cfg1.N) (u : Fin 1) (n : Fin 256) :
    (iblk1 V c 2 t : Vec Ideal S1x256 .f32) (ix2 u n)
      = (V c main_v5 : S1x256.Idx → Elt Ideal .f32) (ix2 u n) := by
  obtain ⟨-, -, -, -, e0, e1, -⟩ := idx_facts t
  unfold iblk1
  rw [View.read_apply]
  show V c main_v5 _ = V c main_v5 _
  refine congrArg (V c main_v5) ?_
  funext a
  apply Fin.ext
  match a with
  | ⟨0, _⟩ => show win1_2.index t 0 * 1 + 1 * u.val = u.val; rw [e0]; omega
  | ⟨1, _⟩ => show win1_2.index t 1 * 256 + 1 * n.val = n.val; rw [e1]; omega

/-- Entry (p, n) of the result's block t sits at (4096·t + p, n) of the result array. -/
theorem emb3 (t : Fin cfg1.N) (p : Fin 4096) (n : Fin 256) :
    (((cfg1.win 3).blk t).view.emb (ix2 p n) : S131072x256.Idx) = ix2 (rowOf t p) n := by
  obtain ⟨-, -, -, -, -, -, e0, e1⟩ := idx_facts t
  funext a
  apply Fin.ext
  match a with
  | ⟨0, _⟩ => show win1_3.index t 0 * 4096 + 1 * p.val = t.val * 4096 + p.val; rw [e0]; omega
  | ⟨1, _⟩ => show win1_3.index t 1 * 256 + 1 * n.val = n.val; rw [e1]; omega

/-- What the result array ends holding: the layer of the arrays the region finds. -/
abbrev G (c : Dev nD) : S131072x256.Idx → Elt Ideal .f32 :=
  Cert.LibAffine.rowAffineFloor (Ideal.ofBits .f32 0x00000000#32) (M := 131072) (K := 256) (N := 256) (V c main_v2) (V c main_v4) (V c main_v5)

/-- The value point t stores at an entry of its block is `G` at that entry's place in the array. -/
theorem point_value (c : Dev nD) (t : Fin cfg1.N) (j : S4096x256.Idx) :
    k1_pay1 (iblk1 V c 0 t) (iblk1 V c 1 t) (iblk1 V c 2 t) j = G V c (((cfg1.win 3).blk t).view.emb j) := by
  obtain ⟨p, n, rfl⟩ : ∃ (p : Fin 4096) (n : Fin 256), j = ix2 p n := ⟨j 0, j 1, eq_ix2 j⟩
  refine (pay_apply _ _ _ p n).trans ?_
  rw [emb3 t p n]
  simp only [blk0_apply V c t, blk1_apply V c t, blk2_apply V c t]
  rfl

/-- WHAT POINT t WRITES BACK is block t of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S4096x256) hz, View.ld_unit_zero (S := S256x256) hz, View.ld_unit_zero (S := S1x256) hz]
  funext j
  show k1_pay1 (iblk1 V c 0 t) (iblk1 V c 1 t) (iblk1 V c 2 t) j = G V c (((cfg1.win 3).blk t).view.emb j)
  exact point_value V c t j

/-- An index of the result array is in point t's block iff each coordinate is in the block's range on its axis. -/
theorem mem_blk (t : Fin cfg1.N) (i : S131072x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v6).slice (win1_3.rect t)).set ↔ _
  rw [View.set_slice_whole, Rect.mem_set_unit]
  exact Iff.rfl

/-- Every row of the result array lies in the block of the point numbered by its row block. -/
theorem cover (i : S131072x256.Idx) :
    ∃ t : Fin cfg1.N, (cfg1.win 3).flush t = true ∧ i ∈ ((cfg1.win 3).blk t).view.set := by
  have hi0 : (i 0).val < 131072 := (i 0).isLt
  have hi1 : (i 1).val < 256 := (i 1).isLt
  have hN : cfg1.N = 32 := N_1
  refine ⟨⟨(i 0).val / 4096, by rw [hN]; omega⟩, flush1_3 _, ?_⟩
  rw [mem_blk]
  obtain ⟨-, -, -, -, -, -, e0, e1⟩ := idx_facts ⟨(i 0).val / 4096, by rw [hN]; omega⟩
  intro a
  match a with
  | ⟨0, _⟩ =>
    show win1_3.index _ (0 : Fin 2) * 4096 ≤ (i 0).val ∧ (i 0).val < win1_3.index _ (0 : Fin 2) * 4096 + 4096
    rw [e0]
    show (i 0).val / 4096 * 4096 ≤ (i 0).val ∧ (i 0).val < (i 0).val / 4096 * 4096 + 4096
    omega
  | ⟨1, _⟩ =>
    show win1_3.index _ (1 : Fin 2) * 256 ≤ (i 1).val ∧ (i 1).val < win1_3.index _ (1 : Fin 2) * 256 + 256
    rw [e1]
    omega

/-- THE RESULT ARRAY after the region, for any contents `V` the region is entered with. -/
theorem result (c : Dev nD) : (dat1 V c).arrAt 3 cfg1.N = G V c :=
  (dat1 V c).arrAt_eq_of_cover 3 (G V c) (fun t _ => flushed_eq V c t) cover

end Cert.KernelIdeal.Layer1

end
-- ==== Proof.ChainA.lean ====
/-
  The idealized kernel program's values, first part: the contents of its buffers read back through the run, and the
  first two dense layers as the reference's stages of the argument arrays.
-/
import proofs.«167631_j23278722744485_1_alg».proof.Proof.Gen.KernelIdeal.Frame
import proofs.«167631_j23278722744485_1_alg».proof.Proof.LibAffine
import proofs.«167631_j23278722744485_1_alg».proof.Proof.Stages
import proofs.«167631_j23278722744485_1_alg».proof.Proof.StageDense
import proofs.«167631_j23278722744485_1_alg».proof.Proof.Layer0
import proofs.«167631_j23278722744485_1_alg».proof.Proof.Layer1
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Chain

open Cert.KernelIdeal Cert.KernelIdeal.Gen

variable (m : (ℓ : Loc nD τ sig) → Buf (Elt Ideal) ℓ) (ρ : Dev nD → PrngReg) (c : Dev nD)

/-- An argument array as launched. -/
abbrev argAt (b : Ref sig .tc) : Buf (Elt Ideal) ((c : Thread nD τ).loc b) := m ((c : Thread nD τ).loc b)

/-! ## Reading a buffer back through the run -/

theorem W2_keep (b : Ref sig .tc) (hb : ∀ w, Pipeline.arrRef spec0 w ≠ b) :
    W2 m ρ c (no_index (Proc.devRef .tc b)) = W1 m ρ c (Proc.devRef .tc b) := W2_of_ne m ρ c b hb
theorem W4_keep (b : Ref sig .tc) (hb : ∀ w, Pipeline.arrRef spec1 w ≠ b) :
    W4 m ρ c (no_index (Proc.devRef .tc b)) = W3 m ρ c (Proc.devRef .tc b) := W4_of_ne m ρ c b hb
theorem W8_keep (b : Ref sig .tc) (hb : ∀ w, Pipeline.arrRef spec2 w ≠ b) :
    W8 m ρ c (no_index (Proc.devRef .tc b)) = W7 m ρ c (Proc.devRef .tc b) := W8_of_ne m ρ c b hb
theorem W10_keep (b : Ref sig .tc) (hb : ∀ w, Pipeline.arrRef spec3 w ≠ b) :
    W10 m ρ c (no_index (Proc.devRef .tc b)) = W9 m ρ c (Proc.devRef .tc b) := W10_of_ne m ρ c b hb
theorem W14_keep (b : Ref sig .tc) (hb : ∀ w, Pipeline.arrRef spec4 w ≠ b) :
    W14 m ρ c (no_index (Proc.devRef .tc b)) = W13 m ρ c (Proc.devRef .tc b) := W14_of_ne m ρ c b hb

/-- Reads a buffer's contents at a boundary of the run back through the host stretches and past the regions that do
    not write it: every host operation's result at its own buffer is its function of its operands' contents, every
    other buffer keeps what it held. -/
macro "walk_back" : tactic =>
  `(tactic| simp (disch := decide) only [W1, W3, W5, W6, W7, W9, W11, W12, W13, W15, W16, W17, W18, W19, W20, V1, V3, V7, V9, V13,
      W14_keep, W10_keep, W8_keep, W4_keep, W2_keep,
      hostOps0, hostOps1, hostOps2, hostOps2_1, hostOps2_2, hostOps3, hostOps4, hostOps4_1, hostOps4_2,
      hostOps5, hostOps5_1, hostOps5_2, hostOps5_3, hostOps5_4, hostOps5_5,
      StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne'])

/-! ## The first two dense layers -/

/-- After the first region the result array holds the projected features of the arguments. -/
theorem projected_value : W2 m ρ c (Proc.devRef .tc main_v2)
    = Cert.Stages.projected (F := Ideal) (argAt m c main_arg0) (argAt m c main_arg1) (argAt m c main_arg2) := by
  refine (W2_arr m ρ c 3).trans ?_
  rw [Cert.KernelIdeal.Layer0.result]
  show Cert.LibAffine.rowAffine (V1 m ρ c main_arg0) (V1 m ρ c main_v0) (V1 m ρ c main_v1) = _
  have e0 : V1 m ρ c main_arg0 = (argAt m c main_arg0) := by walk_back
  have e1 : V1 m ρ c main_v0 = transpose S256x256 [1, 0] (argAt m c main_arg1) transposes_S256x256_S256x256_1_0 := by walk_back
  have e2 : V1 m ρ c main_v1 = shapeCast S1x256 (argAt m c main_arg2) shapeCasts_S256_S1x256 := by walk_back <;> rfl
  rw [e0, e1, e2]
  exact Cert.Stages.projected_of_row _ _ _ _

/-- After the second region: the first node transform of the projected features. -/
theorem nodes1_value : W4 m ρ c (Proc.devRef .tc main_v6)
    = Cert.Stages.nodes1 (F := Ideal) (W2 m ρ c (Proc.devRef .tc main_v2)) (argAt m c main_arg3) (argAt m c main_arg4) := by
  refine (W4_arr m ρ c 3).trans ?_
  rw [Cert.KernelIdeal.Layer1.result]
  show Cert.LibAffine.rowAffineFloor _ (V3 m ρ c main_v2) (V3 m ρ c main_v4) (V3 m ρ c main_v5) = _
  have e0 : V3 m ρ c main_v2 = (W2 m ρ c (Proc.devRef .tc main_v2)) := by walk_back
  have e1 : V3 m ρ c main_v4 = transpose S256x256 [1, 0] (argAt m c main_arg3) transposes_S256x256_S256x256_1_0 := by walk_back
  have e2 : V3 m ρ c main_v5 = shapeCast S1x256 (argAt m c main_arg4) shapeCasts_S256_S1x256 := by walk_back <;> rfl
  rw [e0, e1, e2]
  exact Cert.Stages.nodes1_of_row _ _ _ _

end Cert.KernelIdeal.Chain

end
-- ==== Proof.Layer2.lean ====
/-
  Dense layer 2 of the idealized kernel program, read as one function of the arrays its region finds.
  The region walks 8 row blocks of 4096 rows; at block t the body multiplies rows 4096·t … 4096·t + 4095 of the
  [32768, 512] input by the whole [512, 256] weight array, adds the [1, 256] bias row, floors the sum at zero and stores the block;
  the blocks tile the [32768, 256] result, so the result array ends at
  (p, n) ↦ max (∑ k, X (p, k) · Wt (k, n) + r (0, n), 0).
-/
import proofs.«167631_j23278722744485_1_alg».proof.Proof.Gen.KernelIdeal.Frame
import proofs.«167631_j23278722744485_1_alg».proof.Proof.LibAffine
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, n) of its block: the block's row p against column n of the weights, plus the
    bias row's entry n, floored at zero. (A change of float format is the identity on the extended reals.) -/
theorem pay_apply (x0 : Vec Ideal S4096x512 .f32) (x1 : Vec Ideal S512x256 .f32) (x2 : Vec Ideal S1x256 .f32)
    (p : Fin 4096) (n : Fin 256) :
    k2_pay1 x0 x1 x2 (ix2 p n)
      = max ((∑ k : Fin 512, x0 (ix2 p k) * x1 (ix2 k n)) + x2 (ix2 (0 : Fin 1) n)) (Ideal.ofBits .f32 0x00000000#32) := by
  unfold k2_pay1
  simp only [shapeCast_self]
  show max (FloatOps.matmul (F := Ideal) dot_S4096x512_S512x256_S4096x256_1_0_0_1_n_n none (truncf .bf16 x0 bitsLt_bf16_f32)
      (truncf .bf16 x1 bitsLt_bf16_f32) (constant S4096x256 .f32 0x00000000#32) (ix2 p n)
    + broadcastTo S4096x256 x2 broadcasts_S1x256_S4096x256 (ix2 p n)) (Ideal.ofBits .f32 0x00000000#32) = _
  rw [Cert.LibDenseEntry.matmul_plain_zero_apply _ rfl rfl rfl rfl rfl rfl, broadcastTo_1b_ab_apply]
  rfl

/-- The printed index maps over the grid: the input's and the result's row block is the point's number, every other
    block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is row 4096·t + p of the array. -/
def rowOf (t : Fin cfg2.N) (p : Fin 4096) : Fin 32768 :=
  ⟨t.val * 4096 + p.val, by have := t.isLt; have hN : cfg2.N = 8 := N_2; have := p.isLt; omega⟩

/-- The input block at point t is rows 4096·t … of the input array. -/
theorem blk0_apply (c : Dev nD) (t : Fin cfg2.N) (p : Fin 4096) (k : Fin 512) :
    (iblk2 V c 0 t : Vec Ideal S4096x512 .f32) (ix2 p k)
      = (V c main_v27 : S32768x512.Idx → Elt Ideal .f32) (ix2 (rowOf t p) k) := by
  obtain ⟨e0, e1, -⟩ := idx_facts t
  unfold iblk2
  rw [View.read_apply]
  show V c main_v27 _ = V c main_v27 _
  refine congrArg (V c main_v27) ?_
  funext a
  apply Fin.ext
  match a with
  | ⟨0, _⟩ => show win2_0.index t 0 * 4096 + 1 * p.val = t.val * 4096 + p.val; rw [e0]; omega
  | ⟨1, _⟩ => show win2_0.index t 1 * 512 + 1 * k.val = k.val; rw [e1]; omega

/-- The weight block at every point is the whole weight array. -/
theorem blk1_apply (c : Dev nD) (t : Fin cfg2.N) (k : Fin 512) (n : Fin 256) :
    (iblk2 V c 1 t : Vec Ideal S512x256 .f32) (ix2 k n)
      = (V c main_v28 : S512x256.Idx → Elt Ideal .f32) (ix2 k n) := by
  obtain ⟨-, -, e0, e1, -⟩ := idx_facts t
  unfold iblk2
  rw [View.read_apply]
  show V c main_v28 _ = V c main_v28 _
  refine congrArg (V c main_v28) ?_
  funext a
  apply Fin.ext
  match a with
  | ⟨0, _⟩ => show win2_1.index t 0 * 512 + 1 * k.val = k.val; rw [e0]; omega
  | ⟨1, _⟩ => show win2_1.index t 1 * 256 + 1 * n.val = n.val; rw [e1]; omega

/-- The bias block at every point is the whole bias row. -/
theorem blk2_apply (c : Dev nD) (t : Fin cfg2.N) (u : Fin 1) (n : Fin 256) :
    (iblk2 V c 2 t : Vec Ideal S1x256 .f32) (ix2 u n)
      = (V c main_v29 : S1x256.Idx → Elt Ideal .f32) (ix2 u n) := by
  obtain ⟨-, -, -, -, e0, e1, -⟩ := idx_facts t
  unfold iblk2
  rw [View.read_apply]
  show V c main_v29 _ = V c main_v29 _
  refine congrArg (V c main_v29) ?_
  funext a
  apply Fin.ext
  match a with
  | ⟨0, _⟩ => show win2_2.index t 0 * 1 + 1 * u.val = u.val; rw [e0]; omega
  | ⟨1, _⟩ => show win2_2.index t 1 * 256 + 1 * n.val = n.val; rw [e1]; omega

/-- Entry (p, n) of the result's block t sits at (4096·t + p, n) of the result array. -/
theorem emb3 (t : Fin cfg2.N) (p : Fin 4096) (n : Fin 256) :
    (((cfg2.win 3).blk t).view.emb (ix2 p n) : S32768x256.Idx) = ix2 (rowOf t p) n := by
  obtain ⟨-, -, -, -, -, -, e0, e1⟩ := idx_facts t
  funext a
  apply Fin.ext
  match a with
  | ⟨0, _⟩ => show win2_3.index t 0 * 4096 + 1 * p.val = t.val * 4096 + p.val; rw [e0]; omega
  | ⟨1, _⟩ => show win2_3.index t 1 * 256 + 1 * n.val = n.val; rw [e1]; omega

/-- What the result array ends holding: the layer of the arrays the region finds. -/
abbrev G (c : Dev nD) : S32768x256.Idx → Elt Ideal .f32 :=
  Cert.LibAffine.rowAffineFloor (Ideal.ofBits .f32 0x00000000#32) (M := 32768) (K := 512) (N := 256) (V c main_v27) (V c main_v28) (V c main_v29)

/-- The value point t stores at an entry of its block is `G` at that entry's place in the array. -/
theorem point_value (c : Dev nD) (t : Fin cfg2.N) (j : S4096x256.Idx) :
    k2_pay1 (iblk2 V c 0 t) (iblk2 V c 1 t) (iblk2 V c 2 t) j = G V c (((cfg2.win 3).blk t).view.emb j) := by
  obtain ⟨p, n, rfl⟩ : ∃ (p : Fin 4096) (n : Fin 256), j = ix2 p n := ⟨j 0, j 1, eq_ix2 j⟩
  refine (pay_apply _ _ _ p n).trans ?_
  rw [emb3 t p n]
  simp only [blk0_apply V c t, blk1_apply V c t, blk2_apply V c t]
  rfl

/-- WHAT POINT t WRITES BACK is block t of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S4096x512) hz, View.ld_unit_zero (S := S512x256) hz, View.ld_unit_zero (S := S1x256) hz]
  funext j
  show k2_pay1 (iblk2 V c 0 t) (iblk2 V c 1 t) (iblk2 V c 2 t) j = G V c (((cfg2.win 3).blk t).view.emb j)
  exact point_value V c t j

/-- An index of the result array is in point t's block iff each coordinate is in the block's range on its axis. -/
theorem mem_blk (t : Fin cfg2.N) (i : S32768x256.Idx) :
    i ∈ ((cfg2.win 3).blk t).view.set ↔ ∀ a : Fin 2, win2_3.index t a * S4096x256.size a ≤ (i a).val ∧ (i a).val < win2_3.index t a * S4096x256.size a + S4096x256.size a := by
  show i ∈ ((View.whole main_v30).slice (win2_3.rect t)).set ↔ _
  rw [View.set_slice_whole, Rect.mem_set_unit]
  exact Iff.rfl

/-- Every row of the result array lies in the block of the point numbered by its row block. -/
theorem cover (i : S32768x256.Idx) :
    ∃ t : Fin cfg2.N, (cfg2.win 3).flush t = true ∧ i ∈ ((cfg2.win 3).blk t).view.set := by
  have hi0 : (i 0).val < 32768 := (i 0).isLt
  have hi1 : (i 1).val < 256 := (i 1).isLt
  have hN : cfg2.N = 8 := N_2
  refine ⟨⟨(i 0).val / 4096, by rw [hN]; omega⟩, flush2_3 _, ?_⟩
  rw [mem_blk]
  obtain ⟨-, -, -, -, -, -, e0, e1⟩ := idx_facts ⟨(i 0).val / 4096, by rw [hN]; omega⟩
  intro a
  match a with
  | ⟨0, _⟩ =>
    show win2_3.index _ (0 : Fin 2) * 4096 ≤ (i 0).val ∧ (i 0).val < win2_3.index _ (0 : Fin 2) * 4096 + 4096
    rw [e0]
    show (i 0).val / 4096 * 4096 ≤ (i 0).val ∧ (i 0).val < (i 0).val / 4096 * 4096 + 4096
    omega
  | ⟨1, _⟩ =>
    show win2_3.index _ (1 : Fin 2) * 256 ≤ (i 1).val ∧ (i 1).val < win2_3.index _ (1 : Fin 2) * 256 + 256
    rw [e1]
    omega

/-- THE RESULT ARRAY after the region, for any contents `V` the region is entered with. -/
theorem result (c : Dev nD) : (dat2 V c).arrAt 3 cfg2.N = G V c :=
  (dat2 V c).arrAt_eq_of_cover 3 (G V c) (fun t _ => flushed_eq V c t) cover

end Cert.KernelIdeal.Layer2

end
-- ==== Proof.Layer3.lean ====
/-
  Dense layer 3 of the idealized kernel program, read as one function of the arrays its region finds.
  The region walks 8 row blocks of 4096 rows; at block t the body multiplies rows 4096·t … 4096·t + 4095 of the
  [32768, 256] input by the whole [256, 256] weight array, adds the [1, 256] bias row, floors the sum at zero and stores the block;
  the blocks tile the [32768, 256] result, so the result array ends at
  (p, n) ↦ max (∑ k, X (p, k) · Wt (k, n) + r (0, n), 0).
-/
import proofs.«167631_j23278722744485_1_alg».proof.Proof.Gen.KernelIdeal.Frame
import proofs.«167631_j23278722744485_1_alg».proof.Proof.LibAffine
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Layer3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, n) of its block: the block's row p against column n of the weights, plus the
    bias row's entry n, floored at zero. (A change of float format is the identity on the extended reals.) -/
theorem pay_apply (x0 : Vec Ideal S4096x256 .f32) (x1 : Vec Ideal S256x256 .f32) (x2 : Vec Ideal S1x256 .f32)
    (p : Fin 4096) (n : Fin 256) :
    k3_pay1 x0 x1 x2 (ix2 p n)
      = max ((∑ k : Fin 256, x0 (ix2 p k) * x1 (ix2 k n)) + x2 (ix2 (0 : Fin 1) n)) (Ideal.ofBits .f32 0x00000000#32) := by
  unfold k3_pay1
  simp only [shapeCast_self]
  show max (FloatOps.matmul (F := Ideal) dot_S4096x256_S256x256_S4096x256_1_0_0_1_n_n none (truncf .bf16 x0 bitsLt_bf16_f32)
      (truncf .bf16 x1 bitsLt_bf16_f32) (constant S4096x256 .f32 0x00000000#32) (ix2 p n)
    + broadcastTo S4096x256 x2 broadcasts_S1x256_S4096x256 (ix2 p n)) (Ideal.ofBits .f32 0x00000000#32) = _
  rw [Cert.LibDenseEntry.matmul_plain_zero_apply _ rfl rfl rfl rfl rfl rfl, broadcastTo_1b_ab_apply]
  rfl

/-- The printed index maps over the grid: the input's and the result's row block is the point's number, every other
    block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of block t is row 4096·t + p of the array. -/
def rowOf (t : Fin cfg3.N) (p : Fin 4096) : Fin 32768 :=
  ⟨t.val * 4096 + p.val, by have := t.isLt; have hN : cfg3.N = 8 := N_3; have := p.isLt; omega⟩

/-- The input block at point t is rows 4096·t … of the input array. -/
theorem blk0_apply (c : Dev nD) (t : Fin cfg3.N) (p : Fin 4096) (k : Fin 256) :
    (iblk3 V c 0 t : Vec Ideal S4096x256 .f32) (ix2 p k)
      = (V c main_v30 : S32768x256.Idx → Elt Ideal .f32) (ix2 (rowOf t p) k) := by
  obtain ⟨e0, e1, -⟩ := idx_facts t
  unfold iblk3
  rw [View.read_apply]
  show V c main_v30 _ = V c main_v30 _
  refine congrArg (V c main_v30) ?_
  funext a
  apply Fin.ext
  match a with
  | ⟨0, _⟩ => show win3_0.index t 0 * 4096 + 1 * p.val = t.val * 4096 + p.val; rw [e0]; omega
  | ⟨1, _⟩ => show win3_0.index t 1 * 256 + 1 * k.val = k.val; rw [e1]; omega

/-- The weight block at every point is the whole weight array. -/
theorem blk1_apply (c : Dev nD) (t : Fin cfg3.N) (k : Fin 256) (n : Fin 256) :
    (iblk3 V c 1 t : Vec Ideal S256x256 .f32) (ix2 k n)
      = (V c main_v32 : S256x256.Idx → Elt Ideal .f32) (ix2 k n) := by
  obtain ⟨-, -, e0, e1, -⟩ := idx_facts t
  unfold iblk3
  rw [View.read_apply]
  show V c main_v32 _ = V c main_v32 _
  refine congrArg (V c main_v32) ?_
  funext a
  apply Fin.ext
  match a with
  | ⟨0, _⟩ => show win3_1.index t 0 * 256 + 1 * k.val = k.val; rw [e0]; omega
  | ⟨1, _⟩ => show win3_1.index t 1 * 256 + 1 * n.val = n.val; rw [e1]; omega

/-- The bias block at every point is the whole bias row. -/
theorem blk2_apply (c : Dev nD) (t : Fin cfg3.N) (u : Fin 1) (n : Fin 256) :
    (iblk3 V c 2 t : Vec Ideal S1x256 .f32) (ix2 u n)
      = (V c main_v33 : S1x256.Idx → Elt Ideal .f32) (ix2 u n) := by
  obtain ⟨-, -, -, -, e0, e1, -⟩ := idx_facts t
  unfold iblk3
  rw [View.read_apply]
  show V c main_v33 _ = V c main_v33 _
  refine congrArg (V c main_v33) ?_
  funext a
  apply Fin.ext
  match a with
  | ⟨0, _⟩ => show win3_2.index t 0 * 1 + 1 * u.val = u.val; rw [e0]; omega
  | ⟨1, _⟩ => show win3_2.index t 1 * 256 + 1 * n.val = n.val; rw [e1]; omega

/-- Entry (p, n) of the result's block t sits at (4096·t + p, n) of the result array. -/
theorem emb3 (t : Fin cfg3.N) (p : Fin 4096) (n : Fin 256) :
    (((cfg3.win 3).blk t).view.emb (ix2 p n) : S32768x256.Idx) = ix2 (rowOf t p) n := by
  obtain ⟨-, -, -, -, -, -, e0, e1⟩ := idx_facts t
  funext a
  apply Fin.ext
  match a with
  | ⟨0, _⟩ => show win3_3.index t 0 * 4096 + 1 * p.val = t.val * 4096 + p.val; rw [e0]; omega
  | ⟨1, _⟩ => show win3_3.index t 1 * 256 + 1 * n.val = n.val; rw [e1]; omega

/-- What the result array ends holding: the layer of the arrays the region finds. -/
abbrev G (c : Dev nD) : S32768x256.Idx → Elt Ideal .f32 :=
  Cert.LibAffine.rowAffineFloor (Ideal.ofBits .f32 0x00000000#32) (M := 32768) (K := 256) (N := 256) (V c main_v30) (V c main_v32) (V c main_v33)

/-- The value point t stores at an entry of its block is `G` at that entry's place in the array. -/
theorem point_value (c : Dev nD) (t : Fin cfg3.N) (j : S4096x256.Idx) :
    k3_pay1 (iblk3 V c 0 t) (iblk3 V c 1 t) (iblk3 V c 2 t) j = G V c (((cfg3.win 3).blk t).view.emb j) := by
  obtain ⟨p, n, rfl⟩ : ∃ (p : Fin 4096) (n : Fin 256), j = ix2 p n := ⟨j 0, j 1, eq_ix2 j⟩
  refine (pay_apply _ _ _ p n).trans ?_
  rw [emb3 t p n]
  simp only [blk0_apply V c t, blk1_apply V c t, blk2_apply V c t]
  rfl

/-- WHAT POINT t WRITES BACK is block t of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S4096x256) hz, View.ld_unit_zero (S := S256x256) hz, View.ld_unit_zero (S := S1x256) hz]
  funext j
  show k3_pay1 (iblk3 V c 0 t) (iblk3 V c 1 t) (iblk3 V c 2 t) j = G V c (((cfg3.win 3).blk t).view.emb j)
  exact point_value V c t j

/-- An index of the result array is in point t's block iff each coordinate is in the block's range on its axis. -/
theorem mem_blk (t : Fin cfg3.N) (i : S32768x256.Idx) :
    i ∈ ((cfg3.win 3).blk t).view.set ↔ ∀ a : Fin 2, win3_3.index t a * S4096x256.size a ≤ (i a).val ∧ (i a).val < win3_3.index t a * S4096x256.size a + S4096x256.size a := by
  show i ∈ ((View.whole main_v34).slice (win3_3.rect t)).set ↔ _
  rw [View.set_slice_whole, Rect.mem_set_unit]
  exact Iff.rfl

/-- Every row of the result array lies in the block of the point numbered by its row block. -/
theorem cover (i : S32768x256.Idx) :
    ∃ t : Fin cfg3.N, (cfg3.win 3).flush t = true ∧ i ∈ ((cfg3.win 3).blk t).view.set := by
  have hi0 : (i 0).val < 32768 := (i 0).isLt
  have hi1 : (i 1).val < 256 := (i 1).isLt
  have hN : cfg3.N = 8 := N_3
  refine ⟨⟨(i 0).val / 4096, by rw [hN]; omega⟩, flush3_3 _, ?_⟩
  rw [mem_blk]
  obtain ⟨-, -, -, -, -, -, e0, e1⟩ := idx_facts ⟨(i 0).val / 4096, by rw [hN]; omega⟩
  intro a
  match a with
  | ⟨0, _⟩ =>
    show win3_3.index _ (0 : Fin 2) * 4096 ≤ (i 0).val ∧ (i 0).val < win3_3.index _ (0 : Fin 2) * 4096 + 4096
    rw [e0]
    show (i 0).val / 4096 * 4096 ≤ (i 0).val ∧ (i 0).val < (i 0).val / 4096 * 4096 + 4096
    omega
  | ⟨1, _⟩ =>
    show win3_3.index _ (1 : Fin 2) * 256 ≤ (i 1).val ∧ (i 1).val < win3_3.index _ (1 : Fin 2) * 256 + 256
    rw [e1]
    omega

/-- THE RESULT ARRAY after the region, for any contents `V` the region is entered with. -/
theorem result (c : Dev nD) : (dat3 V c).arrAt 3 cfg3.N = G V c :=
  (dat3 V c).arrAt_eq_of_cover 3 (G V c) (fun t _ => flushed_eq V c t) cover

end Cert.KernelIdeal.Layer3

end
-- ==== Proof.ChainB.lean ====
/-
  The idealized kernel program's values, second part: the first convolution's aggregation on the host, its combine
  transform, and the second convolution's node transform — each the reference's stage of the stage before.
-/
import proofs.«167631_j23278722744485_1_alg».proof.Proof.Gen.KernelIdeal.Frame
import proofs.«167631_j23278722744485_1_alg».proof.Proof.LibAffine
import proofs.«167631_j23278722744485_1_alg».proof.Proof.LibConcatPair
import proofs.«167631_j23278722744485_1_alg».proof.Proof.KernelCasts
import proofs.«167631_j23278722744485_1_alg».proof.Proof.Stages
import proofs.«167631_j23278722744485_1_alg».proof.Proof.StageDense
import proofs.«167631_j23278722744485_1_alg».proof.Proof.Layer2
import proofs.«167631_j23278722744485_1_alg».proof.Proof.Layer3
import proofs.«167631_j23278722744485_1_alg».proof.Proof.ChainA
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Chain

open Cert.KernelIdeal Cert.KernelIdeal.Gen Cert.KernelIdeal.Casts

variable (m : (ℓ : Loc nD τ sig) → Buf (Elt Ideal) ℓ) (ρ : Dev nD → PrngReg) (c : Dev nD)

/-- Between the second and third regions the host gathers the node rows along the edges, scales and sums them into
    their destinations, divides by the floored total weights and joins the first projected rows: the reference's
    aggregation stage of the same values. -/
theorem gathered1_value : W7 m ρ c (Proc.devRef .tc main_v27)
    = Cert.Stages.gathered1 (F := Ideal) (W2 m ρ c (Proc.devRef .tc main_v2)) (W4 m ρ c (Proc.devRef .tc main_v6)) (argAt m c main_arg11) (argAt m c main_arg14) (argAt m c main_arg15) := by
  walk_back
  unfold Cert.Stages.gathered1
  refine Cert.LibConcatPair.concat_pair_congr _ _ _ _ ?_ ?_ _ _
  · walk_back
    drop_kernel_transports
    rfl
  · walk_back <;> rfl

/-- After the third region: the first combine transform of the joined aggregate. -/
theorem hidden1_value : W8 m ρ c (Proc.devRef .tc main_v30)
    = Cert.Stages.hidden1 (F := Ideal) (W7 m ρ c (Proc.devRef .tc main_v27)) (argAt m c main_arg5) (argAt m c main_arg6) := by
  refine (W8_arr m ρ c 3).trans ?_
  rw [Cert.KernelIdeal.Layer2.result]
  show Cert.LibAffine.rowAffineFloor _ (V7 m ρ c main_v27) (V7 m ρ c main_v28) (V7 m ρ c main_v29) = _
  have e0 : V7 m ρ c main_v27 = (W7 m ρ c (Proc.devRef .tc main_v27)) := by walk_back
  have e1 : V7 m ρ c main_v28 = transpose S512x256 [1, 0] (argAt m c main_arg5) transposes_S256x512_S512x256_1_0 := by walk_back
  have e2 : V7 m ρ c main_v29 = shapeCast S1x256 (argAt m c main_arg6) shapeCasts_S256_S1x256 := by walk_back <;> rfl
  rw [e0, e1, e2]
  exact Cert.Stages.hidden1_of_row _ _ _ _

/-- After the fourth region: the second node transform of the first convolution's output. -/
theorem nodes2_value : W10 m ρ c (Proc.devRef .tc main_v34)
    = Cert.Stages.nodes2 (F := Ideal) (W8 m ρ c (Proc.devRef .tc main_v30)) (argAt m c main_arg7) (argAt m c main_arg8) := by
  refine (W10_arr m ρ c 3).trans ?_
  rw [Cert.KernelIdeal.Layer3.result]
  show Cert.LibAffine.rowAffineFloor _ (V9 m ρ c main_v30) (V9 m ρ c main_v32) (V9 m ρ c main_v33) = _
  have e0 : V9 m ρ c main_v30 = (W8 m ρ c (Proc.devRef .tc main_v30)) := by walk_back
  have e1 : V9 m ρ c main_v32 = transpose S256x256 [1, 0] (argAt m c main_arg7) transposes_S256x256_S256x256_1_0 := by walk_back
  have e2 : V9 m ρ c main_v33 = shapeCast S1x256 (argAt m c main_arg8) shapeCasts_S256_S1x256 := by walk_back <;> rfl
  rw [e0, e1, e2]
  exact Cert.Stages.nodes2_of_row _ _ _ _

end Cert.KernelIdeal.Chain

end
-- ==== Proof.ChainC.lean ====
/-
  The idealized kernel program's values, last part: the second convolution's aggregation and combine transform, the
  host's skip connection, normalization and margin loss, and the result array as the reference computation of the
  argument arrays.
-/
import proofs.«167631_j23278722744485_1_alg».proof.Proof.Gen.KernelIdeal.Frame
import proofs.«167631_j23278722744485_1_alg».proof.Proof.LibAffine
import proofs.«167631_j23278722744485_1_alg».proof.Proof.LibConcatPair
import proofs.«167631_j23278722744485_1_alg».proof.Proof.KernelCasts
import proofs.«167631_j23278722744485_1_alg».proof.Proof.Stages
import proofs.«167631_j23278722744485_1_alg».proof.Proof.StageDense
import proofs.«167631_j23278722744485_1_alg».proof.Proof.Layer4
import proofs.«167631_j23278722744485_1_alg».proof.Proof.ChainA
import proofs.«167631_j23278722744485_1_alg».proof.Proof.ChainB
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Chain

open Cert.KernelIdeal Cert.KernelIdeal.Gen Cert.KernelIdeal.Casts

variable (m : (ℓ : Loc nD τ sig) → Buf (Elt Ideal) ℓ) (ρ : Dev nD → PrngReg) (c : Dev nD)

/-- Between the fourth and fifth regions the host aggregates along the second set of edges and joins the first rows
    of the first convolution's output: the reference's second aggregation stage. -/
theorem gathered2_value : W13 m ρ c (Proc.devRef .tc main_v55)
    = Cert.Stages.gathered2 (F := Ideal) (W8 m ρ c (Proc.devRef .tc main_v30)) (W10 m ρ c (Proc.devRef .tc main_v34)) (argAt m c main_arg12) (argAt m c main_arg16) (argAt m c main_arg17) := by
  walk_back
  unfold Cert.Stages.gathered2
  refine Cert.LibConcatPair.concat_pair_congr _ _ _ _ ?_ ?_ _ _
  · walk_back
    drop_kernel_transports
    rfl
  · walk_back <;> rfl

/-- After the fifth region: the second combine transform of the joined aggregate. -/
theorem hidden2_value : W14 m ρ c (Proc.devRef .tc main_v58)
    = Cert.Stages.hidden2 (F := Ideal) (W13 m ρ c (Proc.devRef .tc main_v55)) (argAt m c main_arg9) (argAt m c main_arg10) := by
  refine (W14_arr m ρ c 3).trans ?_
  rw [Cert.KernelIdeal.Layer4.result]
  show Cert.LibAffine.rowAffineFloor _ (V13 m ρ c main_v55) (V13 m ρ c main_v56) (V13 m ρ c main_v57) = _
  have e0 : V13 m ρ c main_v55 = (W13 m ρ c (Proc.devRef .tc main_v55)) := by walk_back
  have e1 : V13 m ρ c main_v56 = transpose S512x256 [1, 0] (argAt m c main_arg9) transposes_S256x512_S512x256_1_0 := by walk_back
  have e2 : V13 m ρ c main_v57 = shapeCast S1x256 (argAt m c main_arg10) shapeCasts_S256_S1x256 := by walk_back <;> rfl
  rw [e0, e1, e2]
  exact Cert.Stages.hidden2_of_row _ _ _ _

set_option maxHeartbeats 8000000 in
/-- The host operations after the last region, run from ANY buffer contents: the skip connection, the row
    normalization and the pairs' scores — the reference's last stages of the contents they find. -/
theorem tail_value (V : Valuation τ sig (Elt Ideal)) :
    after hostOps5_5 (after hostOps5_4 (after hostOps5_3 (after hostOps5_2 (after hostOps5_1 (after hostOps5 V))))) (Proc.devRef .tc main_v141)
    = Cert.Stages.margin (F := Ideal) (Cert.Stages.normalized (Cert.Stages.skipped (V (Proc.devRef .tc main_v2)) (V (Proc.devRef .tc main_v58))))
        (Cert.Stages.nodeBias (V (Proc.devRef .tc main_arg13)) (V (Proc.devRef .tc main_arg22))) (V (Proc.devRef .tc main_arg18)) (V (Proc.devRef .tc main_arg19)) (V (Proc.devRef .tc main_arg20)) (V (Proc.devRef .tc main_arg21)) := by
  simp (disch := decide) only [hostOps5, hostOps5_1, hostOps5_2, hostOps5_3, hostOps5_4, hostOps5_5,
      StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']
  drop_kernel_transports
  rfl

/-- The second region reads the projected features through an input window and leaves them as they were. -/
theorem projected_kept : W4 m ρ c (Proc.devRef .tc main_v2) = W2 m ρ c (Proc.devRef .tc main_v2) := by
  refine (W4_arr m ρ c 0).trans ?_
  refine ((dat1 (V3 m ρ) c).arrAt_in 0 rfl _).trans ?_
  refine (A_eq1 (V3 m ρ) c 0).trans ?_
  show V3 m ρ c main_v2 = _
  walk_back

set_option maxHeartbeats 8000000 in
/-- After the last region the host adds the skip connection, normalizes the rows and scores the pairs: the
    reference's last stages of the projected features and the second convolution's output. -/
theorem margin_value : W20 m ρ c (Proc.devRef .tc main_v141)
    = Cert.Stages.margin (F := Ideal) (Cert.Stages.normalized (Cert.Stages.skipped (W2 m ρ c (Proc.devRef .tc main_v2)) (W14 m ρ c (Proc.devRef .tc main_v58))))
        (Cert.Stages.nodeBias (argAt m c main_arg13) (argAt m c main_arg22)) (argAt m c main_arg18) (argAt m c main_arg19) (argAt m c main_arg20) (argAt m c main_arg21) := by
  refine (tail_value (W14 m ρ c)).trans ?_
  have e2 : W14 m ρ c (Proc.devRef .tc main_v2) = W2 m ρ c (Proc.devRef .tc main_v2) := by
    walk_back
    exact projected_kept m ρ c
  have e13 : W14 m ρ c (Proc.devRef .tc main_arg13) = argAt m c main_arg13 := by walk_back
  have e22 : W14 m ρ c (Proc.devRef .tc main_arg22) = argAt m c main_arg22 := by walk_back
  have e18 : W14 m ρ c (Proc.devRef .tc main_arg18) = argAt m c main_arg18 := by walk_back
  have e19 : W14 m ρ c (Proc.devRef .tc main_arg19) = argAt m c main_arg19 := by walk_back
  have e20 : W14 m ρ c (Proc.devRef .tc main_arg20) = argAt m c main_arg20 := by walk_back
  have e21 : W14 m ρ c (Proc.devRef .tc main_arg21) = argAt m c main_arg21 := by walk_back
  rw [e2, e13, e22, e18, e19, e20, e21]

/-- THE RESULT: the kernel program's result array is the reference computation of the argument arrays. -/
theorem result_value : W20 m ρ c (Proc.devRef .tc main_v141)
    = Cert.Stages.composed (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20) (argAt m c main_arg21) (argAt m c main_arg22) := by
  rw [margin_value, hidden2_value, gathered2_value, nodes2_value, hidden1_value, gathered1_value, nodes1_value, projected_value]
  rfl

end Cert.KernelIdeal.Chain

end
-- ==== Proof.RefCasts.lean ====
/-
  The idealized reference program's inlined-call buffers.
  A buffer of a function inlined at its call site is typed through its reference; reading or writing it at the
  value's own type is the identity, buffer by buffer.
-/
import proofs.«167631_j23278722744485_1_alg».proof.Proof.Gen.ReferenceIdeal
import Idealize.ShloMosaic.Lib.StableHlo

noncomputable section

namespace Cert.ReferenceIdeal.Casts

open Cert.ReferenceIdeal Idealize.ShloMosaic Idealize.ShloMosaic.StableHlo

variable {Val : EltTy → Type}

theorem toBuf_main_call0_cst (X : (⟨S_, .f32⟩ : BufTy).Contents Val) :
    (TRef.of main_call0_cst : TRef sig ⟨S_, .f32⟩).toBuf X = X := rfl
theorem ofBuf_main_call0_cst (X : (⟨S_, .f32⟩ : BufTy).Contents Val) :
    (TRef.of main_call0_cst : TRef sig ⟨S_, .f32⟩).ofBuf X = X := rfl
theorem toBuf_main_call0_v0 (X : (⟨S131072x256, .f32⟩ : BufTy).Contents Val) :
    (TRef.of main_call0_v0 : TRef sig ⟨S131072x256, .f32⟩).toBuf X = X := rfl
theorem ofBuf_main_call0_v0 (X : (⟨S131072x256, .f32⟩ : BufTy).Contents Val) :
    (TRef.of main_call0_v0 : TRef sig ⟨S131072x256, .f32⟩).ofBuf X = X := rfl
theorem toBuf_main_v10 (X : (⟨S131072x256, .f32⟩ : BufTy).Contents Val) :
    (TRef.of main_v10 : TRef sig ⟨S131072x256, .f32⟩).toBuf X = X := rfl
theorem ofBuf_main_v10 (X : (⟨S131072x256, .f32⟩ : BufTy).Contents Val) :
    (TRef.of main_v10 : TRef sig ⟨S131072x256, .f32⟩).ofBuf X = X := rfl
theorem toBuf_main_v11 (X : (⟨S131072x256, .f32⟩ : BufTy).Contents Val) :
    (TRef.of main_v11 : TRef sig ⟨S131072x256, .f32⟩).toBuf X = X := rfl
theorem ofBuf_main_v11 (X : (⟨S131072x256, .f32⟩ : BufTy).Contents Val) :
    (TRef.of main_v11 : TRef sig ⟨S131072x256, .f32⟩).ofBuf X = X := rfl
theorem toBuf_main_cst_2 (X : (⟨S_, .f32⟩ : BufTy).Contents Val) :
    (TRef.of main_cst_2 : TRef sig ⟨S_, .f32⟩).toBuf X = X := rfl
theorem ofBuf_main_cst_2 (X : (⟨S_, .f32⟩ : BufTy).Contents Val) :
    (TRef.of main_cst_2 : TRef sig ⟨S_, .f32⟩).ofBuf X = X := rfl
theorem toBuf_main_call1_v0 (X : (⟨S_, .f32⟩ : BufTy).Contents Val) :
    (TRef.of main_call1_v0 : TRef sig ⟨S_, .f32⟩).toBuf X = X := rfl
theorem ofBuf_main_call1_v0 (X : (⟨S_, .f32⟩ : BufTy).Contents Val) :
    (TRef.of main_call1_v0 : TRef sig ⟨S_, .f32⟩).ofBuf X = X := rfl
theorem toBuf_main_call1_v1 (X : (⟨S32768, .f32⟩ : BufTy).Contents Val) :
    (TRef.of main_call1_v1 : TRef sig ⟨S32768, .f32⟩).toBuf X = X := rfl
theorem ofBuf_main_call1_v1 (X : (⟨S32768, .f32⟩ : BufTy).Contents Val) :
    (TRef.of main_call1_v1 : TRef sig ⟨S32768, .f32⟩).ofBuf X = X := rfl
theorem toBuf_main_v27 (X : (⟨S32768, .f32⟩ : BufTy).Contents Val) :
    (TRef.of main_v27 : TRef sig ⟨S32768, .f32⟩).toBuf X = X := rfl
theorem ofBuf_main_v27 (X : (⟨S32768, .f32⟩ : BufTy).Contents Val) :
    (TRef.of main_v27 : TRef sig ⟨S32768, .f32⟩).ofBuf X = X := rfl
theorem toBuf_main_v28 (X : (⟨S32768, .f32⟩ : BufTy).Contents Val) :
    (TRef.of main_v28 : TRef sig ⟨S32768, .f32⟩).toBuf X = X := rfl
theorem ofBuf_main_v28 (X : (⟨S32768, .f32⟩ : BufTy).Contents Val) :
    (TRef.of main_v28 : TRef sig ⟨S32768, .f32⟩).ofBuf X = X := rfl
theorem toBuf_main_call2_cst (X : (⟨S_, .f32⟩ : BufTy).Contents Val) :
    (TRef.of main_call2_cst : TRef sig ⟨S_, .f32⟩).toBuf X = X := rfl
theorem ofBuf_main_call2_cst (X : (⟨S_, .f32⟩ : BufTy).Contents Val) :
    (TRef.of main_call2_cst : TRef sig ⟨S_, .f32⟩).ofBuf X = X := rfl
theorem toBuf_main_call2_v0 (X : (⟨S32768x256, .f32⟩ : BufTy).Contents Val) :
    (TRef.of main_call2_v0 : TRef sig ⟨S32768x256, .f32⟩).toBuf X = X := rfl
theorem ofBuf_main_call2_v0 (X : (⟨S32768x256, .f32⟩ : BufTy).Contents Val) :
    (TRef.of main_call2_v0 : TRef sig ⟨S32768x256, .f32⟩).ofBuf X = X := rfl
theorem toBuf_main_v37 (X : (⟨S32768x256, .f32⟩ : BufTy).Contents Val) :
    (TRef.of main_v37 : TRef sig ⟨S32768x256, .f32⟩).toBuf X = X := rfl
theorem ofBuf_main_v37 (X : (⟨S32768x256, .f32⟩ : BufTy).Contents Val) :
    (TRef.of main_v37 : TRef sig ⟨S32768x256, .f32⟩).ofBuf X = X := rfl
theorem toBuf_main_v38 (X : (⟨S32768x256, .f32⟩ : BufTy).Contents Val) :
    (TRef.of main_v38 : TRef sig ⟨S32768x256, .f32⟩).toBuf X = X := rfl
theorem ofBuf_main_v38 (X : (⟨S32768x256, .f32⟩ : BufTy).Contents Val) :
    (TRef.of main_v38 : TRef sig ⟨S32768x256, .f32⟩).ofBuf X = X := rfl
theorem toBuf_main_call3_cst (X : (⟨S_, .f32⟩ : BufTy).Contents Val) :
    (TRef.of main_call3_cst : TRef sig ⟨S_, .f32⟩).toBuf X = X := rfl
theorem ofBuf_main_call3_cst (X : (⟨S_, .f32⟩ : BufTy).Contents Val) :
    (TRef.of main_call3_cst : TRef sig ⟨S_, .f32⟩).ofBuf X = X := rfl
theorem toBuf_main_call3_v0 (X : (⟨S32768x256, .f32⟩ : BufTy).Contents Val) :
    (TRef.of main_call3_v0 : TRef sig ⟨S32768x256, .f32⟩).toBuf X = X := rfl
theorem ofBuf_main_call3_v0 (X : (⟨S32768x256, .f32⟩ : BufTy).Contents Val) :
    (TRef.of main_call3_v0 : TRef sig ⟨S32768x256, .f32⟩).ofBuf X = X := rfl
theorem toBuf_main_v44 (X : (⟨S32768x256, .f32⟩ : BufTy).Contents Val) :
    (TRef.of main_v44 : TRef sig ⟨S32768x256, .f32⟩).toBuf X = X := rfl
theorem ofBuf_main_v44 (X : (⟨S32768x256, .f32⟩ : BufTy).Contents Val) :
    (TRef.of main_v44 : TRef sig ⟨S32768x256, .f32⟩).ofBuf X = X := rfl
theorem toBuf_main_v45 (X : (⟨S32768x256, .f32⟩ : BufTy).Contents Val) :
    (TRef.of main_v45 : TRef sig ⟨S32768x256, .f32⟩).toBuf X = X := rfl
theorem ofBuf_main_v45 (X : (⟨S32768x256, .f32⟩ : BufTy).Contents Val) :
    (TRef.of main_v45 : TRef sig ⟨S32768x256, .f32⟩).ofBuf X = X := rfl
theorem toBuf_main_cst_7 (X : (⟨S_, .f32⟩ : BufTy).Contents Val) :
    (TRef.of main_cst_7 : TRef sig ⟨S_, .f32⟩).toBuf X = X := rfl
theorem ofBuf_main_cst_7 (X : (⟨S_, .f32⟩ : BufTy).Contents Val) :
    (TRef.of main_cst_7 : TRef sig ⟨S_, .f32⟩).ofBuf X = X := rfl
theorem toBuf_main_call4_v0 (X : (⟨S_, .f32⟩ : BufTy).Contents Val) :
    (TRef.of main_call4_v0 : TRef sig ⟨S_, .f32⟩).toBuf X = X := rfl
theorem ofBuf_main_call4_v0 (X : (⟨S_, .f32⟩ : BufTy).Contents Val) :
    (TRef.of main_call4_v0 : TRef sig ⟨S_, .f32⟩).ofBuf X = X := rfl
theorem toBuf_main_call4_v1 (X : (⟨S8192, .f32⟩ : BufTy).Contents Val) :
    (TRef.of main_call4_v1 : TRef sig ⟨S8192, .f32⟩).toBuf X = X := rfl
theorem ofBuf_main_call4_v1 (X : (⟨S8192, .f32⟩ : BufTy).Contents Val) :
    (TRef.of main_call4_v1 : TRef sig ⟨S8192, .f32⟩).ofBuf X = X := rfl
theorem toBuf_main_v61 (X : (⟨S8192, .f32⟩ : BufTy).Contents Val) :
    (TRef.of main_v61 : TRef sig ⟨S8192, .f32⟩).toBuf X = X := rfl
theorem ofBuf_main_v61 (X : (⟨S8192, .f32⟩ : BufTy).Contents Val) :
    (TRef.of main_v61 : TRef sig ⟨S8192, .f32⟩).ofBuf X = X := rfl
theorem toBuf_main_v62 (X : (⟨S8192, .f32⟩ : BufTy).Contents Val) :
    (TRef.of main_v62 : TRef sig ⟨S8192, .f32⟩).toBuf X = X := rfl
theorem ofBuf_main_v62 (X : (⟨S8192, .f32⟩ : BufTy).Contents Val) :
    (TRef.of main_v62 : TRef sig ⟨S8192, .f32⟩).ofBuf X = X := rfl
theorem toBuf_main_call5_cst (X : (⟨S_, .f32⟩ : BufTy).Contents Val) :
    (TRef.of main_call5_cst : TRef sig ⟨S_, .f32⟩).toBuf X = X := rfl
theorem ofBuf_main_call5_cst (X : (⟨S_, .f32⟩ : BufTy).Contents Val) :
    (TRef.of main_call5_cst : TRef sig ⟨S_, .f32⟩).ofBuf X = X := rfl
theorem toBuf_main_call5_v0 (X : (⟨S8192x256, .f32⟩ : BufTy).Contents Val) :
    (TRef.of main_call5_v0 : TRef sig ⟨S8192x256, .f32⟩).toBuf X = X := rfl
theorem ofBuf_main_call5_v0 (X : (⟨S8192x256, .f32⟩ : BufTy).Contents Val) :
    (TRef.of main_call5_v0 : TRef sig ⟨S8192x256, .f32⟩).ofBuf X = X := rfl
theorem toBuf_main_v71 (X : (⟨S8192x256, .f32⟩ : BufTy).Contents Val) :
    (TRef.of main_v71 : TRef sig ⟨S8192x256, .f32⟩).toBuf X = X := rfl
theorem ofBuf_main_v71 (X : (⟨S8192x256, .f32⟩ : BufTy).Contents Val) :
    (TRef.of main_v71 : TRef sig ⟨S8192x256, .f32⟩).ofBuf X = X := rfl
theorem toBuf_main_v72 (X : (⟨S8192x256, .f32⟩ : BufTy).Contents Val) :
    (TRef.of main_v72 : TRef sig ⟨S8192x256, .f32⟩).toBuf X = X := rfl
theorem ofBuf_main_v72 (X : (⟨S8192x256, .f32⟩ : BufTy).Contents Val) :
    (TRef.of main_v72 : TRef sig ⟨S8192x256, .f32⟩).ofBuf X = X := rfl
theorem toBuf_main_v74 (X : (⟨S8192x256, .f32⟩ : BufTy).Contents Val) :
    (TRef.of main_v74 : TRef sig ⟨S8192x256, .f32⟩).toBuf X = X := rfl
theorem ofBuf_main_v74 (X : (⟨S8192x256, .f32⟩ : BufTy).Contents Val) :
    (TRef.of main_v74 : TRef sig ⟨S8192x256, .f32⟩).ofBuf X = X := rfl
theorem toBuf_main_call6_v0 (X : (⟨S8192x256, .f32⟩ : BufTy).Contents Val) :
    (TRef.of main_call6_v0 : TRef sig ⟨S8192x256, .f32⟩).toBuf X = X := rfl
theorem ofBuf_main_call6_v0 (X : (⟨S8192x256, .f32⟩ : BufTy).Contents Val) :
    (TRef.of main_call6_v0 : TRef sig ⟨S8192x256, .f32⟩).ofBuf X = X := rfl
theorem toBuf_main_call6_cst (X : (⟨S_, .f32⟩ : BufTy).Contents Val) :
    (TRef.of main_call6_cst : TRef sig ⟨S_, .f32⟩).toBuf X = X := rfl
theorem ofBuf_main_call6_cst (X : (⟨S_, .f32⟩ : BufTy).Contents Val) :
    (TRef.of main_call6_cst : TRef sig ⟨S_, .f32⟩).ofBuf X = X := rfl
theorem toBuf_main_call6_v1 (X : (⟨S8192, .f32⟩ : BufTy).Contents Val) :
    (TRef.of main_call6_v1 : TRef sig ⟨S8192, .f32⟩).toBuf X = X := rfl
theorem ofBuf_main_call6_v1 (X : (⟨S8192, .f32⟩ : BufTy).Contents Val) :
    (TRef.of main_call6_v1 : TRef sig ⟨S8192, .f32⟩).ofBuf X = X := rfl
theorem toBuf_main_call6_v2 (X : (⟨S8192x1, .f32⟩ : BufTy).Contents Val) :
    (TRef.of main_call6_v2 : TRef sig ⟨S8192x1, .f32⟩).toBuf X = X := rfl
theorem ofBuf_main_call6_v2 (X : (⟨S8192x1, .f32⟩ : BufTy).Contents Val) :
    (TRef.of main_call6_v2 : TRef sig ⟨S8192x1, .f32⟩).ofBuf X = X := rfl
theorem toBuf_main_v75 (X : (⟨S8192x1, .f32⟩ : BufTy).Contents Val) :
    (TRef.of main_v75 : TRef sig ⟨S8192x1, .f32⟩).toBuf X = X := rfl
theorem ofBuf_main_v75 (X : (⟨S8192x1, .f32⟩ : BufTy).Contents Val) :
    (TRef.of main_v75 : TRef sig ⟨S8192x1, .f32⟩).ofBuf X = X := rfl
theorem toBuf_main_cst_9 (X : (⟨S_, .f32⟩ : BufTy).Contents Val) :
    (TRef.of main_cst_9 : TRef sig ⟨S_, .f32⟩).toBuf X = X := rfl
theorem ofBuf_main_cst_9 (X : (⟨S_, .f32⟩ : BufTy).Contents Val) :
    (TRef.of main_cst_9 : TRef sig ⟨S_, .f32⟩).ofBuf X = X := rfl
theorem toBuf_main_call7_v0 (X : (⟨S_, .f32⟩ : BufTy).Contents Val) :
    (TRef.of main_call7_v0 : TRef sig ⟨S_, .f32⟩).toBuf X = X := rfl
theorem ofBuf_main_call7_v0 (X : (⟨S_, .f32⟩ : BufTy).Contents Val) :
    (TRef.of main_call7_v0 : TRef sig ⟨S_, .f32⟩).ofBuf X = X := rfl
theorem toBuf_main_call7_v1 (X : (⟨S8192x1, .f32⟩ : BufTy).Contents Val) :
    (TRef.of main_call7_v1 : TRef sig ⟨S8192x1, .f32⟩).toBuf X = X := rfl
theorem ofBuf_main_call7_v1 (X : (⟨S8192x1, .f32⟩ : BufTy).Contents Val) :
    (TRef.of main_call7_v1 : TRef sig ⟨S8192x1, .f32⟩).ofBuf X = X := rfl
theorem toBuf_main_v77 (X : (⟨S8192x1, .i1⟩ : BufTy).Contents Val) :
    (TRef.of main_v77 : TRef sig ⟨S8192x1, .i1⟩).toBuf X = X := rfl
theorem ofBuf_main_v77 (X : (⟨S8192x1, .i1⟩ : BufTy).Contents Val) :
    (TRef.of main_v77 : TRef sig ⟨S8192x1, .i1⟩).ofBuf X = X := rfl
theorem toBuf_main_v78 (X : (⟨S8192x1, .f32⟩ : BufTy).Contents Val) :
    (TRef.of main_v78 : TRef sig ⟨S8192x1, .f32⟩).toBuf X = X := rfl
theorem ofBuf_main_v78 (X : (⟨S8192x1, .f32⟩ : BufTy).Contents Val) :
    (TRef.of main_v78 : TRef sig ⟨S8192x1, .f32⟩).ofBuf X = X := rfl
theorem toBuf_main_cst_31 (X : (⟨S_, .f32⟩ : BufTy).Contents Val) :
    (TRef.of main_cst_31 : TRef sig ⟨S_, .f32⟩).toBuf X = X := rfl
theorem ofBuf_main_cst_31 (X : (⟨S_, .f32⟩ : BufTy).Contents Val) :
    (TRef.of main_cst_31 : TRef sig ⟨S_, .f32⟩).ofBuf X = X := rfl
theorem toBuf_main_call8_v0 (X : (⟨S_, .f32⟩ : BufTy).Contents Val) :
    (TRef.of main_call8_v0 : TRef sig ⟨S_, .f32⟩).toBuf X = X := rfl
theorem ofBuf_main_call8_v0 (X : (⟨S_, .f32⟩ : BufTy).Contents Val) :
    (TRef.of main_call8_v0 : TRef sig ⟨S_, .f32⟩).ofBuf X = X := rfl
theorem toBuf_main_call8_v1 (X : (⟨S8192, .f32⟩ : BufTy).Contents Val) :
    (TRef.of main_call8_v1 : TRef sig ⟨S8192, .f32⟩).toBuf X = X := rfl
theorem ofBuf_main_call8_v1 (X : (⟨S8192, .f32⟩ : BufTy).Contents Val) :
    (TRef.of main_call8_v1 : TRef sig ⟨S8192, .f32⟩).ofBuf X = X := rfl
theorem toBuf_main_v154 (X : (⟨S8192, .f32⟩ : BufTy).Contents Val) :
    (TRef.of main_v154 : TRef sig ⟨S8192, .f32⟩).toBuf X = X := rfl
theorem ofBuf_main_v154 (X : (⟨S8192, .f32⟩ : BufTy).Contents Val) :
    (TRef.of main_v154 : TRef sig ⟨S8192, .f32⟩).ofBuf X = X := rfl
theorem toBuf_main_v155 (X : (⟨S8192, .f32⟩ : BufTy).Contents Val) :
    (TRef.of main_v155 : TRef sig ⟨S8192, .f32⟩).toBuf X = X := rfl
theorem ofBuf_main_v155 (X : (⟨S8192, .f32⟩ : BufTy).Contents Val) :
    (TRef.of main_v155 : TRef sig ⟨S8192, .f32⟩).ofBuf X = X := rfl

/-- Drops every such identity transport from the goal. -/
macro "drop_reference_transports" : tactic =>
  `(tactic| simp only [Cert.ReferenceIdeal.Casts.toBuf_main_call0_cst, Cert.ReferenceIdeal.Casts.ofBuf_main_call0_cst, Cert.ReferenceIdeal.Casts.toBuf_main_call0_v0, Cert.ReferenceIdeal.Casts.ofBuf_main_call0_v0, Cert.ReferenceIdeal.Casts.toBuf_main_v10, Cert.ReferenceIdeal.Casts.ofBuf_main_v10, Cert.ReferenceIdeal.Casts.toBuf_main_v11, Cert.ReferenceIdeal.Casts.ofBuf_main_v11, Cert.ReferenceIdeal.Casts.toBuf_main_cst_2, Cert.ReferenceIdeal.Casts.ofBuf_main_cst_2, Cert.ReferenceIdeal.Casts.toBuf_main_call1_v0, Cert.ReferenceIdeal.Casts.ofBuf_main_call1_v0, Cert.ReferenceIdeal.Casts.toBuf_main_call1_v1, Cert.ReferenceIdeal.Casts.ofBuf_main_call1_v1, Cert.ReferenceIdeal.Casts.toBuf_main_v27, Cert.ReferenceIdeal.Casts.ofBuf_main_v27, Cert.ReferenceIdeal.Casts.toBuf_main_v28, Cert.ReferenceIdeal.Casts.ofBuf_main_v28, Cert.ReferenceIdeal.Casts.toBuf_main_call2_cst, Cert.ReferenceIdeal.Casts.ofBuf_main_call2_cst, Cert.ReferenceIdeal.Casts.toBuf_main_call2_v0, Cert.ReferenceIdeal.Casts.ofBuf_main_call2_v0, Cert.ReferenceIdeal.Casts.toBuf_main_v37, Cert.ReferenceIdeal.Casts.ofBuf_main_v37, Cert.ReferenceIdeal.Casts.toBuf_main_v38, Cert.ReferenceIdeal.Casts.ofBuf_main_v38, Cert.ReferenceIdeal.Casts.toBuf_main_call3_cst, Cert.ReferenceIdeal.Casts.ofBuf_main_call3_cst, Cert.ReferenceIdeal.Casts.toBuf_main_call3_v0, Cert.ReferenceIdeal.Casts.ofBuf_main_call3_v0, Cert.ReferenceIdeal.Casts.toBuf_main_v44, Cert.ReferenceIdeal.Casts.ofBuf_main_v44, Cert.ReferenceIdeal.Casts.toBuf_main_v45, Cert.ReferenceIdeal.Casts.ofBuf_main_v45, Cert.ReferenceIdeal.Casts.toBuf_main_cst_7, Cert.ReferenceIdeal.Casts.ofBuf_main_cst_7, Cert.ReferenceIdeal.Casts.toBuf_main_call4_v0, Cert.ReferenceIdeal.Casts.ofBuf_main_call4_v0, Cert.ReferenceIdeal.Casts.toBuf_main_call4_v1, Cert.ReferenceIdeal.Casts.ofBuf_main_call4_v1, Cert.ReferenceIdeal.Casts.toBuf_main_v61, Cert.ReferenceIdeal.Casts.ofBuf_main_v61, Cert.ReferenceIdeal.Casts.toBuf_main_v62, Cert.ReferenceIdeal.Casts.ofBuf_main_v62, Cert.ReferenceIdeal.Casts.toBuf_main_call5_cst, Cert.ReferenceIdeal.Casts.ofBuf_main_call5_cst, Cert.ReferenceIdeal.Casts.toBuf_main_call5_v0, Cert.ReferenceIdeal.Casts.ofBuf_main_call5_v0, Cert.ReferenceIdeal.Casts.toBuf_main_v71, Cert.ReferenceIdeal.Casts.ofBuf_main_v71, Cert.ReferenceIdeal.Casts.toBuf_main_v72, Cert.ReferenceIdeal.Casts.ofBuf_main_v72, Cert.ReferenceIdeal.Casts.toBuf_main_v74, Cert.ReferenceIdeal.Casts.ofBuf_main_v74, Cert.ReferenceIdeal.Casts.toBuf_main_call6_v0, Cert.ReferenceIdeal.Casts.ofBuf_main_call6_v0, Cert.ReferenceIdeal.Casts.toBuf_main_call6_cst, Cert.ReferenceIdeal.Casts.ofBuf_main_call6_cst, Cert.ReferenceIdeal.Casts.toBuf_main_call6_v1, Cert.ReferenceIdeal.Casts.ofBuf_main_call6_v1, Cert.ReferenceIdeal.Casts.toBuf_main_call6_v2, Cert.ReferenceIdeal.Casts.ofBuf_main_call6_v2, Cert.ReferenceIdeal.Casts.toBuf_main_v75, Cert.ReferenceIdeal.Casts.ofBuf_main_v75, Cert.ReferenceIdeal.Casts.toBuf_main_cst_9, Cert.ReferenceIdeal.Casts.ofBuf_main_cst_9, Cert.ReferenceIdeal.Casts.toBuf_main_call7_v0, Cert.ReferenceIdeal.Casts.ofBuf_main_call7_v0, Cert.ReferenceIdeal.Casts.toBuf_main_call7_v1, Cert.ReferenceIdeal.Casts.ofBuf_main_call7_v1, Cert.ReferenceIdeal.Casts.toBuf_main_v77, Cert.ReferenceIdeal.Casts.ofBuf_main_v77, Cert.ReferenceIdeal.Casts.toBuf_main_v78, Cert.ReferenceIdeal.Casts.ofBuf_main_v78, Cert.ReferenceIdeal.Casts.toBuf_main_cst_31, Cert.ReferenceIdeal.Casts.ofBuf_main_cst_31, Cert.ReferenceIdeal.Casts.toBuf_main_call8_v0, Cert.ReferenceIdeal.Casts.ofBuf_main_call8_v0, Cert.ReferenceIdeal.Casts.toBuf_main_call8_v1, Cert.ReferenceIdeal.Casts.ofBuf_main_call8_v1, Cert.ReferenceIdeal.Casts.toBuf_main_v154, Cert.ReferenceIdeal.Casts.ofBuf_main_v154, Cert.ReferenceIdeal.Casts.toBuf_main_v155, Cert.ReferenceIdeal.Casts.ofBuf_main_v155])

end Cert.ReferenceIdeal.Casts

end
-- ==== Proof.StagesAgg.lean ====
/-
  The two edge aggregations of the reference computation, each a function of the node transform before it and of the
  edge arrays: the node rows gathered along the edges, scaled by the edge weights, summed into their destination
  rows, and divided by the destinations' total weight floored at one.
-/
import proofs.«167631_j23278722744485_1_alg».proof.Proof.Gen.ReferenceIdeal

noncomputable section

namespace Cert.Stages

open Cert.ReferenceIdeal Cert.ReferenceIdeal.Gen Idealize.ShloMosaic

variable {F : FTy → Type} [FloatOps F]

/-- The first convolution's aggregate. -/
def aggregated1 (n : (⟨S131072x256, .f32⟩ : BufTy).Contents (Elt F)) (x11 : (⟨S524288, .f32⟩ : BufTy).Contents (Elt F)) (x14 : (⟨S524288, .i32⟩ : BufTy).Contents (Elt F)) (x15 : (⟨S524288, .i32⟩ : BufTy).Contents (Elt F)) :
    (⟨S32768x256, .f32⟩ : BufTy).Contents (Elt F) :=
  Host.divf (Host.scatterAdd scatter_S32768x256_S524288x1_S524288x256_1_0_0_1 (broadcastInDim S32768x256 ![] bcast_S_S32768x256 (constant S_ .f32 0x00000000#32 : (⟨S_, .f32⟩ : BufTy).Contents (Elt F)) : (⟨S32768x256, .f32⟩ : BufTy).Contents (Elt F)) (broadcastInDim S524288x1 ![0] bcast_S524288_S524288x1_0 (x15) : (⟨S524288x1, .i32⟩ : BufTy).Contents (Elt F)) (mulf (Host.gather gather_S131072x256_S524288x1_S524288x256_1_0_n_n_0_1_1256 n (broadcastInDim S524288x1 ![0] bcast_S524288_S524288x1_0 (select (cmpi .slt (x14) (broadcastInDim S524288 ![] bcast_S_S524288 (constantI S_ 32 0#32 : (⟨S_, .i32⟩ : BufTy).Contents (Elt F)) : (⟨S524288, .i32⟩ : BufTy).Contents (Elt F)) : (⟨S524288, .i1⟩ : BufTy).Contents (Elt F)) (addi (x14) (broadcastInDim S524288 ![] bcast_S_S524288 (constantI S_ 32 131072#32 : (⟨S_, .i32⟩ : BufTy).Contents (Elt F)) : (⟨S524288, .i32⟩ : BufTy).Contents (Elt F)) : (⟨S524288, .i32⟩ : BufTy).Contents (Elt F)) (x14) : (⟨S524288, .i32⟩ : BufTy).Contents (Elt F)) : (⟨S524288x1, .i32⟩ : BufTy).Contents (Elt F)) : (⟨S524288x256, .f32⟩ : BufTy).Contents (Elt F)) (broadcastInDim S524288x256 ![0, 1] bcast_S524288x1_S524288x256_0_1 (broadcastInDim S524288x1 ![0] bcast_S524288_S524288x1_0 (x11) : (⟨S524288x1, .f32⟩ : BufTy).Contents (Elt F)) : (⟨S524288x256, .f32⟩ : BufTy).Contents (Elt F)) : (⟨S524288x256, .f32⟩ : BufTy).Contents (Elt F)) : (⟨S32768x256, .f32⟩ : BufTy).Contents (Elt F)) (broadcastInDim S32768x256 ![0, 1] bcast_S32768x1_S32768x256_0_1 (broadcastInDim S32768x1 ![0] bcast_S32768_S32768x1_0 (maximumf (broadcastInDim S32768 ![] bcast_S_S32768 (id (constant S_ .f32 0x3F800000#32 : (⟨S_, .f32⟩ : BufTy).Contents (Elt F)) : (⟨S_, .f32⟩ : BufTy).Contents (Elt F)) : (⟨S32768, .f32⟩ : BufTy).Contents (Elt F)) (Host.scatterAdd scatter_S32768_S524288x1_S524288_n_0_0_1 (broadcastInDim S32768 ![] bcast_S_S32768 (constant S_ .f32 0x00000000#32 : (⟨S_, .f32⟩ : BufTy).Contents (Elt F)) : (⟨S32768, .f32⟩ : BufTy).Contents (Elt F)) (broadcastInDim S524288x1 ![0] bcast_S524288_S524288x1_0 (x15) : (⟨S524288x1, .i32⟩ : BufTy).Contents (Elt F)) (x11) : (⟨S32768, .f32⟩ : BufTy).Contents (Elt F)) : (⟨S32768, .f32⟩ : BufTy).Contents (Elt F)) : (⟨S32768x1, .f32⟩ : BufTy).Contents (Elt F)) : (⟨S32768x256, .f32⟩ : BufTy).Contents (Elt F))

/-- The second convolution's aggregate. -/
def aggregated2 (n : (⟨S32768x256, .f32⟩ : BufTy).Contents (Elt F)) (x12 : (⟨S131072, .f32⟩ : BufTy).Contents (Elt F)) (x16 : (⟨S131072, .i32⟩ : BufTy).Contents (Elt F)) (x17 : (⟨S131072, .i32⟩ : BufTy).Contents (Elt F)) :
    (⟨S8192x256, .f32⟩ : BufTy).Contents (Elt F) :=
  Host.divf (Host.scatterAdd scatter_S8192x256_S131072x1_S131072x256_1_0_0_1 (broadcastInDim S8192x256 ![] bcast_S_S8192x256 (constant S_ .f32 0x00000000#32 : (⟨S_, .f32⟩ : BufTy).Contents (Elt F)) : (⟨S8192x256, .f32⟩ : BufTy).Contents (Elt F)) (broadcastInDim S131072x1 ![0] bcast_S131072_S131072x1_0 (x17) : (⟨S131072x1, .i32⟩ : BufTy).Contents (Elt F)) (mulf (Host.gather gather_S32768x256_S131072x1_S131072x256_1_0_n_n_0_1_1256 n (broadcastInDim S131072x1 ![0] bcast_S131072_S131072x1_0 (select (cmpi .slt (x16) (broadcastInDim S131072 ![] bcast_S_S131072 (constantI S_ 32 0#32 : (⟨S_, .i32⟩ : BufTy).Contents (Elt F)) : (⟨S131072, .i32⟩ : BufTy).Contents (Elt F)) : (⟨S131072, .i1⟩ : BufTy).Contents (Elt F)) (addi (x16) (broadcastInDim S131072 ![] bcast_S_S131072 (constantI S_ 32 32768#32 : (⟨S_, .i32⟩ : BufTy).Contents (Elt F)) : (⟨S131072, .i32⟩ : BufTy).Contents (Elt F)) : (⟨S131072, .i32⟩ : BufTy).Contents (Elt F)) (x16) : (⟨S131072, .i32⟩ : BufTy).Contents (Elt F)) : (⟨S131072x1, .i32⟩ : BufTy).Contents (Elt F)) : (⟨S131072x256, .f32⟩ : BufTy).Contents (Elt F)) (broadcastInDim S131072x256 ![0, 1] bcast_S131072x1_S131072x256_0_1 (broadcastInDim S131072x1 ![0] bcast_S131072_S131072x1_0 (x12) : (⟨S131072x1, .f32⟩ : BufTy).Contents (Elt F)) : (⟨S131072x256, .f32⟩ : BufTy).Contents (Elt F)) : (⟨S131072x256, .f32⟩ : BufTy).Contents (Elt F)) : (⟨S8192x256, .f32⟩ : BufTy).Contents (Elt F)) (broadcastInDim S8192x256 ![0, 1] bcast_S8192x1_S8192x256_0_1 (broadcastInDim S8192x1 ![0] bcast_S8192_S8192x1_0 (maximumf (broadcastInDim S8192 ![] bcast_S_S8192 (id (constant S_ .f32 0x3F800000#32 : (⟨S_, .f32⟩ : BufTy).Contents (Elt F)) : (⟨S_, .f32⟩ : BufTy).Contents (Elt F)) : (⟨S8192, .f32⟩ : BufTy).Contents (Elt F)) (Host.scatterAdd scatter_S8192_S131072x1_S131072_n_0_0_1 (broadcastInDim S8192 ![] bcast_S_S8192 (constant S_ .f32 0x00000000#32 : (⟨S_, .f32⟩ : BufTy).Contents (Elt F)) : (⟨S8192, .f32⟩ : BufTy).Contents (Elt F)) (broadcastInDim S131072x1 ![0] bcast_S131072_S131072x1_0 (x17) : (⟨S131072x1, .i32⟩ : BufTy).Contents (Elt F)) (x12) : (⟨S8192, .f32⟩ : BufTy).Contents (Elt F)) : (⟨S8192, .f32⟩ : BufTy).Contents (Elt F)) : (⟨S8192x1, .f32⟩ : BufTy).Contents (Elt F)) : (⟨S8192x256, .f32⟩ : BufTy).Contents (Elt F))

end Cert.Stages

end
-- ==== Proof.LibJoinTwo.lean ====
/-
  A concatenation of two pieces along an axis, written as a function of the two pieces (rather than of a list of
  (shape, piece) pairs), so that each piece can be rewritten in place.
-/
import Idealize.ShloMosaic.PureOps.Ideal

noncomputable section

namespace Cert.LibJoinTwo

open Idealize.ShloMosaic

/-- The two pieces `x`, `y` joined along axis `a` of the result shape `t`. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- It is the concatenation of the list of the two pieces. -/
theorem join2_eq {α : Type} (t : Shape) (a : Fin t.rank) (s₁ s₂ : Shape) (h : Shape.Concatenates [s₁, s₂] t a)
    (x : s₁.Idx → α) (y : s₂.Idx → α) : join2 t a s₁ s₂ h x y = concatenate t a [⟨s₁, x⟩, ⟨s₂, y⟩] h := rfl

end Cert.LibJoinTwo

end
-- ==== Proof.RefRun.lean ====
/-
  The idealized reference program's run, read stage by stage. Its 210 host operations are cut into ten consecutive
  stretches at the values that cross from one stage of the computation to the next (the projected features, the
  node transforms, the aggregates and their joins, the combine transforms); each stretch, run from ANY buffer
  contents, leaves its outputs at the stage's function of the contents it found and every buffer it does not
  write as it was. Chained from the launch memory, the result array ends at `Cert.Stages.composed` of the
  argument arrays, which end unchanged.
-/
import proofs.«167631_j23278722744485_1_alg».proof.Proof.RefOps
import proofs.«167631_j23278722744485_1_alg».proof.Proof.RefCasts
import proofs.«167631_j23278722744485_1_alg».proof.Proof.Stages
import proofs.«167631_j23278722744485_1_alg».proof.Proof.StagesAgg
import proofs.«167631_j23278722744485_1_alg».proof.Proof.LibJoinTwo
import Idealize.ShloMosaic.Lib.StableHlo.Run
import Idealize.ShloMosaic.PureOps.Ideal

noncomputable section

namespace Cert.ReferenceIdeal.StageRun

open Cert.ReferenceIdeal Cert.ReferenceIdeal.Gen Cert.ReferenceIdeal.Ops Cert.ReferenceIdeal.Casts
open Idealize.ShloMosaic Idealize.ShloMosaic.TcCoe Idealize.SL.Sem Idealize.ShloMosaic.StableHlo

/-! ## The stretches -/

variable {F : FTy → Type} [FloatOps F]

/-- Operations 1 … 5 of @main. -/
abbrev stretch1 : List (HloOp τ sig (Elt F)) :=
  [ unary main_arg1 main_v0 ((transpose S256x256 [1, 0] · transposes_S256x256_S256x256_1_0) : (⟨S256x256, .f32⟩ : BufTy).Contents (Elt F) → (⟨S256x256, .f32⟩ : BufTy).Contents (Elt F)),
    binary main_arg0 main_v0 main_v1 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg2 main_v2 (broadcastInDim S1x256 ![1] bcast_S256_S1x256_1 : (⟨S256, .f32⟩ : BufTy).Contents (Elt F) → (⟨S1x256, .f32⟩ : BufTy).Contents (Elt F)),
    unary main_v2 main_v3 (broadcastInDim S131072x256 ![0, 1] bcast_S1x256_S131072x256_0_1 : (⟨S1x256, .f32⟩ : BufTy).Contents (Elt F) → (⟨S131072x256, .f32⟩ : BufTy).Contents (Elt F)),
    binary main_v1 main_v3 main_v4 (addf : (⟨S131072x256, .f32⟩ : BufTy).Contents (Elt F) → (⟨S131072x256, .f32⟩ : BufTy).Contents (Elt F) → (⟨S131072x256, .f32⟩ : BufTy).Contents (Elt F)) ]

/-- Operations 6 … 14 of @main. -/
abbrev stretch2 : List (HloOp τ sig (Elt F)) :=
  [ unary main_v4 main_v5 ((extractStridedSlice S32768x256 ![0, 0] · slices_S131072x256_S32768x256_0_0) : (⟨S131072x256, .f32⟩ : BufTy).Contents (Elt F) → (⟨S32768x256, .f32⟩ : BufTy).Contents (Elt F)),
    unary main_arg3 main_v6 ((transpose S256x256 [1, 0] · transposes_S256x256_S256x256_1_0) : (⟨S256x256, .f32⟩ : BufTy).Contents (Elt F) → (⟨S256x256, .f32⟩ : BufTy).Contents (Elt F)),
    binary main_v4 main_v6 main_v7 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg4 main_v8 (broadcastInDim S1x256 ![1] bcast_S256_S1x256_1 : (⟨S256, .f32⟩ : BufTy).Contents (Elt F) → (⟨S1x256, .f32⟩ : BufTy).Contents (Elt F)),
    unary main_v8 main_v9 (broadcastInDim S131072x256 ![0, 1] bcast_S1x256_S131072x256_0_1 : (⟨S1x256, .f32⟩ : BufTy).Contents (Elt F) → (⟨S131072x256, .f32⟩ : BufTy).Contents (Elt F)),
    binary main_v7 main_v9 main_v10 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x256, .f32⟩) main_call0_v0) (broadcastInDim S131072x256 ![] bcast_S_S131072x256),
    TRef.binary (TRef.of (T := ⟨S131072x256, .f32⟩) main_v10) (TRef.of (T := ⟨S131072x256, .f32⟩) main_call0_v0) (TRef.of (T := ⟨S131072x256, .f32⟩) main_v11) maximumf ]

/-- Operations 15 … 41 of @main. -/
abbrev stretch3 : List (HloOp τ sig (Elt F)) :=
  [ nullary main_c (constantI S_ 32 0#32),
    unary main_c main_v12 (broadcastInDim S524288 ![] bcast_S_S524288 : (⟨S_, .i32⟩ : BufTy).Contents (Elt F) → (⟨S524288, .i32⟩ : BufTy).Contents (Elt F)),
    binary main_arg14 main_v12 main_v13 (cmpi .slt : (⟨S524288, .i32⟩ : BufTy).Contents (Elt F) → (⟨S524288, .i32⟩ : BufTy).Contents (Elt F) → (⟨S524288, .i1⟩ : BufTy).Contents (Elt F)),
    nullary main_c_0 (constantI S_ 32 131072#32),
    unary main_c_0 main_v14 (broadcastInDim S524288 ![] bcast_S_S524288 : (⟨S_, .i32⟩ : BufTy).Contents (Elt F) → (⟨S524288, .i32⟩ : BufTy).Contents (Elt F)),
    binary main_arg14 main_v14 main_v15 (addi : (⟨S524288, .i32⟩ : BufTy).Contents (Elt F) → (⟨S524288, .i32⟩ : BufTy).Contents (Elt F) → (⟨S524288, .i32⟩ : BufTy).Contents (Elt F)),
    ternary main_v13 main_v15 main_arg14 main_v16 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v16 main_v17 (broadcastInDim S524288x1 ![0] bcast_S524288_S524288x1_0 : (⟨S524288, .i32⟩ : BufTy).Contents (Elt F) → (⟨S524288x1, .i32⟩ : BufTy).Contents (Elt F)),
    binary main_v11 main_v17 main_v18 ((fun x i => Host.gather gather_S131072x256_S524288x1_S524288x256_1_0_n_n_0_1_1256 x i) : (⟨S131072x256, .f32⟩ : BufTy).Contents (Elt F) → (⟨S524288x1, .i32⟩ : BufTy).Contents (Elt F) → (⟨S524288x256, .f32⟩ : BufTy).Contents (Elt F)),
    unary main_arg11 main_v19 (broadcastInDim S524288x1 ![0] bcast_S524288_S524288x1_0 : (⟨S524288, .f32⟩ : BufTy).Contents (Elt F) → (⟨S524288x1, .f32⟩ : BufTy).Contents (Elt F)),
    unary main_v19 main_v20 (broadcastInDim S524288x256 ![0, 1] bcast_S524288x1_S524288x256_0_1 : (⟨S524288x1, .f32⟩ : BufTy).Contents (Elt F) → (⟨S524288x256, .f32⟩ : BufTy).Contents (Elt F)),
    binary main_v18 main_v20 main_v21 (mulf : (⟨S524288x256, .f32⟩ : BufTy).Contents (Elt F) → (⟨S524288x256, .f32⟩ : BufTy).Contents (Elt F) → (⟨S524288x256, .f32⟩ : BufTy).Contents (Elt F)),
    nullary main_cst (constant S_ .f32 0x00000000#32),
    unary main_cst main_v22 (broadcastInDim S32768x256 ![] bcast_S_S32768x256 : (⟨S_, .f32⟩ : BufTy).Contents (Elt F) → (⟨S32768x256, .f32⟩ : BufTy).Contents (Elt F)),
    unary main_arg15 main_v23 (broadcastInDim S524288x1 ![0] bcast_S524288_S524288x1_0 : (⟨S524288, .i32⟩ : BufTy).Contents (Elt F) → (⟨S524288x1, .i32⟩ : BufTy).Contents (Elt F)),
    ternary main_v22 main_v23 main_v21 main_v24 ((fun x i u => Host.scatterAdd scatter_S32768x256_S524288x1_S524288x256_1_0_0_1 x i u) : (⟨S32768x256, .f32⟩ : BufTy).Contents (Elt F) → (⟨S524288x1, .i32⟩ : BufTy).Contents (Elt F) → (⟨S524288x256, .f32⟩ : BufTy).Contents (Elt F) → (⟨S32768x256, .f32⟩ : BufTy).Contents (Elt F)),
    nullary main_cst_1 (constant S_ .f32 0x00000000#32),
    unary main_cst_1 main_v25 (broadcastInDim S32768 ![] bcast_S_S32768 : (⟨S_, .f32⟩ : BufTy).Contents (Elt F) → (⟨S32768, .f32⟩ : BufTy).Contents (Elt F)),
    unary main_arg15 main_v26 (broadcastInDim S524288x1 ![0] bcast_S524288_S524288x1_0 : (⟨S524288, .i32⟩ : BufTy).Contents (Elt F) → (⟨S524288x1, .i32⟩ : BufTy).Contents (Elt F)),
    ternary main_v25 main_v26 main_arg11 main_v27 ((fun x i u => Host.scatterAdd scatter_S32768_S524288x1_S524288_n_0_0_1 x i u) : (⟨S32768, .f32⟩ : BufTy).Contents (Elt F) → (⟨S524288x1, .i32⟩ : BufTy).Contents (Elt F) → (⟨S524288, .f32⟩ : BufTy).Contents (Elt F) → (⟨S32768, .f32⟩ : BufTy).Contents (Elt F)),
    nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S32768, .f32⟩) main_call1_v1) (broadcastInDim S32768 ![] bcast_S_S32768),
    TRef.binary (TRef.of (T := ⟨S32768, .f32⟩) main_call1_v1) (TRef.of (T := ⟨S32768, .f32⟩) main_v27) (TRef.of (T := ⟨S32768, .f32⟩) main_v28) maximumf,
    unary main_v28 main_v29 (broadcastInDim S32768x1 ![0] bcast_S32768_S32768x1_0 : (⟨S32768, .f32⟩ : BufTy).Contents (Elt F) → (⟨S32768x1, .f32⟩ : BufTy).Contents (Elt F)),
    unary main_v29 main_v30 (broadcastInDim S32768x256 ![0, 1] bcast_S32768x1_S32768x256_0_1 : (⟨S32768x1, .f32⟩ : BufTy).Contents (Elt F) → (⟨S32768x256, .f32⟩ : BufTy).Contents (Elt F)),
    binary main_v24 main_v30 main_v31 (Host.divf : (⟨S32768x256, .f32⟩ : BufTy).Contents (Elt F) → (⟨S32768x256, .f32⟩ : BufTy).Contents (Elt F) → (⟨S32768x256, .f32⟩ : BufTy).Contents (Elt F)) ]

/-- Operations 42 … 42 of @main. -/
abbrev stretch4 : List (HloOp τ sig (Elt F)) :=
  [ binary main_v31 main_v5 main_v32 ((fun a b => concatenate S32768x512 1 [⟨S32768x256, a⟩, ⟨S32768x256, b⟩] concatenates_S32768x256_S32768x256_S32768x512_d1) : (⟨S32768x256, .f32⟩ : BufTy).Contents (Elt F) → (⟨S32768x256, .f32⟩ : BufTy).Contents (Elt F) → (⟨S32768x512, .f32⟩ : BufTy).Contents (Elt F)) ]

/-- Operations 43 … 50 of @main. -/
abbrev stretch5 : List (HloOp τ sig (Elt F)) :=
  [ unary main_arg5 main_v33 ((transpose S512x256 [1, 0] · transposes_S256x512_S512x256_1_0) : (⟨S256x512, .f32⟩ : BufTy).Contents (Elt F) → (⟨S512x256, .f32⟩ : BufTy).Contents (Elt F)),
    binary main_v32 main_v33 main_v34 ((fun l r => Host.dotGeneral dot_S32768x512_S512x256_S32768x256_1_0_0_1_n_n none l r) : (⟨S32768x512, .f32⟩ : BufTy).Contents (Elt F) → (⟨S512x256, .f32⟩ : BufTy).Contents (Elt F) → (⟨S32768x256, .f32⟩ : BufTy).Contents (Elt F)),
    unary main_arg6 main_v35 (broadcastInDim S1x256 ![1] bcast_S256_S1x256_1 : (⟨S256, .f32⟩ : BufTy).Contents (Elt F) → (⟨S1x256, .f32⟩ : BufTy).Contents (Elt F)),
    unary main_v35 main_v36 (broadcastInDim S32768x256 ![0, 1] bcast_S1x256_S32768x256_0_1 : (⟨S1x256, .f32⟩ : BufTy).Contents (Elt F) → (⟨S32768x256, .f32⟩ : BufTy).Contents (Elt F)),
    binary main_v34 main_v36 main_v37 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x256, .f32⟩) main_call2_v0) (broadcastInDim S32768x256 ![] bcast_S_S32768x256),
    TRef.binary (TRef.of (T := ⟨S32768x256, .f32⟩) main_v37) (TRef.of (T := ⟨S32768x256, .f32⟩) main_call2_v0) (TRef.of (T := ⟨S32768x256, .f32⟩) main_v38) maximumf ]

/-- Operations 51 … 59 of @main. -/
abbrev stretch6 : List (HloOp τ sig (Elt F)) :=
  [ unary main_v38 main_v39 ((extractStridedSlice S8192x256 ![0, 0] · slices_S32768x256_S8192x256_0_0) : (⟨S32768x256, .f32⟩ : BufTy).Contents (Elt F) → (⟨S8192x256, .f32⟩ : BufTy).Contents (Elt F)),
    unary main_arg7 main_v40 ((transpose S256x256 [1, 0] · transposes_S256x256_S256x256_1_0) : (⟨S256x256, .f32⟩ : BufTy).Contents (Elt F) → (⟨S256x256, .f32⟩ : BufTy).Contents (Elt F)),
    binary main_v38 main_v40 main_v41 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    unary main_arg8 main_v42 (broadcastInDim S1x256 ![1] bcast_S256_S1x256_1 : (⟨S256, .f32⟩ : BufTy).Contents (Elt F) → (⟨S1x256, .f32⟩ : BufTy).Contents (Elt F)),
    unary main_v42 main_v43 (broadcastInDim S32768x256 ![0, 1] bcast_S1x256_S32768x256_0_1 : (⟨S1x256, .f32⟩ : BufTy).Contents (Elt F) → (⟨S32768x256, .f32⟩ : BufTy).Contents (Elt F)),
    binary main_v41 main_v43 main_v44 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x256, .f32⟩) main_call3_v0) (broadcastInDim S32768x256 ![] bcast_S_S32768x256),
    TRef.binary (TRef.of (T := ⟨S32768x256, .f32⟩) main_v44) (TRef.of (T := ⟨S32768x256, .f32⟩) main_call3_v0) (TRef.of (T := ⟨S32768x256, .f32⟩) main_v45) maximumf ]

/-- Operations 60 … 86 of @main. -/
abbrev stretch7 : List (HloOp τ sig (Elt F)) :=
  [ nullary main_c_3 (constantI S_ 32 0#32),
    unary main_c_3 main_v46 (broadcastInDim S131072 ![] bcast_S_S131072 : (⟨S_, .i32⟩ : BufTy).Contents (Elt F) → (⟨S131072, .i32⟩ : BufTy).Contents (Elt F)),
    binary main_arg16 main_v46 main_v47 (cmpi .slt : (⟨S131072, .i32⟩ : BufTy).Contents (Elt F) → (⟨S131072, .i32⟩ : BufTy).Contents (Elt F) → (⟨S131072, .i1⟩ : BufTy).Contents (Elt F)),
    nullary main_c_4 (constantI S_ 32 32768#32),
    unary main_c_4 main_v48 (broadcastInDim S131072 ![] bcast_S_S131072 : (⟨S_, .i32⟩ : BufTy).Contents (Elt F) → (⟨S131072, .i32⟩ : BufTy).Contents (Elt F)),
    binary main_arg16 main_v48 main_v49 (addi : (⟨S131072, .i32⟩ : BufTy).Contents (Elt F) → (⟨S131072, .i32⟩ : BufTy).Contents (Elt F) → (⟨S131072, .i32⟩ : BufTy).Contents (Elt F)),
    ternary main_v47 main_v49 main_arg16 main_v50 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v50 main_v51 (broadcastInDim S131072x1 ![0] bcast_S131072_S131072x1_0 : (⟨S131072, .i32⟩ : BufTy).Contents (Elt F) → (⟨S131072x1, .i32⟩ : BufTy).Contents (Elt F)),
    binary main_v45 main_v51 main_v52 ((fun x i => Host.gather gather_S32768x256_S131072x1_S131072x256_1_0_n_n_0_1_1256 x i) : (⟨S32768x256, .f32⟩ : BufTy).Contents (Elt F) → (⟨S131072x1, .i32⟩ : BufTy).Contents (Elt F) → (⟨S131072x256, .f32⟩ : BufTy).Contents (Elt F)),
    unary main_arg12 main_v53 (broadcastInDim S131072x1 ![0] bcast_S131072_S131072x1_0 : (⟨S131072, .f32⟩ : BufTy).Contents (Elt F) → (⟨S131072x1, .f32⟩ : BufTy).Contents (Elt F)),
    unary main_v53 main_v54 (broadcastInDim S131072x256 ![0, 1] bcast_S131072x1_S131072x256_0_1 : (⟨S131072x1, .f32⟩ : BufTy).Contents (Elt F) → (⟨S131072x256, .f32⟩ : BufTy).Contents (Elt F)),
    binary main_v52 main_v54 main_v55 (mulf : (⟨S131072x256, .f32⟩ : BufTy).Contents (Elt F) → (⟨S131072x256, .f32⟩ : BufTy).Contents (Elt F) → (⟨S131072x256, .f32⟩ : BufTy).Contents (Elt F)),
    nullary main_cst_5 (constant S_ .f32 0x00000000#32),
    unary main_cst_5 main_v56 (broadcastInDim S8192x256 ![] bcast_S_S8192x256 : (⟨S_, .f32⟩ : BufTy).Contents (Elt F) → (⟨S8192x256, .f32⟩ : BufTy).Contents (Elt F)),
    unary main_arg17 main_v57 (broadcastInDim S131072x1 ![0] bcast_S131072_S131072x1_0 : (⟨S131072, .i32⟩ : BufTy).Contents (Elt F) → (⟨S131072x1, .i32⟩ : BufTy).Contents (Elt F)),
    ternary main_v56 main_v57 main_v55 main_v58 ((fun x i u => Host.scatterAdd scatter_S8192x256_S131072x1_S131072x256_1_0_0_1 x i u) : (⟨S8192x256, .f32⟩ : BufTy).Contents (Elt F) → (⟨S131072x1, .i32⟩ : BufTy).Contents (Elt F) → (⟨S131072x256, .f32⟩ : BufTy).Contents (Elt F) → (⟨S8192x256, .f32⟩ : BufTy).Contents (Elt F)),
    nullary main_cst_6 (constant S_ .f32 0x00000000#32),
    unary main_cst_6 main_v59 (broadcastInDim S8192 ![] bcast_S_S8192 : (⟨S_, .f32⟩ : BufTy).Contents (Elt F) → (⟨S8192, .f32⟩ : BufTy).Contents (Elt F)),
    unary main_arg17 main_v60 (broadcastInDim S131072x1 ![0] bcast_S131072_S131072x1_0 : (⟨S131072, .i32⟩ : BufTy).Contents (Elt F) → (⟨S131072x1, .i32⟩ : BufTy).Contents (Elt F)),
    ternary main_v59 main_v60 main_arg12 main_v61 ((fun x i u => Host.scatterAdd scatter_S8192_S131072x1_S131072_n_0_0_1 x i u) : (⟨S8192, .f32⟩ : BufTy).Contents (Elt F) → (⟨S131072x1, .i32⟩ : BufTy).Contents (Elt F) → (⟨S131072, .f32⟩ : BufTy).Contents (Elt F) → (⟨S8192, .f32⟩ : BufTy).Contents (Elt F)),
    nullary main_cst_7 (constant S_ .f32 0x3F800000#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.binary (TRef.of (T := ⟨S8192, .f32⟩) main_call4_v1) (TRef.of (T := ⟨S8192, .f32⟩) main_v61) (TRef.of (T := ⟨S8192, .f32⟩) main_v62) maximumf,
    unary main_v62 main_v63 (broadcastInDim S8192x1 ![0] bcast_S8192_S8192x1_0 : (⟨S8192, .f32⟩ : BufTy).Contents (Elt F) → (⟨S8192x1, .f32⟩ : BufTy).Contents (Elt F)),
    unary main_v63 main_v64 (broadcastInDim S8192x256 ![0, 1] bcast_S8192x1_S8192x256_0_1 : (⟨S8192x1, .f32⟩ : BufTy).Contents (Elt F) → (⟨S8192x256, .f32⟩ : BufTy).Contents (Elt F)),
    binary main_v58 main_v64 main_v65 (Host.divf : (⟨S8192x256, .f32⟩ : BufTy).Contents (Elt F) → (⟨S8192x256, .f32⟩ : BufTy).Contents (Elt F) → (⟨S8192x256, .f32⟩ : BufTy).Contents (Elt F)) ]

/-- Operations 87 … 87 of @main. -/
abbrev stretch8 : List (HloOp τ sig (Elt F)) :=
  [ binary main_v65 main_v39 main_v66 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)) ]

/-- Operations 88 … 95 of @main. -/
abbrev stretch9 : List (HloOp τ sig (Elt F)) :=
  [ unary main_arg9 main_v67 ((transpose S512x256 [1, 0] · transposes_S256x512_S512x256_1_0) : (⟨S256x512, .f32⟩ : BufTy).Contents (Elt F) → (⟨S512x256, .f32⟩ : BufTy).Contents (Elt F)),
    binary main_v66 main_v67 main_v68 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg10 main_v69 (broadcastInDim S1x256 ![1] bcast_S256_S1x256_1 : (⟨S256, .f32⟩ : BufTy).Contents (Elt F) → (⟨S1x256, .f32⟩ : BufTy).Contents (Elt F)),
    unary main_v69 main_v70 (broadcastInDim S8192x256 ![0, 1] bcast_S1x256_S8192x256_0_1 : (⟨S1x256, .f32⟩ : BufTy).Contents (Elt F) → (⟨S8192x256, .f32⟩ : BufTy).Contents (Elt F)),
    binary main_v68 main_v70 main_v71 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x256, .f32⟩) main_call5_v0) (broadcastInDim S8192x256 ![] bcast_S_S8192x256),
    TRef.binary (TRef.of (T := ⟨S8192x256, .f32⟩) main_v71) (TRef.of (T := ⟨S8192x256, .f32⟩) main_call5_v0) (TRef.of (T := ⟨S8192x256, .f32⟩) main_v72) maximumf ]

/-- Operations 96 … 210 of @main. -/
abbrev stretch10 : List (HloOp τ sig (Elt F)) :=
  [ unary main_v4 main_v73 ((extractStridedSlice S8192x256 ![0, 0] · slices_S131072x256_S8192x256_0_0) : (⟨S131072x256, .f32⟩ : BufTy).Contents (Elt F) → (⟨S8192x256, .f32⟩ : BufTy).Contents (Elt F)),
    binary main_v73 main_v72 main_v74 (addf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_v74) (TRef.of (T := ⟨S8192x256, .f32⟩) main_v74) (TRef.of (T := ⟨S8192x256, .f32⟩) main_call6_v0) mulf,
    TRef.nullary (TRef.of (T := ⟨S_, .f32⟩) main_call6_cst) (constant S_ .f32 0x00000000#32),
    TRef.binary (TRef.of (T := ⟨S8192x256, .f32⟩) main_call6_v0) (TRef.of (T := ⟨S_, .f32⟩) main_call6_cst) (TRef.of (T := ⟨S8192, .f32⟩) main_call6_v1) (fun x v => Host.reduceAdd x v reducesTo_S8192x256_S8192_d1 h_S_),
    TRef.unary (TRef.of (T := ⟨S8192, .f32⟩) main_call6_v1) (TRef.of (T := ⟨S8192x1, .f32⟩) main_call6_v2) (broadcastInDim S8192x1 ![0] bcast_S8192_S8192x1_0),
    TRef.unary (TRef.of (T := ⟨S8192x1, .f32⟩) main_call6_v2) (TRef.of (T := ⟨S8192x1, .f32⟩) main_v75) Host.sqrt,
    nullary main_cst_8 (constant S_ .f32 0x00000000#32),
    unary main_cst_8 main_v76 (broadcastInDim S8192x1 ![] bcast_S_S8192x1 : (⟨S_, .f32⟩ : BufTy).Contents (Elt F) → (⟨S8192x1, .f32⟩ : BufTy).Contents (Elt F)),
    binary main_v75 main_v76 main_v77 (cmpf .oeq : (⟨S8192x1, .f32⟩ : BufTy).Contents (Elt F) → (⟨S8192x1, .f32⟩ : BufTy).Contents (Elt F) → (⟨S8192x1, .i1⟩ : BufTy).Contents (Elt F)),
    nullary main_cst_9 (constant S_ .f32 0x3F800000#32),
    TRef.unary (TRef.of (T := ⟨S_, .f32⟩) main_cst_9) (TRef.of (T := ⟨S_, .f32⟩) main_call7_v0) id,
    TRef.unary (TRef.of (T := ⟨S_, .f32⟩) main_call7_v0) (TRef.of (T := ⟨S8192x1, .f32⟩) main_call7_v1) (broadcastInDim S8192x1 ![] bcast_S_S8192x1),
    TRef.ternary (TRef.of (T := ⟨S8192x1, .i1⟩) main_v77) (TRef.of (T := ⟨S8192x1, .f32⟩) main_call7_v1) (TRef.of (T := ⟨S8192x1, .f32⟩) main_v75) (TRef.of (T := ⟨S8192x1, .f32⟩) main_v78) select,
    unary main_v78 main_v79 (broadcastInDim S8192x256 ![0, 1] bcast_S8192x1_S8192x256_0_1 : (⟨S8192x1, .f32⟩ : BufTy).Contents (Elt F) → (⟨S8192x256, .f32⟩ : BufTy).Contents (Elt F)),
    binary main_v74 main_v79 main_v80 (Host.divf : (⟨S8192x256, .f32⟩ : BufTy).Contents (Elt F) → (⟨S8192x256, .f32⟩ : BufTy).Contents (Elt F) → (⟨S8192x256, .f32⟩ : BufTy).Contents (Elt F)),
    nullary main_c_10 (constantI S_ 32 0#32),
    unary main_c_10 main_v81 (broadcastInDim S8192 ![] bcast_S_S8192 : (⟨S_, .i32⟩ : BufTy).Contents (Elt F) → (⟨S8192, .i32⟩ : BufTy).Contents (Elt F)),
    binary main_arg22 main_v81 main_v82 (cmpi .slt : (⟨S8192, .i32⟩ : BufTy).Contents (Elt F) → (⟨S8192, .i32⟩ : BufTy).Contents (Elt F) → (⟨S8192, .i1⟩ : BufTy).Contents (Elt F)),
    nullary main_c_11 (constantI S_ 32 1000000#32),
    unary main_c_11 main_v83 (broadcastInDim S8192 ![] bcast_S_S8192 : (⟨S_, .i32⟩ : BufTy).Contents (Elt F) → (⟨S8192, .i32⟩ : BufTy).Contents (Elt F)),
    binary main_arg22 main_v83 main_v84 (addi : (⟨S8192, .i32⟩ : BufTy).Contents (Elt F) → (⟨S8192, .i32⟩ : BufTy).Contents (Elt F) → (⟨S8192, .i32⟩ : BufTy).Contents (Elt F)),
    ternary main_v82 main_v84 main_arg22 main_v85 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v85 main_v86 (broadcastInDim S8192x1 ![0] bcast_S8192_S8192x1_0 : (⟨S8192, .i32⟩ : BufTy).Contents (Elt F) → (⟨S8192x1, .i32⟩ : BufTy).Contents (Elt F)),
    binary main_arg13 main_v86 main_v87 ((fun x i => Host.gather gather_S1000000_S8192x1_S8192_n_0_n_n_0_1_1 x i) : (⟨S1000000, .f32⟩ : BufTy).Contents (Elt F) → (⟨S8192x1, .i32⟩ : BufTy).Contents (Elt F) → (⟨S8192, .f32⟩ : BufTy).Contents (Elt F)),
    nullary main_c_12 (constantI S_ 32 0#32),
    unary main_c_12 main_v88 (broadcastInDim S8192 ![] bcast_S_S8192 : (⟨S_, .i32⟩ : BufTy).Contents (Elt F) → (⟨S8192, .i32⟩ : BufTy).Contents (Elt F)),
    binary main_arg18 main_v88 main_v89 (cmpi .slt : (⟨S8192, .i32⟩ : BufTy).Contents (Elt F) → (⟨S8192, .i32⟩ : BufTy).Contents (Elt F) → (⟨S8192, .i1⟩ : BufTy).Contents (Elt F)),
    nullary main_c_13 (constantI S_ 32 8192#32),
    unary main_c_13 main_v90 (broadcastInDim S8192 ![] bcast_S_S8192 : (⟨S_, .i32⟩ : BufTy).Contents (Elt F) → (⟨S8192, .i32⟩ : BufTy).Contents (Elt F)),
    binary main_arg18 main_v90 main_v91 (addi : (⟨S8192, .i32⟩ : BufTy).Contents (Elt F) → (⟨S8192, .i32⟩ : BufTy).Contents (Elt F) → (⟨S8192, .i32⟩ : BufTy).Contents (Elt F)),
    ternary main_v89 main_v91 main_arg18 main_v92 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v92 main_v93 (broadcastInDim S8192x1 ![0] bcast_S8192_S8192x1_0 : (⟨S8192, .i32⟩ : BufTy).Contents (Elt F) → (⟨S8192x1, .i32⟩ : BufTy).Contents (Elt F)),
    binary main_v80 main_v93 main_v94 ((fun x i => Host.gather gather_S8192x256_S8192x1_S8192x256_1_0_n_n_0_1_1256 x i) : (⟨S8192x256, .f32⟩ : BufTy).Contents (Elt F) → (⟨S8192x1, .i32⟩ : BufTy).Contents (Elt F) → (⟨S8192x256, .f32⟩ : BufTy).Contents (Elt F)),
    nullary main_c_14 (constantI S_ 32 0#32),
    unary main_c_14 main_v95 (broadcastInDim S8192 ![] bcast_S_S8192 : (⟨S_, .i32⟩ : BufTy).Contents (Elt F) → (⟨S8192, .i32⟩ : BufTy).Contents (Elt F)),
    binary main_arg19 main_v95 main_v96 (cmpi .slt : (⟨S8192, .i32⟩ : BufTy).Contents (Elt F) → (⟨S8192, .i32⟩ : BufTy).Contents (Elt F) → (⟨S8192, .i1⟩ : BufTy).Contents (Elt F)),
    nullary main_c_15 (constantI S_ 32 8192#32),
    unary main_c_15 main_v97 (broadcastInDim S8192 ![] bcast_S_S8192 : (⟨S_, .i32⟩ : BufTy).Contents (Elt F) → (⟨S8192, .i32⟩ : BufTy).Contents (Elt F)),
    binary main_arg19 main_v97 main_v98 (addi : (⟨S8192, .i32⟩ : BufTy).Contents (Elt F) → (⟨S8192, .i32⟩ : BufTy).Contents (Elt F) → (⟨S8192, .i32⟩ : BufTy).Contents (Elt F)),
    ternary main_v96 main_v98 main_arg19 main_v99 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v99 main_v100 (broadcastInDim S8192x1 ![0] bcast_S8192_S8192x1_0 : (⟨S8192, .i32⟩ : BufTy).Contents (Elt F) → (⟨S8192x1, .i32⟩ : BufTy).Contents (Elt F)),
    binary main_v80 main_v100 main_v101 ((fun x i => Host.gather gather_S8192x256_S8192x1_S8192x256_1_0_n_n_0_1_1256 x i) : (⟨S8192x256, .f32⟩ : BufTy).Contents (Elt F) → (⟨S8192x1, .i32⟩ : BufTy).Contents (Elt F) → (⟨S8192x256, .f32⟩ : BufTy).Contents (Elt F)),
    binary main_v94 main_v101 main_v102 (mulf : (⟨S8192x256, .f32⟩ : BufTy).Contents (Elt F) → (⟨S8192x256, .f32⟩ : BufTy).Contents (Elt F) → (⟨S8192x256, .f32⟩ : BufTy).Contents (Elt F)),
    nullary main_cst_16 (constant S_ .f32 0x00000000#32),
    binary main_v102 main_cst_16 main_v103 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    nullary main_c_17 (constantI S_ 32 0#32),
    unary main_c_17 main_v104 (broadcastInDim S8192 ![] bcast_S_S8192 : (⟨S_, .i32⟩ : BufTy).Contents (Elt F) → (⟨S8192, .i32⟩ : BufTy).Contents (Elt F)),
    binary main_arg18 main_v104 main_v105 (cmpi .slt : (⟨S8192, .i32⟩ : BufTy).Contents (Elt F) → (⟨S8192, .i32⟩ : BufTy).Contents (Elt F) → (⟨S8192, .i1⟩ : BufTy).Contents (Elt F)),
    nullary main_c_18 (constantI S_ 32 8192#32),
    unary main_c_18 main_v106 (broadcastInDim S8192 ![] bcast_S_S8192 : (⟨S_, .i32⟩ : BufTy).Contents (Elt F) → (⟨S8192, .i32⟩ : BufTy).Contents (Elt F)),
    binary main_arg18 main_v106 main_v107 (addi : (⟨S8192, .i32⟩ : BufTy).Contents (Elt F) → (⟨S8192, .i32⟩ : BufTy).Contents (Elt F) → (⟨S8192, .i32⟩ : BufTy).Contents (Elt F)),
    ternary main_v105 main_v107 main_arg18 main_v108 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v108 main_v109 (broadcastInDim S8192x1 ![0] bcast_S8192_S8192x1_0 : (⟨S8192, .i32⟩ : BufTy).Contents (Elt F) → (⟨S8192x1, .i32⟩ : BufTy).Contents (Elt F)),
    binary main_v87 main_v109 main_v110 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    binary main_v103 main_v110 main_v111 (addf : (⟨S8192, .f32⟩ : BufTy).Contents (Elt F) → (⟨S8192, .f32⟩ : BufTy).Contents (Elt F) → (⟨S8192, .f32⟩ : BufTy).Contents (Elt F)),
    nullary main_c_19 (constantI S_ 32 0#32),
    unary main_c_19 main_v112 (broadcastInDim S8192 ![] bcast_S_S8192 : (⟨S_, .i32⟩ : BufTy).Contents (Elt F) → (⟨S8192, .i32⟩ : BufTy).Contents (Elt F)),
    binary main_arg19 main_v112 main_v113 (cmpi .slt : (⟨S8192, .i32⟩ : BufTy).Contents (Elt F) → (⟨S8192, .i32⟩ : BufTy).Contents (Elt F) → (⟨S8192, .i1⟩ : BufTy).Contents (Elt F)),
    nullary main_c_20 (constantI S_ 32 8192#32),
    unary main_c_20 main_v114 (broadcastInDim S8192 ![] bcast_S_S8192 : (⟨S_, .i32⟩ : BufTy).Contents (Elt F) → (⟨S8192, .i32⟩ : BufTy).Contents (Elt F)),
    binary main_arg19 main_v114 main_v115 (addi : (⟨S8192, .i32⟩ : BufTy).Contents (Elt F) → (⟨S8192, .i32⟩ : BufTy).Contents (Elt F) → (⟨S8192, .i32⟩ : BufTy).Contents (Elt F)),
    ternary main_v113 main_v115 main_arg19 main_v116 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v116 main_v117 (broadcastInDim S8192x1 ![0] bcast_S8192_S8192x1_0 : (⟨S8192, .i32⟩ : BufTy).Contents (Elt F) → (⟨S8192x1, .i32⟩ : BufTy).Contents (Elt F)),
    binary main_v87 main_v117 main_v118 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    binary main_v111 main_v118 main_v119 (addf : (⟨S8192, .f32⟩ : BufTy).Contents (Elt F) → (⟨S8192, .f32⟩ : BufTy).Contents (Elt F) → (⟨S8192, .f32⟩ : BufTy).Contents (Elt F)),
    nullary main_c_21 (constantI S_ 32 0#32),
    unary main_c_21 main_v120 (broadcastInDim S8192 ![] bcast_S_S8192 : (⟨S_, .i32⟩ : BufTy).Contents (Elt F) → (⟨S8192, .i32⟩ : BufTy).Contents (Elt F)),
    binary main_arg20 main_v120 main_v121 (cmpi .slt : (⟨S8192, .i32⟩ : BufTy).Contents (Elt F) → (⟨S8192, .i32⟩ : BufTy).Contents (Elt F) → (⟨S8192, .i1⟩ : BufTy).Contents (Elt F)),
    nullary main_c_22 (constantI S_ 32 8192#32),
    unary main_c_22 main_v122 (broadcastInDim S8192 ![] bcast_S_S8192 : (⟨S_, .i32⟩ : BufTy).Contents (Elt F) → (⟨S8192, .i32⟩ : BufTy).Contents (Elt F)),
    binary main_arg20 main_v122 main_v123 (addi : (⟨S8192, .i32⟩ : BufTy).Contents (Elt F) → (⟨S8192, .i32⟩ : BufTy).Contents (Elt F) → (⟨S8192, .i32⟩ : BufTy).Contents (Elt F)),
    ternary main_v121 main_v123 main_arg20 main_v124 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v124 main_v125 (broadcastInDim S8192x1 ![0] bcast_S8192_S8192x1_0 : (⟨S8192, .i32⟩ : BufTy).Contents (Elt F) → (⟨S8192x1, .i32⟩ : BufTy).Contents (Elt F)),
    binary main_v80 main_v125 main_v126 ((fun x i => Host.gather gather_S8192x256_S8192x1_S8192x256_1_0_n_n_0_1_1256 x i) : (⟨S8192x256, .f32⟩ : BufTy).Contents (Elt F) → (⟨S8192x1, .i32⟩ : BufTy).Contents (Elt F) → (⟨S8192x256, .f32⟩ : BufTy).Contents (Elt F)),
    nullary main_c_23 (constantI S_ 32 0#32),
    unary main_c_23 main_v127 (broadcastInDim S8192 ![] bcast_S_S8192 : (⟨S_, .i32⟩ : BufTy).Contents (Elt F) → (⟨S8192, .i32⟩ : BufTy).Contents (Elt F)),
    binary main_arg21 main_v127 main_v128 (cmpi .slt : (⟨S8192, .i32⟩ : BufTy).Contents (Elt F) → (⟨S8192, .i32⟩ : BufTy).Contents (Elt F) → (⟨S8192, .i1⟩ : BufTy).Contents (Elt F)),
    nullary main_c_24 (constantI S_ 32 8192#32),
    unary main_c_24 main_v129 (broadcastInDim S8192 ![] bcast_S_S8192 : (⟨S_, .i32⟩ : BufTy).Contents (Elt F) → (⟨S8192, .i32⟩ : BufTy).Contents (Elt F)),
    binary main_arg21 main_v129 main_v130 (addi : (⟨S8192, .i32⟩ : BufTy).Contents (Elt F) → (⟨S8192, .i32⟩ : BufTy).Contents (Elt F) → (⟨S8192, .i32⟩ : BufTy).Contents (Elt F)),
    ternary main_v128 main_v130 main_arg21 main_v131 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v131 main_v132 (broadcastInDim S8192x1 ![0] bcast_S8192_S8192x1_0 : (⟨S8192, .i32⟩ : BufTy).Contents (Elt F) → (⟨S8192x1, .i32⟩ : BufTy).Contents (Elt F)),
    binary main_v80 main_v132 main_v133 ((fun x i => Host.gather gather_S8192x256_S8192x1_S8192x256_1_0_n_n_0_1_1256 x i) : (⟨S8192x256, .f32⟩ : BufTy).Contents (Elt F) → (⟨S8192x1, .i32⟩ : BufTy).Contents (Elt F) → (⟨S8192x256, .f32⟩ : BufTy).Contents (Elt F)),
    binary main_v126 main_v133 main_v134 (mulf : (⟨S8192x256, .f32⟩ : BufTy).Contents (Elt F) → (⟨S8192x256, .f32⟩ : BufTy).Contents (Elt F) → (⟨S8192x256, .f32⟩ : BufTy).Contents (Elt F)),
    nullary main_cst_25 (constant S_ .f32 0x00000000#32),
    binary main_v134 main_cst_25 main_v135 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    nullary main_c_26 (constantI S_ 32 0#32),
    unary main_c_26 main_v136 (broadcastInDim S8192 ![] bcast_S_S8192 : (⟨S_, .i32⟩ : BufTy).Contents (Elt F) → (⟨S8192, .i32⟩ : BufTy).Contents (Elt F)),
    binary main_arg20 main_v136 main_v137 (cmpi .slt : (⟨S8192, .i32⟩ : BufTy).Contents (Elt F) → (⟨S8192, .i32⟩ : BufTy).Contents (Elt F) → (⟨S8192, .i1⟩ : BufTy).Contents (Elt F)),
    nullary main_c_27 (constantI S_ 32 8192#32),
    unary main_c_27 main_v138 (broadcastInDim S8192 ![] bcast_S_S8192 : (⟨S_, .i32⟩ : BufTy).Contents (Elt F) → (⟨S8192, .i32⟩ : BufTy).Contents (Elt F)),
    binary main_arg20 main_v138 main_v139 (addi : (⟨S8192, .i32⟩ : BufTy).Contents (Elt F) → (⟨S8192, .i32⟩ : BufTy).Contents (Elt F) → (⟨S8192, .i32⟩ : BufTy).Contents (Elt F)),
    ternary main_v137 main_v139 main_arg20 main_v140 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v140 main_v141 (broadcastInDim S8192x1 ![0] bcast_S8192_S8192x1_0 : (⟨S8192, .i32⟩ : BufTy).Contents (Elt F) → (⟨S8192x1, .i32⟩ : BufTy).Contents (Elt F)),
    binary main_v87 main_v141 main_v142 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    binary main_v135 main_v142 main_v143 (addf : (⟨S8192, .f32⟩ : BufTy).Contents (Elt F) → (⟨S8192, .f32⟩ : BufTy).Contents (Elt F) → (⟨S8192, .f32⟩ : BufTy).Contents (Elt F)),
    nullary main_c_28 (constantI S_ 32 0#32),
    unary main_c_28 main_v144 (broadcastInDim S8192 ![] bcast_S_S8192 : (⟨S_, .i32⟩ : BufTy).Contents (Elt F) → (⟨S8192, .i32⟩ : BufTy).Contents (Elt F)),
    binary main_arg21 main_v144 main_v145 (cmpi .slt : (⟨S8192, .i32⟩ : BufTy).Contents (Elt F) → (⟨S8192, .i32⟩ : BufTy).Contents (Elt F) → (⟨S8192, .i1⟩ : BufTy).Contents (Elt F)),
    nullary main_c_29 (constantI S_ 32 8192#32),
    unary main_c_29 main_v146 (broadcastInDim S8192 ![] bcast_S_S8192 : (⟨S_, .i32⟩ : BufTy).Contents (Elt F) → (⟨S8192, .i32⟩ : BufTy).Contents (Elt F)),
    binary main_arg21 main_v146 main_v147 (addi : (⟨S8192, .i32⟩ : BufTy).Contents (Elt F) → (⟨S8192, .i32⟩ : BufTy).Contents (Elt F) → (⟨S8192, .i32⟩ : BufTy).Contents (Elt F)),
    ternary main_v145 main_v147 main_arg21 main_v148 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v148 main_v149 (broadcastInDim S8192x1 ![0] bcast_S8192_S8192x1_0 : (⟨S8192, .i32⟩ : BufTy).Contents (Elt F) → (⟨S8192x1, .i32⟩ : BufTy).Contents (Elt F)),
    binary main_v87 main_v149 main_v150 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    binary main_v143 main_v150 main_v151 (addf : (⟨S8192, .f32⟩ : BufTy).Contents (Elt F) → (⟨S8192, .f32⟩ : BufTy).Contents (Elt F) → (⟨S8192, .f32⟩ : BufTy).Contents (Elt F)),
    binary main_v151 main_v119 main_v152 (subf : (⟨S8192, .f32⟩ : BufTy).Contents (Elt F) → (⟨S8192, .f32⟩ : BufTy).Contents (Elt F) → (⟨S8192, .f32⟩ : BufTy).Contents (Elt F)),
    nullary main_cst_30 (constant S_ .f32 0x3F800000#32),
    unary main_cst_30 main_v153 (broadcastInDim S8192 ![] bcast_S_S8192 : (⟨S_, .f32⟩ : BufTy).Contents (Elt F) → (⟨S8192, .f32⟩ : BufTy).Contents (Elt F)),
    binary main_v152 main_v153 main_v154 (addf : (⟨S8192, .f32⟩ : BufTy).Contents (Elt F) → (⟨S8192, .f32⟩ : BufTy).Contents (Elt F) → (⟨S8192, .f32⟩ : BufTy).Contents (Elt F)),
    nullary main_cst_31 (constant S_ .f32 0x00000000#32),
    TRef.unary (TRef.of (T := ⟨S_, .f32⟩) main_cst_31) (TRef.of (T := ⟨S_, .f32⟩) main_call8_v0) id,
    TRef.unary (TRef.of (T := ⟨S_, .f32⟩) main_call8_v0) (TRef.of (T := ⟨S8192, .f32⟩) main_call8_v1) (broadcastInDim S8192 ![] bcast_S_S8192),
    TRef.binary (TRef.of (T := ⟨S8192, .f32⟩) main_call8_v1) (TRef.of (T := ⟨S8192, .f32⟩) main_v154) (TRef.of (T := ⟨S8192, .f32⟩) main_v155) maximumf ]

set_option maxRecDepth 8192 in
/-- @main's operations are the stretches in order. -/
theorem ops_split : (ops : List (HloOp τ sig (Elt F))) = stretch1 ++ (stretch2 ++ (stretch3 ++ (stretch4 ++ (stretch5 ++ (stretch6 ++ (stretch7 ++ (stretch8 ++ (stretch9 ++ stretch10)))))))) := rfl

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Reads one buffer after a literal stretch: each operation's result at its own buffer is its function of its
    operands' contents, every other buffer keeps what it held. -/
macro "read_stretch" : tactic =>
  `(tactic| simp (disch := decide) only [stretch1, stretch2, stretch3, stretch4, stretch5, stretch6, stretch7, stretch8, stretch9, stretch10,
      StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne'])

variable (V : Valuation τ sig (Elt Ideal))

/-! ## What each stretch writes, and that it keeps the rest -/

/-- The buffers stretch 1 writes. -/
abbrev written1 : List (Ref sig .tc) := [main_v0, main_v1, main_v2, main_v3, main_v4]
theorem keep1 (b : Ref sig .tc) (hb : b ∉ written1) :
    after (stretch1 (F := Ideal)) V (no_index (Proc.devRef .tc b)) = V (Proc.devRef .tc b) := by
  refine after_of_forall_not_mem _ _ (List.forall_iff_forall_mem.mp ?_)
  simp only [stretch1, List.Forall, nullary_writes, unary_writes, binary_writes, ternary_writes, Finset.mem_singleton]
  repeat' apply And.intro
  all_goals exact devRef_ne_of_ne (by intro e; subst e; exact hb (by decide))

/-- The buffers stretch 2 writes. -/
abbrev written2 : List (Ref sig .tc) := [main_v5, main_v6, main_v7, main_v8, main_v9, main_v10, main_call0_cst, main_call0_v0, main_v11]
theorem keep2 (b : Ref sig .tc) (hb : b ∉ written2) :
    after (stretch2 (F := Ideal)) V (no_index (Proc.devRef .tc b)) = V (Proc.devRef .tc b) := by
  refine after_of_forall_not_mem _ _ (List.forall_iff_forall_mem.mp ?_)
  simp only [stretch2, List.Forall, nullary_writes, unary_writes, binary_writes, ternary_writes, Finset.mem_singleton]
  repeat' apply And.intro
  all_goals exact devRef_ne_of_ne (by intro e; subst e; exact hb (by decide))

/-- The buffers stretch 3 writes. -/
abbrev written3 : List (Ref sig .tc) := [main_c, main_v12, main_v13, main_c_0, main_v14, main_v15, main_v16, main_v17, main_v18, main_v19, main_v20, main_v21, main_cst, main_v22, main_v23, main_v24, main_cst_1, main_v25, main_v26, main_v27, main_cst_2, main_call1_v0, main_call1_v1, main_v28, main_v29, main_v30, main_v31]
theorem keep3 (b : Ref sig .tc) (hb : b ∉ written3) :
    after (stretch3 (F := Ideal)) V (no_index (Proc.devRef .tc b)) = V (Proc.devRef .tc b) := by
  refine after_of_forall_not_mem _ _ (List.forall_iff_forall_mem.mp ?_)
  simp only [stretch3, List.Forall, nullary_writes, unary_writes, binary_writes, ternary_writes, Finset.mem_singleton]
  repeat' apply And.intro
  all_goals exact devRef_ne_of_ne (by intro e; subst e; exact hb (by decide))

/-- The buffers stretch 4 writes. -/
abbrev written4 : List (Ref sig .tc) := [main_v32]
theorem keep4 (b : Ref sig .tc) (hb : b ∉ written4) :
    after (stretch4 (F := Ideal)) V (no_index (Proc.devRef .tc b)) = V (Proc.devRef .tc b) := by
  refine after_of_forall_not_mem _ _ (List.forall_iff_forall_mem.mp ?_)
  simp only [stretch4, List.Forall, nullary_writes, unary_writes, binary_writes, ternary_writes, Finset.mem_singleton]
  repeat' apply And.intro
  all_goals exact devRef_ne_of_ne (by intro e; subst e; exact hb (by decide))

/-- The buffers stretch 5 writes. -/
abbrev written5 : List (Ref sig .tc) := [main_v33, main_v34, main_v35, main_v36, main_v37, main_call2_cst, main_call2_v0, main_v38]
theorem keep5 (b : Ref sig .tc) (hb : b ∉ written5) :
    after (stretch5 (F := Ideal)) V (no_index (Proc.devRef .tc b)) = V (Proc.devRef .tc b) := by
  refine after_of_forall_not_mem _ _ (List.forall_iff_forall_mem.mp ?_)
  simp only [stretch5, List.Forall, nullary_writes, unary_writes, binary_writes, ternary_writes, Finset.mem_singleton]
  repeat' apply And.intro
  all_goals exact devRef_ne_of_ne (by intro e; subst e; exact hb (by decide))

/-- The buffers stretch 6 writes. -/
abbrev written6 : List (Ref sig .tc) := [main_v39, main_v40, main_v41, main_v42, main_v43, main_v44, main_call3_cst, main_call3_v0, main_v45]
theorem keep6 (b : Ref sig .tc) (hb : b ∉ written6) :
    after (stretch6 (F := Ideal)) V (no_index (Proc.devRef .tc b)) = V (Proc.devRef .tc b) := by
  refine after_of_forall_not_mem _ _ (List.forall_iff_forall_mem.mp ?_)
  simp only [stretch6, List.Forall, nullary_writes, unary_writes, binary_writes, ternary_writes, Finset.mem_singleton]
  repeat' apply And.intro
  all_goals exact devRef_ne_of_ne (by intro e; subst e; exact hb (by decide))

/-- The buffers stretch 7 writes. -/
abbrev written7 : List (Ref sig .tc) := [main_c_3, main_v46, main_v47, main_c_4, main_v48, main_v49, main_v50, main_v51, main_v52, main_v53, main_v54, main_v55, main_cst_5, main_v56, main_v57, main_v58, main_cst_6, main_v59, main_v60, main_v61, main_cst_7, main_call4_v0, main_call4_v1, main_v62, main_v63, main_v64, main_v65]
theorem keep7 (b : Ref sig .tc) (hb : b ∉ written7) :
    after (stretch7 (F := Ideal)) V (no_index (Proc.devRef .tc b)) = V (Proc.devRef .tc b) := by
  refine after_of_forall_not_mem _ _ (List.forall_iff_forall_mem.mp ?_)
  simp only [stretch7, List.Forall, nullary_writes, unary_writes, binary_writes, ternary_writes, Finset.mem_singleton]
  repeat' apply And.intro
  all_goals exact devRef_ne_of_ne (by intro e; subst e; exact hb (by decide))

/-- The buffers stretch 8 writes. -/
abbrev written8 : List (Ref sig .tc) := [main_v66]
theorem keep8 (b : Ref sig .tc) (hb : b ∉ written8) :
    after (stretch8 (F := Ideal)) V (no_index (Proc.devRef .tc b)) = V (Proc.devRef .tc b) := by
  refine after_of_forall_not_mem _ _ (List.forall_iff_forall_mem.mp ?_)
  simp only [stretch8, List.Forall, nullary_writes, unary_writes, binary_writes, ternary_writes, Finset.mem_singleton]
  repeat' apply And.intro
  all_goals exact devRef_ne_of_ne (by intro e; subst e; exact hb (by decide))

/-- The buffers stretch 9 writes. -/
abbrev written9 : List (Ref sig .tc) := [main_v67, main_v68, main_v69, main_v70, main_v71, main_call5_cst, main_call5_v0, main_v72]
theorem keep9 (b : Ref sig .tc) (hb : b ∉ written9) :
    after (stretch9 (F := Ideal)) V (no_index (Proc.devRef .tc b)) = V (Proc.devRef .tc b) := by
  refine after_of_forall_not_mem _ _ (List.forall_iff_forall_mem.mp ?_)
  simp only [stretch9, List.Forall, nullary_writes, unary_writes, binary_writes, ternary_writes, Finset.mem_singleton]
  repeat' apply And.intro
  all_goals exact devRef_ne_of_ne (by intro e; subst e; exact hb (by decide))

/-- The buffers stretch 10 writes. -/
abbrev written10 : List (Ref sig .tc) := [main_v73, main_v74, main_call6_v0, main_call6_cst, main_call6_v1, main_call6_v2, main_v75, main_cst_8, main_v76, main_v77, main_cst_9, main_call7_v0, main_call7_v1, main_v78, main_v79, main_v80, main_c_10, main_v81, main_v82, main_c_11, main_v83, main_v84, main_v85, main_v86, main_v87, main_c_12, main_v88, main_v89, main_c_13, main_v90, main_v91, main_v92, main_v93, main_v94, main_c_14, main_v95, main_v96, main_c_15, main_v97, main_v98, main_v99, main_v100, main_v101, main_v102, main_cst_16, main_v103, main_c_17, main_v104, main_v105, main_c_18, main_v106, main_v107, main_v108, main_v109, main_v110, main_v111, main_c_19, main_v112, main_v113, main_c_20, main_v114, main_v115, main_v116, main_v117, main_v118, main_v119, main_c_21, main_v120, main_v121, main_c_22, main_v122, main_v123, main_v124, main_v125, main_v126, main_c_23, main_v127, main_v128, main_c_24, main_v129, main_v130, main_v131, main_v132, main_v133, main_v134, main_cst_25, main_v135, main_c_26, main_v136, main_v137, main_c_27, main_v138, main_v139, main_v140, main_v141, main_v142, main_v143, main_c_28, main_v144, main_v145, main_c_29, main_v146, main_v147, main_v148, main_v149, main_v150, main_v151, main_v152, main_cst_30, main_v153, main_v154, main_cst_31, main_call8_v0, main_call8_v1, main_v155]
theorem keep10 (b : Ref sig .tc) (hb : b ∉ written10) :
    after (stretch10 (F := Ideal)) V (no_index (Proc.devRef .tc b)) = V (Proc.devRef .tc b) := by
  refine after_of_forall_not_mem _ _ (List.forall_iff_forall_mem.mp ?_)
  simp only [stretch10, List.Forall, nullary_writes, unary_writes, binary_writes, ternary_writes, Finset.mem_singleton]
  repeat' apply And.intro
  all_goals exact devRef_ne_of_ne (by intro e; subst e; exact hb (by decide))

/-! ## What each stretch leaves in its outputs -/

/-- The first stretch leaves the projected features. -/
theorem val1 : after (stretch1 (F := Ideal)) V (no_index (Proc.devRef .tc main_v4))
    = (Cert.Stages.projected (F := Ideal) (V (Proc.devRef .tc main_arg0)) (V (Proc.devRef .tc main_arg1)) (V (Proc.devRef .tc main_arg2)) : (⟨S131072x256, .f32⟩ : BufTy).Contents (Elt Ideal)) := by
  read_stretch
  all_goals (first | (drop_reference_transports; rfl) | rfl)

/-- The second stretch leaves the first 32768 projected rows -/
theorem val2_head : after (stretch2 (F := Ideal)) V (no_index (Proc.devRef .tc main_v5))
    = (extractStridedSlice S32768x256 ![0, 0] (V (Proc.devRef .tc main_v4)) slices_S131072x256_S32768x256_0_0 : (⟨S32768x256, .f32⟩ : BufTy).Contents (Elt Ideal)) := by
  read_stretch
  all_goals (first | (drop_reference_transports; rfl) | rfl)

/-- and the first node transform. -/
theorem val2 : after (stretch2 (F := Ideal)) V (no_index (Proc.devRef .tc main_v11))
    = (Cert.Stages.nodes1 (F := Ideal) (V (Proc.devRef .tc main_v4)) (V (Proc.devRef .tc main_arg3)) (V (Proc.devRef .tc main_arg4)) : (⟨S131072x256, .f32⟩ : BufTy).Contents (Elt Ideal)) := by
  read_stretch
  all_goals (first | (drop_reference_transports; rfl) | rfl)

/-- The third stretch leaves the first aggregate: the node rows gathered along the edges, scaled, summed into their destinations and divided by the floored total weights. -/
theorem val3 : after (stretch3 (F := Ideal)) V (no_index (Proc.devRef .tc main_v31))
    = Cert.Stages.aggregated1 (F := Ideal) (V (Proc.devRef .tc main_v11)) (V (Proc.devRef .tc main_arg11)) (V (Proc.devRef .tc main_arg14)) (V (Proc.devRef .tc main_arg15)) := by
  read_stretch
  all_goals (first | (drop_reference_transports; rfl) | rfl)

/-- The fourth stretch joins the aggregate and the first projected rows. -/
theorem val4 : after (stretch4 (F := Ideal)) V (no_index (Proc.devRef .tc main_v32))
    = (Cert.LibJoinTwo.join2 S32768x512 1 S32768x256 S32768x256 concatenates_S32768x256_S32768x256_S32768x512_d1 (V (Proc.devRef .tc main_v31)) (V (Proc.devRef .tc main_v5)) : (⟨S32768x512, .f32⟩ : BufTy).Contents (Elt Ideal)) := by
  read_stretch
  all_goals (first | (drop_reference_transports; rfl) | rfl)

/-- The fifth stretch leaves the first combine transform. -/
theorem val5 : after (stretch5 (F := Ideal)) V (no_index (Proc.devRef .tc main_v38))
    = (Cert.Stages.hidden1 (F := Ideal) (V (Proc.devRef .tc main_v32)) (V (Proc.devRef .tc main_arg5)) (V (Proc.devRef .tc main_arg6)) : (⟨S32768x256, .f32⟩ : BufTy).Contents (Elt Ideal)) := by
  read_stretch
  all_goals (first | (drop_reference_transports; rfl) | rfl)

/-- The sixth stretch leaves the first 8192 rows of it -/
theorem val6_head : after (stretch6 (F := Ideal)) V (no_index (Proc.devRef .tc main_v39))
    = (extractStridedSlice S8192x256 ![0, 0] (V (Proc.devRef .tc main_v38)) slices_S32768x256_S8192x256_0_0 : (⟨S8192x256, .f32⟩ : BufTy).Contents (Elt Ideal)) := by
  read_stretch
  all_goals (first | (drop_reference_transports; rfl) | rfl)

/-- and the second node transform. -/
theorem val6 : after (stretch6 (F := Ideal)) V (no_index (Proc.devRef .tc main_v45))
    = (Cert.Stages.nodes2 (F := Ideal) (V (Proc.devRef .tc main_v38)) (V (Proc.devRef .tc main_arg7)) (V (Proc.devRef .tc main_arg8)) : (⟨S32768x256, .f32⟩ : BufTy).Contents (Elt Ideal)) := by
  read_stretch
  all_goals (first | (drop_reference_transports; rfl) | rfl)

/-- The seventh stretch leaves the second aggregate. -/
theorem val7 : after (stretch7 (F := Ideal)) V (no_index (Proc.devRef .tc main_v65))
    = Cert.Stages.aggregated2 (F := Ideal) (V (Proc.devRef .tc main_v45)) (V (Proc.devRef .tc main_arg12)) (V (Proc.devRef .tc main_arg16)) (V (Proc.devRef .tc main_arg17)) := by
  read_stretch
  all_goals (first | (drop_reference_transports; rfl) | rfl)

/-- The eighth stretch joins it with the first rows of the first convolution's output. -/
theorem val8 : after (stretch8 (F := Ideal)) V (no_index (Proc.devRef .tc main_v66))
    = (Cert.LibJoinTwo.join2 S8192x512 1 S8192x256 S8192x256 concatenates_S8192x256_S8192x256_S8192x512_d1 (V (Proc.devRef .tc main_v65)) (V (Proc.devRef .tc main_v39)) : (⟨S8192x512, .f32⟩ : BufTy).Contents (Elt Ideal)) := by
  read_stretch
  all_goals (first | (drop_reference_transports; rfl) | rfl)

/-- The ninth stretch leaves the second combine transform. -/
theorem val9 : after (stretch9 (F := Ideal)) V (no_index (Proc.devRef .tc main_v72))
    = (Cert.Stages.hidden2 (F := Ideal) (V (Proc.devRef .tc main_v66)) (V (Proc.devRef .tc main_arg9)) (V (Proc.devRef .tc main_arg10)) : (⟨S8192x256, .f32⟩ : BufTy).Contents (Elt Ideal)) := by
  read_stretch
  all_goals (first | (drop_reference_transports; rfl) | rfl)

set_option maxHeartbeats 8000000 in
/-- The last stretch leaves the margin loss of the normalized skip connection. -/
theorem val10 : after (stretch10 (F := Ideal)) V (no_index (Proc.devRef .tc main_v155))
    = (Cert.Stages.margin (F := Ideal) (Cert.Stages.normalized (Cert.Stages.skipped (V (Proc.devRef .tc main_v4)) (V (Proc.devRef .tc main_v72)))) (Cert.Stages.nodeBias (V (Proc.devRef .tc main_arg13)) (V (Proc.devRef .tc main_arg22))) (V (Proc.devRef .tc main_arg18)) (V (Proc.devRef .tc main_arg19)) (V (Proc.devRef .tc main_arg20)) (V (Proc.devRef .tc main_arg21)) : (⟨S8192, .f32⟩ : BufTy).Contents (Elt Ideal)) := by
  read_stretch
  all_goals (first | (drop_reference_transports; rfl) | rfl)

/-! ## The whole run -/

variable (m : (ℓ : Loc nD τ sig) → Buf (Elt Ideal) ℓ) (c : Dev nD)

set_option maxHeartbeats 4000000 in
/-- Read through the ten stretches from the launch memory, the result array is the composed stages of the arguments. -/
theorem value : after ops (launchContents m c) (Proc.devRef .tc main_v155)
    = Cert.Stages.composed (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [ops_split]
  simp only [after_append]
  simp (disch := decide) only [val10, val9, val8, val7, val6, val6_head, val5, val4, val3, val2, val2_head, val1,
    keep9, keep8, keep7, keep6, keep5, keep4, keep3, keep2, keep1]
  unfold Cert.Stages.composed Cert.Stages.secondConv Cert.Stages.firstConv Cert.Stages.gathered2 Cert.Stages.gathered1
    Cert.Stages.aggregated2 Cert.Stages.aggregated1 Cert.LibJoinTwo.join2
  rfl

/-- No stretch writes an argument array. -/
theorem kept (b : Ref sig .tc) (h1 : b ∉ written1) (h2 : b ∉ written2) (h3 : b ∉ written3) (h4 : b ∉ written4) (h5 : b ∉ written5)
    (h6 : b ∉ written6) (h7 : b ∉ written7) (h8 : b ∉ written8) (h9 : b ∉ written9) (h10 : b ∉ written10) :
    after ops (launchContents m c) (Proc.devRef .tc b) = m ((c.tc : Thread nD τ).loc b) := by
  rw [ops_split]
  simp only [after_append]
  rw [keep10 _ b h10, keep9 _ b h9, keep8 _ b h8, keep7 _ b h7, keep6 _ b h6, keep5 _ b h5, keep4 _ b h4, keep3 _ b h3, keep2 _ b h2, keep1 _ b h1]

/-- THE RUN of the idealized reference program: every weakly fair execution ends with the result array at the composed
    stages of the argument arrays and the argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v155)
        = Cert.Stages.composed (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v155).trans (value m c),
      (h c main_arg0).trans (kept m c main_arg0 (by decide) (by decide) (by decide) (by decide) (by decide) (by decide) (by decide) (by decide) (by decide) (by decide)),
      (h c main_arg1).trans (kept m c main_arg1 (by decide) (by decide) (by decide) (by decide) (by decide) (by decide) (by decide) (by decide) (by decide) (by decide)),
      (h c main_arg2).trans (kept m c main_arg2 (by decide) (by decide) (by decide) (by decide) (by decide) (by decide) (by decide) (by decide) (by decide) (by decide)),
      (h c main_arg3).trans (kept m c main_arg3 (by decide) (by decide) (by decide) (by decide) (by decide) (by decide) (by decide) (by decide) (by decide) (by decide)),
      (h c main_arg4).trans (kept m c main_arg4 (by decide) (by decide) (by decide) (by decide) (by decide) (by decide) (by decide) (by decide) (by decide) (by decide)),
      (h c main_arg5).trans (kept m c main_arg5 (by decide) (by decide) (by decide) (by decide) (by decide) (by decide) (by decide) (by decide) (by decide) (by decide)),
      (h c main_arg6).trans (kept m c main_arg6 (by decide) (by decide) (by decide) (by decide) (by decide) (by decide) (by decide) (by decide) (by decide) (by decide)),
      (h c main_arg7).trans (kept m c main_arg7 (by decide) (by decide) (by decide) (by decide) (by decide) (by decide) (by decide) (by decide) (by decide) (by decide)),
      (h c main_arg8).trans (kept m c main_arg8 (by decide) (by decide) (by decide) (by decide) (by decide) (by decide) (by decide) (by decide) (by decide) (by decide)),
      (h c main_arg9).trans (kept m c main_arg9 (by decide) (by decide) (by decide) (by decide) (by decide) (by decide) (by decide) (by decide) (by decide) (by decide)),
      (h c main_arg10).trans (kept m c main_arg10 (by decide) (by decide) (by decide) (by decide) (by decide) (by decide) (by decide) (by decide) (by decide) (by decide)),
      (h c main_arg11).trans (kept m c main_arg11 (by decide) (by decide) (by decide) (by decide) (by decide) (by decide) (by decide) (by decide) (by decide) (by decide)),
      (h c main_arg12).trans (kept m c main_arg12 (by decide) (by decide) (by decide) (by decide) (by decide) (by decide) (by decide) (by decide) (by decide) (by decide)),
      (h c main_arg13).trans (kept m c main_arg13 (by decide) (by decide) (by decide) (by decide) (by decide) (by decide) (by decide) (by decide) (by decide) (by decide)),
      (h c main_arg14).trans (kept m c main_arg14 (by decide) (by decide) (by decide) (by decide) (by decide) (by decide) (by decide) (by decide) (by decide) (by decide)),
      (h c main_arg15).trans (kept m c main_arg15 (by decide) (by decide) (by decide) (by decide) (by decide) (by decide) (by decide) (by decide) (by decide) (by decide)),
      (h c main_arg16).trans (kept m c main_arg16 (by decide) (by decide) (by decide) (by decide) (by decide) (by decide) (by decide) (by decide) (by decide) (by decide)),
      (h c main_arg17).trans (kept m c main_arg17 (by decide) (by decide) (by decide) (by decide) (by decide) (by decide) (by decide) (by decide) (by decide) (by decide)),
      (h c main_arg18).trans (kept m c main_arg18 (by decide) (by decide) (by decide) (by decide) (by decide) (by decide) (by decide) (by decide) (by decide) (by decide)),
      (h c main_arg19).trans (kept m c main_arg19 (by decide) (by decide) (by decide) (by decide) (by decide) (by decide) (by decide) (by decide) (by decide) (by decide)),
      (h c main_arg20).trans (kept m c main_arg20 (by decide) (by decide) (by decide) (by decide) (by decide) (by decide) (by decide) (by decide) (by decide) (by decide)),
      (h c main_arg21).trans (kept m c main_arg21 (by decide) (by decide) (by decide) (by decide) (by decide) (by decide) (by decide) (by decide) (by decide) (by decide)),
      (h c main_arg22).trans (kept m c main_arg22 (by decide) (by decide) (by decide) (by decide) (by decide) (by decide) (by decide) (by decide) (by decide) (by decide))⟩)
    (run_seq scopedRefs_eq scopedSems_eq defs main (fun _ => ops) main_eq (fun _ => ops_sub) m ρ)

end Cert.ReferenceIdeal.StageRun

end
-- ==== Proof.lean ====
/-
  The certificate of a PinSAGE-style scorer: five dense layers as tiled kernels (a projection X · Wpᵀ + bp, and in
  each of two weighted graph convolutions a node transform max (h · Qᵀ + bq, 0) and a combine transform
  max (z · Wᵀ + bw, 0)), with the edge gather, the weighted scatter-sum, the skip connection, the row normalization
  and the pairwise margin loss on the host, against the same computation written with whole-array products.

  Over the extended reals the two programs compute ONE function of the 23 argument arrays. A change of float format
  is the identity there, so a tile's product of bf16-rounded blocks into a zero accumulator plus the bias row is
  entry by entry ∑ k, X (p, k) · Wᵀ (k, n) + b n — what the host's product with the transposed weights plus the
  broadcast bias is; the row blocks tile each result array, so each dense layer's array is the reference's stage of
  its inputs. Everything between the dense layers is the same host operations on both sides, carried as one function
  per stage and never opened. No law of arithmetic is used: the precondition (finite inputs) is not needed.

  The frames of the two kernel programs are the generated ones; the reference's frame is its run with the result
  dropped; the idealization rewrote nothing, so `preserves` is trivial.
-/
import proofs.«167631_j23278722744485_1_alg».proof.Defs
import proofs.«167631_j23278722744485_1_alg».proof.Proof.Gen.Kernel
import proofs.«167631_j23278722744485_1_alg».proof.Proof.Gen.Kernel.Frame
import proofs.«167631_j23278722744485_1_alg».proof.Proof.Gen.KernelIdeal
import proofs.«167631_j23278722744485_1_alg».proof.Proof.Gen.KernelIdeal.Frame
import proofs.«167631_j23278722744485_1_alg».proof.Proof.Gen.ReferenceIdeal
import proofs.«167631_j23278722744485_1_alg».proof.Proof.Gen.Pre_finite_inputs
import proofs.«167631_j23278722744485_1_alg».proof.Proof.KernelRun
import proofs.«167631_j23278722744485_1_alg».proof.Proof.ChainC
import proofs.«167631_j23278722744485_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.StageRun.run m ρ)

/-- At the extended reals both programs end with the result array at the composed stages of arguments that agree. -/
theorem algebraic : Cert.algebraic_KernelIdeal_ReferenceIdeal := by
  intro m ρ m' ρ' _ hagree
  refine ⟨fun c => Cert.Stages.composed (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun _ h c => ⟨(h c).1.trans (Cert.KernelIdeal.Chain.result_value m ρ c), (h c).2⟩)
      (Cert.KernelIdeal.Gen.run_result m ρ)
  · refine (θ_run Cert.ReferenceIdeal.defs _ _).mono (fun _ h c => ⟨(h c).1.trans ?_, (h c).2⟩)
      (Cert.ReferenceIdeal.StageRun.run m' ρ')
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
